-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x3 : Shape := ⟨3, ![16, 2048, 3]⟩
abbrev S16 : Shape := ⟨1, ![16]⟩
abbrev S_ : Shape := ⟨0, ![]⟩

class Facts : Prop where
  bcast_S_S16x2048x3 : S_.BroadcastsInDim S16x2048x3 (![] : Fin 0 → Fin S16x2048x3.rank)
  reducesTo_S16x2048x3_S_d0_1_2 : S16x2048x3.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x3 .f32) (main_arg1 : FVec F S16x2048x3 .f32) (main_arg2 : FVec F S16 .f32) : IVec S_ 1 :=
  let main_v0 : FVec F S16x2048x3 .f32 := Host.absf main_arg0
  let main_cst : FVec F S_ .f32 := constant S_ .f32 0x7F800000#32
  let main_v1 : FVec F S16x2048x3 .f32 := broadcastInDim S16x2048x3 ![] bcast_S_S16x2048x3 main_cst
  let main_v2 : IVec S16x2048x3 1 := cmpf .olt main_v0 main_v1
  let main_c : IVec S_ 1 := constantI S_ 1 1#1
  let main_v3 : IVec S_ 1 := (fun x v => Host.reduce IntOp.andi x v reducesTo_S16x2048x3_S_d0_1_2 h_S_) main_v2 main_c
  let main_v4 : FVec F S16x2048x3 .f32 := Host.absf main_arg1
  let main_cst_0 : FVec F S_ .f32 := constant S_ .f32 0x7F800000#32
  let main_v5 : FVec F S16x2048x3 .f32 := broadcastInDim S16x2048x3 ![] bcast_S_S16x2048x3 main_cst_0
  let main_v6 : IVec S16x2048x3 1 := cmpf .olt main_v4 main_v5
  let main_c_1 : IVec S_ 1 := constantI S_ 1 1#1
  let main_v7 : IVec S_ 1 := (fun x v => Host.reduce IntOp.andi x v reducesTo_S16x2048x3_S_d0_1_2 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16x2048x3 : Shape := ⟨3, ![16, 2048, 3]⟩
abbrev S16 : Shape := ⟨1, ![16]⟩
abbrev S16x3x2048 : Shape := ⟨3, ![16, 3, 2048]⟩
abbrev S16x1 : Shape := ⟨2, ![16, 1]⟩
abbrev S8x3x256 : Shape := ⟨3, ![8, 3, 256]⟩
abbrev S8x3x512 : Shape := ⟨3, ![8, 3, 512]⟩
abbrev S8x1 : Shape := ⟨2, ![8, 1]⟩
abbrev S8x256 : Shape := ⟨2, ![8, 256]⟩
abbrev S8x1x256 : Shape := ⟨3, ![8, 1, 256]⟩
abbrev S8x256x1 : Shape := ⟨3, ![8, 256, 1]⟩
abbrev S8x1x512 : Shape := ⟨3, ![8, 1, 512]⟩
abbrev S8x512 : Shape := ⟨2, ![8, 512]⟩
abbrev S8x256x512 : Shape := ⟨3, ![8, 256, 512]⟩
abbrev S8 : Shape := ⟨1, ![8]⟩
abbrev S_ : Shape := ⟨0, ![]⟩

abbrev nBuf : Space → Nat
  | .hbm => 19
  | .vmem => 13
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16, .f32⟩
  | .hbm, ⟨3, _⟩ => ⟨S16x3x2048, .f32⟩
  | .hbm, ⟨4, _⟩ => ⟨S16x3x2048, .f32⟩
  | .hbm, ⟨5, _⟩ => ⟨S16x1, .f32⟩
  | .hbm, ⟨6, _⟩ => ⟨S16x1, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x3x256, .f32⟩
  | .local _ .vmem, ⟨1, _⟩ => ⟨S8x3x256, .f32⟩
  | .local _ .vmem, ⟨2, _⟩ => ⟨S8x3x512, .f32⟩
  | .local _ .vmem, ⟨3, _⟩ => ⟨S8x3x512, .f32⟩
  | .local _ .vmem, ⟨4, _⟩ => ⟨S8x3x256, .f32⟩
  | .local _ .vmem, ⟨5, _⟩ => ⟨S8x3x256, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | .local _ .vmem, ⟨9, _⟩ => ⟨S8x1, .f32⟩
  | .local _ .vmem, ⟨10, _⟩ => ⟨S8x256, .f32⟩
  | .local _ .vmem, ⟨11, _⟩ => ⟨S8x1, .f32⟩
  | .local _ .vmem, ⟨12, _⟩ => ⟨S8x1, .f32⟩
  | _, _ => ⟨S16x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_cond4 (i : grid0.Coords) : BitVec 1 :=
  let arg1 : BitVec 32 := BitVec.ofNat 32 (i 1).val
  let c7_i32 : BitVec 32 := 7#32
  let v53 : BitVec 1 := Scalar.cmpi .eq arg1 c7_i32
  let arg2 : BitVec 32 := BitVec.ofNat 32 (i 2).val
  let c3_i32_14 : BitVec 32 := 3#32
  let v54 : BitVec 1 := Scalar.cmpi .eq arg2 c3_i32_14
  let v55 : BitVec 1 := Scalar.andi v53 v54
  let v56 : BitVec 32 := Scalar.extui v55
  let c0_i32_15 : BitVec 32 := 0#32
  let v57 : BitVec 1 := Scalar.cmpi .ne v56 c0_i32_15
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S8x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S8x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  transposes_S16x2048x3_S16x3x2048_0_2_1 : S16x2048x3.Transposes [0, 2, 1] S16x3x2048
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x3x256_S8x3x256_0_0_0 : ∀ a, (![0, 0, 0] : Fin 3 → Nat) a + S8x3x256.size a ≤ S8x3x256.size a
  h_S8x3x256 : 0 < S8x3x256.numel
  shapeCasts_S8x3x256_S8x3x256 : S8x3x256.ShapeCasts S8x3x256
  inb_S8x3x512_S8x3x512_0_0_0 : ∀ a, (![0, 0, 0] : Fin 3 → Nat) a + S8x3x512.size a ≤ S8x3x512.size a
  h_S8x3x512 : 0 < S8x3x512.numel
  shapeCasts_S8x3x512_S8x3x512 : S8x3x512.ShapeCasts S8x3x512
  slices_S8x3x256_o0_0_0_S8x1x256 : S8x3x256.Slices ![0, 0, 0] S8x1x256
  shapeCasts_S8x1x256_S8x256 : S8x1x256.ShapeCasts S8x256
  shapeCasts_S8x256_S8x256x1 : S8x256.ShapeCasts S8x256x1
  slices_S8x3x512_o0_0_0_S8x1x512 : S8x3x512.Slices ![0, 0, 0] S8x1x512
  shapeCasts_S8x1x512_S8x512 : S8x1x512.ShapeCasts S8x512
  shapeCasts_S8x512_S8x1x512 : S8x512.ShapeCasts S8x1x512
  broadcasts_S8x256x1_S8x256x512 : S8x256x1.Broadcasts S8x256x512
  broadcasts_S8x1x512_S8x256x512 : S8x1x512.Broadcasts S8x256x512
  slices_S8x3x256_o0_1_0_S8x1x256 : S8x3x256.Slices ![0, 1, 0] S8x1x256
  slices_S8x3x512_o0_1_0_S8x1x512 : S8x3x512.Slices ![0, 1, 0] S8x1x512
  slices_S8x3x256_o0_2_0_S8x1x256 : S8x3x256.Slices ![0, 2, 0] S8x1x256
  slices_S8x3x512_o0_2_0_S8x1x512 : S8x3x512.Slices ![0, 2, 0] S8x1x512
  reduces_S8x256x512_S8x256 : S8x256x512.Reduces [2] S8x256
  reduces_S8x256_S8 : S8x256.Reduces [1] S8
  shapeCasts_S8_S8x1 : S8.ShapeCasts S8x1
  reduces_S8x3x256_S8x256 : S8x3x256.Reduces [1] S8x256
  shapeCasts_S16x1_S16 : S16x1.ShapeCasts S16
  bcast_S_S16 : S_.BroadcastsInDim S16 (![] : Fin 0 → Fin S16.rank)
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256.size a ≤ S16x3x2048.size a
  hwx0_0 : ∀ i : grid0.Coords, EltTy.bits .f32 = 32 ∨ (Rect.block (s := S16x3x2048) S8x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x512.size a ≤ S16x3x2048.size a
  hwx0_1 : ∀ i : grid0.Coords, EltTy.bits .f32 = 32 ∨ (Rect.block (s := S16x3x2048) S8x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x3x256.size a ≤ S16x3x2048.size a
  hwx0_2 : ∀ i : grid0.Coords, EltTy.bits .f32 = 32 ∨ (Rect.block (s := S16x3x2048) S8x3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1.size a ≤ S16x1.size a
  hwx0_4 : ∀ i : grid0.Coords, EltTy.bits .f32 = 32 ∨ (Rect.block (s := S16x1) S8x1.size (cc0_transform_4 i) (hinb0_4 i)).WholeWords (EltTy.packing .f32)

variable [Facts₀]

abbrev win0_0 : Pipeline.Window sig grid0 :=
  Pipeline.Window.ofSpec (Memref.whole main_v0) S8x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S8x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S8x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond4 i == 1#1) | 4 => fun i => !(k0_cond4 i == 1#1) | ⟨_ + 5, h⟩ => absurd h (Nat.not_lt.2 (Nat.le_add_left _ _))

class Facts : Prop extends Facts₀ where

variable [Facts]
-- ==== ReferenceIdeal.lean ====
abbrev S16x2048x3 : Shape := ⟨3, ![16, 2048, 3]⟩
abbrev S16 : Shape := ⟨1, ![16]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩

abbrev nBuf : Space → Nat
  | .hbm => 50
  | .vmem => 0
  | .smem => 0
  | _ => 0

abbrev bufTy : (tb : Table) → Fin (tcTables nBuf tb) → BufTy
  | .hbm, ⟨0, _⟩ => ⟨S16x2048x3, .f32⟩
  | .hbm, ⟨1, _⟩ => ⟨S16x2048x3, .f32⟩
  | .hbm, ⟨2, _⟩ => ⟨S16, .f32⟩
  | .hbm, ⟨3, _⟩ => ⟨S16x2048x3, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S16x2048x3, .f32⟩
  | .hbm, ⟨8, _⟩ => ⟨S_, .f32⟩
  | .hbm, ⟨9, _⟩ => ⟨S16x2048, .f32⟩
  | .hbm, ⟨10, _⟩ => ⟨S16x1x2048, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S16x2048x2048, .f32⟩
  | .hbm, ⟨15, _⟩ => ⟨S_, .f32⟩
  | .hbm, ⟨16, _⟩ => ⟨S16x2048x2048, .f32⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16x2048x3, .f32⟩
  | .hbm, ⟨31, _⟩ => ⟨S16x2048x3, .f32⟩
  | .hbm, ⟨32, _⟩ => ⟨S_, .f32⟩
  | .hbm, ⟨33, _⟩ => ⟨S16x2048, .f32⟩
  | .hbm, ⟨34, _⟩ => ⟨S16x2048, .f32⟩
  | .hbm, ⟨35, _⟩ => ⟨S_, .f32⟩
  | .hbm, ⟨36, _⟩ => ⟨S16, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S16x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  reducesTo_S16x2048x3_S16x2048_d2 : S16x2048x3.ReducesTo [2] S16x2048
  h_S_ : 0 < S_.numel
  bcast_S16x2048_S16x2048x1_0_1 : S16x2048.BroadcastsInDim S16x2048x1 (![0, 1] : Fin 2 → Fin S16x2048x1.rank)
  bcast_S16x2048_S16x1x2048_0_2 : S16x2048.BroadcastsInDim S16x1x2048 (![0, 2] : Fin 2 → Fin S16x1x2048.rank)
  bcast_S16x2048x1_S16x2048x2048_0_1_2 : S16x2048x1.BroadcastsInDim S16x2048x2048 (![0, 1, 2] : Fin 3 → Fin S16x2048x2048.rank)
  bcast_S16x1x2048_S16x2048x2048_0_1_2 : S16x1x2048.BroadcastsInDim S16x2048x2048 (![0, 1, 2] : Fin 3 → Fin S16x2048x2048.rank)
  bcast_S_S16x2048x2048 : S_.BroadcastsInDim S16x2048x2048 (![] : Fin 0 → Fin S16x2048x2048.rank)
  reducesTo_S16x2048x2048_S16x2048_d2 : S16x2048x2048.ReducesTo [2] S16x2048
  reducesTo_S16x2048_S16_d1 : S16x2048.ReducesTo [1] S16
  bcast_S_S16 : S_.BroadcastsInDim S16 (![] : Fin 0 → Fin S16.rank)
  reducesTo_S16_S_d0 : S16.ReducesTo [0] S_
  dot_S16x2048x3_S16x2048x3_S16x2048x2048_2_2_1_1_0_0_wf : DotDims.WF S16x2048x3 S16x2048x3 S16x2048x2048 [2] [2] [1] [1] [0] [0]

variable [Facts₀]

def dot_S16x2048x3_S16x2048x3_S16x2048x2048_2_2_1_1_0_0 : DotDims S16x2048x3 S16x2048x3 S16x2048x2048 where
  lhsContracting := [2]
  rhsContracting := [2]
  lhsNonContracting := [1]
  rhsNonContracting := [1]
  lhsBatch := [0]
  rhsBatch := [0]
  wf := dot_S16x2048x3_S16x2048x3_S16x2048x2048_2_2_1_1_0_0_wf

class Facts : Prop extends Facts₀ where

variable [Facts]
-- ==== Proof.State.lean ====
/-
  The kernel's carried state and what one grid point does to it, as a pure function, at any float instance.

  The grid has 64 points `n = 32·b + 4·ni + mi` (`b < 2` the half of the batch, `ni < 8` the tile of 256 points of the
  first cloud, `mi < 4` the tile of 512 points of the second). Between points the kernel keeps three scratch
  arrays: `M` (per row and point of the current `ni` tile, the least squared distance met so far over the `mi`
  tiles), `S1` and `S2` (per row, the sums so far of the nearest-point distances and of the same-index distances).
  At a point, with the three input blocks `x0` (first cloud, tile `ni`), `x1` (second cloud, tile `mi`), `x2`
  (second cloud, tile `ni`):
  * at `ni = mi = 0` (`n % 32 = 0`) the sums restart from zero;
  * at `mi = 0` (`n % 4 = 0`) the minima restart from `+∞`;
  * the minima take in the tile's squared distances;
  * at `mi = 3` (`n % 4 = 3`) the sums take in the tile's distances;
  and at `ni = 7, mi = 3` (`n % 32 = 31`) the two output blocks are the sums times `1/2048`.
  Each step is the body's own payload (the generated skeleton's `k0_payN`), so nothing is transcribed.
-/
import proofs.«102313_j17695265260053_2_alg».proof.Proof.Gen.KernelIdeal.Skeleton

noncomputable section

namespace Cert.KernelIdeal.Chamfer

open Idealize.ShloMosaic Cert.KernelIdeal Cert.KernelIdeal.Gen

variable {F : FTy → Type} [FloatOps F]

/-- The three scratch arrays between grid points. -/
structure St (F : FTy → Type) [FloatOps F] where
  M : Vec F S8x256 .f32
  S1 : Vec F S8x1 .f32
  S2 : Vec F S8x1 .f32

/-- The three input blocks a grid point is handed. -/
structure Blk (F : FTy → Type) [FloatOps F] where
  x0 : Vec F S8x3x256 .f32
  x1 : Vec F S8x3x512 .f32
  x2 : Vec F S8x3x256 .f32

/-- The minima after the point: restarted at `mi = 0`, then the tile's squared distances taken in. -/
def stepM (n : ℕ) (x : Blk F) (s : St F) : Vec F S8x256 .f32 :=
  k0_pay1 (k0_pay10 x.x0 x.x1) (if n % 4 = 0 then k0_pay8 else s.M)

/-- The first sums after the point: restarted at `ni = mi = 0`, the tile's nearest-point distances added at `mi = 3`. -/
def stepS1 (n : ℕ) (x : Blk F) (s : St F) : Vec F S8x1 .f32 :=
  if n % 4 = 3 then k0_pay2 (stepM n x s) (if n % 32 = 0 then k0_pay6 else s.S1)
  else (if n % 32 = 0 then k0_pay6 else s.S1)

/-- The second sums after the point: restarted at `ni = mi = 0`, the tile's same-index distances added at `mi = 3`. -/
def stepS2 (n : ℕ) (x : Blk F) (s : St F) : Vec F S8x1 .f32 :=
  if n % 4 = 3 then k0_pay3 (k0_pay9 x.x0) x.x2 (if n % 32 = 0 then k0_pay7 else s.S2)
  else (if n % 32 = 0 then k0_pay7 else s.S2)

/-- One grid point on the carried state. -/
def step (n : ℕ) (x : Blk F) (s : St F) : St F := ⟨stepM n x s, stepS1 n x s, stepS2 n x s⟩

/-- The state after point `n`, the points' blocks given as a function of the point; before the first point the
    scratch arrays hold `s₀` (anything: the first point restarts all three before reading them). -/
def runTo (blocks : ℕ → Blk F) (s₀ : St F) : ℕ → St F
  | 0 => step 0 (blocks 0) s₀
  | n + 1 => step (n + 1) (blocks (n + 1)) (runTo blocks s₀ n)

/-- What the two output blocks hold once stored (at the last point of a batch half). -/
def out3 (s : St F) : Vec F S8x1 .f32 := k0_pay4 s.S1
def out4 (s : St F) : Vec F S8x1 .f32 := k0_pay5 s.S2

end Cert.KernelIdeal.Chamfer

end
-- ==== Proof.Body.lean ====
/-
  The kernel body run at one grid point, case by case of its four branch conditions.

  On whole staging and scratch buffers held at given contents — the three input blocks `x0 x1 x2`, the two output
  buffers `o3 o4`, the three scratch arrays `sM s1 s2` — the body runs to the end, faulting nowhere, and leaves the
  inputs as they were and each other buffer at the value its last store wrote (or untouched). The five cases the
  grid meets:
  * A, `ni = 0, mi = 0`: both sums restart at zero, the minima restart at `+∞` and take in the tile;
  * B, `ni > 0, mi = 0`: the minima restart and take in the tile, the sums stay;
  * C, `mi = 1, 2`: the minima take in the tile;
  * D, `mi = 3, ni < 7`: the minima take in the tile, then both sums take in their distances;
  * E, `ni = 7, mi = 3`: as D, then both output blocks are stored.
  The values are the body's own payload terms, so nothing the body computes is transcribed; the statements hold at
  any float instance.
-/
import proofs.«102313_j17695265260053_2_alg».proof.Proof.Gen.KernelIdeal.Launch
import proofs.«102313_j17695265260053_2_alg».proof.Proof.Gen.KernelIdeal.Skeleton
import proofs.«102313_j17695265260053_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Whole-buffer stores and loads read back

Every store of the body writes a whole buffer through the rectangle at zero offsets of the buffer's own sizes, and
every load reads one whole. So the contents after any list of stores whose LAST is such a store are that store's
value, and a load after it reads that value. -/

theorem hz2 : (![0, 0] : Fin 2 → ℕ) = fun _ => 0 := by funext a; fin_cases a <;> rfl
theorem hz3 : (![0, 0, 0] : Fin 3 → ℕ) = fun _ => 0 := by funext a; fin_cases a <;> rfl

section Whole

variable {Val : EltTy → Type} [∀ e, Nonempty (Val e)] {S : Shape} {e : EltTy} {sig' : RefSig} {κ : Kind} {sp : Space}

theorem read_writes_cons_unit (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

theorem readCov_cons_unit (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-- The body's four branch conditions, from the grid coordinates (the skeleton's scalar chains substituted):
    `ni = 0 ∧ mi = 0`, `mi = 0`, `mi = 3`, `ni = 7 ∧ mi = 3`. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid0.Coords) : Prop := (Scalar.cmpi .ne (Scalar.extui (Scalar.cmpi .eq (BitVec.ofNat 32 (i 2).val) 0#32)) 0#32) = 1#1
abbrev cond3 (i : grid0.Coords) : Prop := (Scalar.cmpi .ne (Scalar.extui (Scalar.cmpi .eq (BitVec.ofNat 32 (i 2).val) 3#32)) 0#32) = 1#1
abbrev cond4 (i : grid0.Coords) : Prop := k0_cond4 i = 1#1

set_option hygiene false in
/-- What a buffer reads after the run: a buffer never stored into reads what it held; one stored into reads its last
    store's value, every load inside that value read the same way. -/
local macro "pure_close" : tactic => `(tactic| (
  first
  | exact Memref.IsWhole.read_unread _ _
  | (sl_unfold_run_names
     simp only [read_writes_cons_unit (S := S8x256) _ _ hz2, readCov_cons_unit (S := S8x256) _ hz2, View.ld_unit_zero (S := S8x256) hz2,
       read_writes_cons_unit (S := S8x1) _ _ hz2, readCov_cons_unit (S := S8x1) _ hz2, View.ld_unit_zero (S := S8x1) hz2,
       read_writes_cons_unit (S := S8x3x256) _ _ hz3, readCov_cons_unit (S := S8x3x256) _ hz3, View.ld_unit_zero (S := S8x3x256) hz3,
       read_writes_cons_unit (S := S8x3x512) _ _ hz3, readCov_cons_unit (S := S8x3x512) _ hz3, View.ld_unit_zero (S := S8x3x512) hz3,
       View.readAt_eq_ld, Memref.IsWhole.read_unread])))

set_option maxHeartbeats 4000000 in
/-- The first point of a batch half (`ni = 0, mi = 0`): both sums restart at zero, the minima restart at `+∞` and take in the tile. -/
theorem runA (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : cond1 i) (hc2 : cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) k0_pay8) ∗ owns (c : Thread nD τ) arg9 fullShare (k0_pay6) ∗ owns (c : Thread nD τ) arg10 fullShare (k0_pay7)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The first `mi` of a later `ni` tile: the minima restart and take in the tile; the sums stay. -/
theorem runB (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) k0_pay8) ∗ owns (c : Thread nD τ) arg9 fullShare (s1) ∗ owns (c : Thread nD τ) arg10 fullShare (s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- A middle `mi`: the minima take in the tile; the sums stay. -/
theorem runC (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) sM) ∗ owns (c : Thread nD τ) arg9 fullShare (s1) ∗ owns (c : Thread nD τ) arg10 fullShare (s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The last `mi` of an `ni` tile but the last: the minima take in the tile, then both sums take in their distances. -/
theorem runD (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) sM) ∗ owns (c : Thread nD τ) arg9 fullShare (k0_pay2 (k0_pay1 (k0_pay10 x0 x1) sM) s1) ∗ owns (c : Thread nD τ) arg10 fullShare (k0_pay3 (k0_pay9 x0) x2 s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The last point of a batch half (`ni = 7, mi = 3`): as the case before, then both output blocks are stored: the sums times `1/2048`. -/
theorem runE (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : cond3 i) (hc4 : cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (k0_pay4 (k0_pay2 (k0_pay1 (k0_pay10 x0 x1) sM) s1)) ∗ owns (c : Thread nD τ) arg7 fullShare (k0_pay5 (k0_pay3 (k0_pay9 x0) x2 s2))
             ∗ owns (c : Thread nD τ) arg8 fullShare (k0_pay1 (k0_pay10 x0 x1) sM) ∗ owns (c : Thread nD τ) arg9 fullShare (k0_pay2 (k0_pay1 (k0_pay10 x0 x1) sM) s1) ∗ owns (c : Thread nD τ) arg10 fullShare (k0_pay3 (k0_pay9 x0) x2 s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

end Cert.KernelIdeal.Chamfer
end
-- ==== Proof.Data.lean ====
/-
  The pipeline's proof data and the body obligation.

  The state after grid point `n` is the pure transition of State.lean folded over the points' blocks, the blocks read
  off the arrays as the region finds them. The proof data say: after the body at a point each input's staging buffer
  holds its block and each output's holds the sums so far times `1/2048` (only consulted at the last point of a batch
  half, where the body stores them and the pipeline writes them back); the invariant before a point that is not the
  first holds the three scratch arrays at the state the point before left. The second cloud's array is read through
  two windows, so each holds half of it. The body obligation is the five cases of Body.lean, chosen by the point's
  residues modulo 4 and 32.
-/
import proofs.«102313_j17695265260053_2_alg».proof.Proof.Gen.KernelIdeal.Launch
import proofs.«102313_j17695265260053_2_alg».proof.Proof.State
import proofs.«102313_j17695265260053_2_alg».proof.Proof.Body
import proofs.«102313_j17695265260053_2_alg».proof.Proof.Gen.KernelIdeal.Skeleton
import proofs.«102313_j17695265260053_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions over the grid, in closed form -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ t.val % 32 = 31 :=
  (by decide +kernel : ∀ t : Fin grid0.N, cond4 (grid0.coords t) ↔ t.val % 32 = 31)

/-- The output windows are idle, and not written back, wherever the last condition fails; live where it holds. -/
theorem idle3 : ∀ t : Fin cfg0.N, ¬cond4 (grid0.coords t) → cfg0.idle 3 (grid0.coords t) = true := by decide +kernel
theorem idle4 : ∀ t : Fin cfg0.N, ¬cond4 (grid0.coords t) → cfg0.idle 4 (grid0.coords t) = true := by decide +kernel
theorem noflush3 : ∀ t : Fin cfg0.N, ¬cond4 (grid0.coords t) → (cfg0.win 3).flush t = false := by decide +kernel
theorem noflush4 : ∀ t : Fin cfg0.N, ¬cond4 (grid0.coords t) → (cfg0.win 4).flush t = false := by decide +kernel
theorem live3 : ∀ t : Fin cfg0.N, cond4 (grid0.coords t) → cfg0.idle 3 (grid0.coords t) = false := by decide +kernel
theorem live4 : ∀ t : Fin cfg0.N, cond4 (grid0.coords t) → cfg0.idle 4 (grid0.coords t) = false := by decide +kernel

/-! ## One point of the transition, case by case -/

theorem step_A (n : ℕ) (h : n % 32 = 0) (x : Blk F) (s : St F) :
    step n x s = ⟨k0_pay1 (k0_pay10 x.x0 x.x1) k0_pay8, k0_pay6, k0_pay7⟩ := by
  have h4 : n % 4 = 0 := by omega
  have h3 : ¬ n % 4 = 3 := by omega
  simp only [step, stepM, stepS1, stepS2, if_pos h, if_pos h4, if_neg h3]
theorem step_B (n : ℕ) (h : ¬ n % 32 = 0) (h4 : n % 4 = 0) (x : Blk F) (s : St F) :
    step n x s = ⟨k0_pay1 (k0_pay10 x.x0 x.x1) k0_pay8, s.S1, s.S2⟩ := by
  have h3 : ¬ n % 4 = 3 := by omega
  simp only [step, stepM, stepS1, stepS2, if_neg h, if_pos h4, if_neg h3]
theorem step_C (n : ℕ) (h4 : ¬ n % 4 = 0) (h3 : ¬ n % 4 = 3) (x : Blk F) (s : St F) :
    step n x s = ⟨k0_pay1 (k0_pay10 x.x0 x.x1) s.M, s.S1, s.S2⟩ := by
  have h : ¬ n % 32 = 0 := by omega
  simp only [step, stepM, stepS1, stepS2, if_neg h, if_neg h4, if_neg h3]
theorem step_D (n : ℕ) (h3 : n % 4 = 3) (x : Blk F) (s : St F) :
    step n x s = ⟨k0_pay1 (k0_pay10 x.x0 x.x1) s.M, k0_pay2 (k0_pay1 (k0_pay10 x.x0 x.x1) s.M) s.S1,
      k0_pay3 (k0_pay9 x.x0) x.x2 s.S2⟩ := by
  have h : ¬ n % 32 = 0 := by omega
  have h4 : ¬ n % 4 = 0 := by omega
  simp only [step, stepM, stepS1, stepS2, if_neg h, if_neg h4, if_pos h3]

section Region

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Blocks past the grid (never consulted): zeros. -/
def blkZero : Blk F :=
  ⟨fun _ => Scalar.ofBits .f32 0x00000000#32, fun _ => Scalar.ofBits .f32 0x00000000#32, fun _ => Scalar.ofBits .f32 0x00000000#32⟩

/-- The three input blocks of point `n` (anything past the grid). -/
def blocksAt (c : Dev nD) (n : ℕ) : Blk F :=
  if h : n < cfg0.N then ⟨iblk V c 0 ⟨n, h⟩, iblk V c 1 ⟨n, h⟩, iblk V c 2 ⟨n, h⟩⟩ else blkZero

/-- Before the first point the scratch arrays hold anything; the first point restarts all three. -/
def s0 : St F := ⟨k0_pay8, k0_pay6, k0_pay7⟩

/-- The scratch arrays after point `n`. -/
def stAt (c : Dev nD) (n : ℕ) : St F := runTo (blocksAt V c) s0 n

theorem stAt_eq (c : Dev nD) (t : Fin cfg0.N) :
    stAt V c t.val = step t.val ⟨iblk V c 0 t, iblk V c 1 t, iblk V c 2 t⟩ (if t.val = 0 then s0 else stAt V c (t.val - 1)) := by
  obtain ⟨n, hn⟩ := t
  cases n with
  | zero => simp only [stAt, runTo, blocksAt, dif_pos hn, if_pos]
  | succ n => simp only [stAt, runTo, blocksAt, dif_pos hn, Nat.add_sub_cancel, Nat.succ_ne_zero, if_false, Nat.add_eq_zero, one_ne_zero, and_false]

/-! ## The proof data -/

/-- The scratch operands: whole scoped buffers of the kernel's own. -/
abbrev scM : Memref sig .tc .vmem S8x256 .f32 := Memref.whole cc0_scratch0
abbrev sc1 : Memref sig .tc .vmem S8x1 .f32 := Memref.whole cc0_scratch1
abbrev sc2 : Memref sig .tc .vmem S8x1 .f32 := Memref.whole cc0_scratch2

/-- The region invariant before position `n`: before the first point the scoped rest at anything and the generator
    register; afterwards the three scratch arrays at the state the point before left. -/
def PhiS (c : Dev nD) : ℕ → sProp 𝕄
  | 0 => Pipeline.ΦA spec0 c
  | n + 1 => iprop(owns (c : Thread nD τ) scM fullShare (stAt V c n).M ∗ owns (c : Thread nD τ) sc1 fullShare (stAt V c n).S1
      ∗ owns (c : Thread nD τ) sc2 fullShare (stAt V c n).S2 ∗ (∃ r, prngReg c r))

theorem PhiS_succ (c : Dev nD) (n : ℕ) :
    PhiS V c (n + 1) = iprop(owns (c : Thread nD τ) scM fullShare (stAt V c n).M ∗ owns (c : Thread nD τ) sc1 fullShare (stAt V c n).S1
      ∗ owns (c : Thread nD τ) sc2 fullShare (stAt V c n).S2 ∗ (∃ r, prngReg c r)) := rfl

theorem PhiS_pos (c : Dev nD) (n : ℕ) (hz : n ≠ 0) :
    PhiS V c n = iprop(owns (c : Thread nD τ) scM fullShare (stAt V c (n - 1)).M ∗ owns (c : Thread nD τ) sc1 fullShare (stAt V c (n - 1)).S1
      ∗ owns (c : Thread nD τ) sc2 fullShare (stAt V c (n - 1)).S2 ∗ (∃ r, prngReg c r)) := by
  cases n with
  | zero => exact absurd rfl hz
  | succ n => rfl

/-- The class invariant with the scratch operands as memrefs owned at some contents. -/
theorem PhiA0_eq (c : Dev nD) :
    (Pipeline.ΦA spec0 c : sProp 𝕄)
      = iprop(iprop((∃ d, owns (c : Thread nD τ) scM fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [scM, sc1, sc2, owns_whole]; try rfl

/-- At any position the invariant holds the three scratch arrays at SOME contents. -/
theorem PhiS_any (c : Dev nD) (n : ℕ) :
    PhiS V c n ⊢ iprop((∃ d, owns (c : Thread nD τ) scM fullShare d) ∗ (∃ d, owns (c : Thread nD τ) sc1 fullShare d) ∗ (∃ d, owns (c : Thread nD τ) sc2 fullShare d) ∗ (∃ r, prngReg c r)) := by
  cases n with
  | zero =>
    rw [show PhiS V c 0 = Pipeline.ΦA spec0 c from rfl, PhiA0_eq]
    iintro ⟨⟨HM, H1, H2⟩, Hg⟩
    isplitl [HM]; · iexact HM
    isplitl [H1]; · iexact H1
    isplitl [H2]; · iexact H2
    iexact Hg
  | succ n =>
    rw [PhiS_succ]
    iintro ⟨HM, H1, H2, Hg⟩
    isplitl [HM]; · iexists _; iexact HM
    isplitl [H1]; · iexists _; iexact H1
    isplitl [H2]; · iexists _; iexact H2
    iexact Hg

/-- The proof data of the one pipeline on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (stAt V c t.val)
    | ⟨4, _⟩ => out4 (stAt V c t.val)
  Φ t := PhiS V c t.val
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by dsimp only [dat0]
theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = out3 (stAt V c t.val) := by dsimp only [dat0]
theorem after4 (c : Dev nD) (t : Fin cfg0.N) : (dat0 V c).after 4 t = out4 (stAt V c t.val) := by dsimp only [dat0]

theorem PhiS_castSucc (c : Dev nD) (t : Fin cfg0.N) : (dat0 V c).Φ t.castSucc = PhiS V c t.val := by
  dsimp only [dat0]; simp only [Fin.coe_castSucc]

/-- Each input's current staging buffer holds its block at every point, fetched there or not. -/
theorem before0 (c : Dev nD) (t : Fin cfg0.N) (d) : (dat0 V c).before 0 t d = iblk V c 0 t :=
  ((dat0 V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 V c).before 1 t d = iblk V c 1 t :=
  ((dat0 V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 V c).before 2 t d = iblk V c 2 t :=
  ((dat0 V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the residues of the point say which case it is in; the invariant hands the body the scratch
    arrays at what the point before left (at anything where the case restarts them) and takes them back at this
    point's state; an output buffer is handed back untouched except at the last point of a batch half. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).owesAt () t.succ = (dat0 V c).owesAt () t.castSucc from rfl]
  rw [show (dat0 V c).Φ t.succ = PhiS V c (t.val + 1) from rfl, PhiS_succ]
  rw [show (dat0 V c).leavesExact 0 t = owns (c : Thread nD τ) (st0_0 t) fullShare ((dat0 V c).after 0 t) from rfl, after0,
    show (dat0 V c).leavesExact 1 t = owns (c : Thread nD τ) (st0_1 t) fullShare ((dat0 V c).after 1 t) from rfl, after1,
    show (dat0 V c).leavesExact 2 t = owns (c : Thread nD τ) (st0_2 t) fullShare ((dat0 V c).after 2 t) from rfl, after2]
  have hN : t.val < 64 := lt_of_lt_of_eq t.isLt (show cfg0.N = 64 from N_0)
  by_cases h32 : t.val % 32 = 0
  · have hc1 : cond1 (grid0.coords t) := (hcond1 t).mpr h32
    have hc2 : cond2 (grid0.coords t) := (hcond2 t).mpr (by omega)
    have hc3 : ¬cond3 (grid0.coords t) := fun h => absurd ((hcond3 t).mp h) (by omega)
    have hc4 : ¬cond4 (grid0.coords t) := fun h => absurd ((hcond4 t).mp h) (by omega)
    -- case A
    rw [Dat.leavesExact_idle (dat0 V c) 3 t (idle3 t hc4) (noflush3 t hc4), Dat.leavesExact_idle (dat0 V c) 4 t (idle4 t hc4) (noflush4 t hc4)]
    rw [stAt_eq V c t, step_A _ h32]
    dsimp only
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_any V c t.val) $$ HΦ
    icases HΦ' with ⟨⟨%XM, HM⟩, ⟨%X1, HS1⟩, ⟨%X2, HS2⟩, Hg⟩
    iapply (runA c (grid0.coords t) _ _ _ _ _ _ _ _ _ _ _ _ _ _ _ _ hc1 hc2 hc3 hc4 (iblk V c 0 t) (iblk V c 1 t) (iblk V c 2 t) _ _ _ _ _ Set.univ _)
    isplitl [H0]; · iexact H0
    isplitl [H1]; · iexact H1
    isplitl [H2]; · iexact H2
    isplitl [H3]; · iexact H3
    isplitl [H4]; · iexact H4
    isplitl [HM]; · iexact HM
    isplitl [HS1]; · iexact HS1
    isplitl [HS2]; · iexact HS2
    iintro ⟨H0, H1, H2, H3, H4, HM, HS1, HS2⟩
    isplitl [HM HS1 HS2 Hg]
    · isplitl [HM]; · iexact HM
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexists _; iexact H3
    iexists _; iexact H4
  · have hc1 : ¬cond1 (grid0.coords t) := fun h => h32 ((hcond1 t).mp h)
    have hz : t.val ≠ 0 := fun h => h32 (by rw [h])
    by_cases h4 : t.val % 4 = 0
    · have hc2 : cond2 (grid0.coords t) := (hcond2 t).mpr h4
      have hc3 : ¬cond3 (grid0.coords t) := fun h => absurd ((hcond3 t).mp h) (by omega)
      have hc4 : ¬cond4 (grid0.coords t) := fun h => absurd ((hcond4 t).mp h) (by omega)
      -- case B
      rw [Dat.leavesExact_idle (dat0 V c) 3 t (idle3 t hc4) (noflush3 t hc4), Dat.leavesExact_idle (dat0 V c) 4 t (idle4 t hc4) (noflush4 t hc4)]
      rw [stAt_eq V c t, if_neg hz, step_B _ h32 h4]
      dsimp only
      rw [PhiS_castSucc V c t, PhiS_pos V c _ hz]
      iintro ⟨⟨HM, HS1, HS2, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ hc1 hc2 hc3 hc4 (iblk V c 0 t) (iblk V c 1 t) (iblk V c 2 t) _ _ _ _ _ Set.univ _)
      isplitl [H0]; · iexact H0
      isplitl [H1]; · iexact H1
      isplitl [H2]; · iexact H2
      isplitl [H3]; · iexact H3
      isplitl [H4]; · iexact H4
      isplitl [HM]; · iexact HM
      isplitl [HS1]; · iexact HS1
      isplitl [HS2]; · iexact HS2
      iintro ⟨H0, H1, H2, H3, H4, HM, HS1, HS2⟩
      isplitl [HM HS1 HS2 Hg]
      · isplitl [HM]; · iexact HM
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexists _; iexact H3
      iexists _; iexact H4
    · have hc2 : ¬cond2 (grid0.coords t) := fun h => h4 ((hcond2 t).mp h)
      by_cases h3 : t.val % 4 = 3
      · have hc3 : cond3 (grid0.coords t) := (hcond3 t).mpr h3
        by_cases h31 : t.val % 32 = 31
        · have hc4 : cond4 (grid0.coords t) := (hcond4 t).mpr h31
          -- case E
          rw [show (dat0 V c).leavesExact 3 t = owns (c : Thread nD τ) (st0_3 t) fullShare ((dat0 V c).after 3 t) from by
            unfold Dat.leavesExact; rw [live3 t hc4], after3,
            show (dat0 V c).leavesExact 4 t = owns (c : Thread nD τ) (st0_4 t) fullShare ((dat0 V c).after 4 t) from by
            unfold Dat.leavesExact; rw [live4 t hc4], after4]
          rw [stAt_eq V c t, if_neg hz, step_D _ h3]
          dsimp only
          rw [PhiS_castSucc V c t, PhiS_pos V c _ hz]
          iintro ⟨⟨HM, HS1, HS2, Hg⟩, Ho, ⟨%d0, H0⟩, ⟨%d1, H1⟩, ⟨%d2, H2⟩, ⟨%d3, H3⟩, ⟨%d4, H4⟩⟩
          iapply (runE c (grid0.coords t) _ _ _ _ _ _ _ _ _ _ _ _ _ _ _ _ hc1 hc2 hc3 hc4 (iblk V c 0 t) (iblk V c 1 t) (iblk V c 2 t) _ _ _ _ _ Set.univ _)
          isplitl [H0]; · iexact H0
          isplitl [H1]; · iexact H1
          isplitl [H2]; · iexact H2
          isplitl [H3]; · iexact H3
          isplitl [H4]; · iexact H4
          isplitl [HM]; · iexact HM
          isplitl [HS1]; · iexact HS1
          isplitl [HS2]; · iexact HS2
          iintro ⟨H0, H1, H2, H3, H4, HM, HS1, HS2⟩
          isplitl [HM HS1 HS2 Hg]
          · isplitl [HM]; · iexact HM
            isplitl [HS1]; · iexact HS1
            isplitl [HS2]; · iexact HS2
            iexact Hg
          isplitl [Ho]; · iexact Ho
          isplitl [H0]; · iexact H0
          isplitl [H1]; · iexact H1
          isplitl [H2]; · iexact H2
          isplitl [H3]; · iexact H3
          iexact H4
        · have hc4 : ¬cond4 (grid0.coords t) := fun h => h31 ((hcond4 t).mp h)
          -- case D
          rw [Dat.leavesExact_idle (dat0 V c) 3 t (idle3 t hc4) (noflush3 t hc4), Dat.leavesExact_idle (dat0 V c) 4 t (idle4 t hc4) (noflush4 t hc4)]
          rw [stAt_eq V c t, if_neg hz, step_D _ h3]
          dsimp only
          rw [PhiS_castSucc V c t, PhiS_pos V c _ hz]
          iintro ⟨⟨HM, HS1, HS2, Hg⟩, Ho, ⟨%d0, H0⟩, ⟨%d1, H1⟩, ⟨%d2, H2⟩, ⟨%d3, H3⟩, ⟨%d4, H4⟩⟩
          iapply (runD c (grid0.coords t) _ _ _ _ _ _ _ _ _ _ _ _ _ _ _ _ hc1 hc2 hc3 hc4 (iblk V c 0 t) (iblk V c 1 t) (iblk V c 2 t) _ _ _ _ _ Set.univ _)
          isplitl [H0]; · iexact H0
          isplitl [H1]; · iexact H1
          isplitl [H2]; · iexact H2
          isplitl [H3]; · iexact H3
          isplitl [H4]; · iexact H4
          isplitl [HM]; · iexact HM
          isplitl [HS1]; · iexact HS1
          isplitl [HS2]; · iexact HS2
          iintro ⟨H0, H1, H2, H3, H4, HM, HS1, HS2⟩
          isplitl [HM HS1 HS2 Hg]
          · isplitl [HM]; · iexact HM
            isplitl [HS1]; · iexact HS1
            isplitl [HS2]; · iexact HS2
            iexact Hg
          isplitl [Ho]; · iexact Ho
          isplitl [H0]; · iexact H0
          isplitl [H1]; · iexact H1
          isplitl [H2]; · iexact H2
          isplitl [H3]; · iexists _; iexact H3
          iexists _; iexact H4
      · have hc3 : ¬cond3 (grid0.coords t) := fun h => h3 ((hcond3 t).mp h)
        have hc4 : ¬cond4 (grid0.coords t) := fun h => absurd ((hcond4 t).mp h) (by omega)
        -- case C
        rw [Dat.leavesExact_idle (dat0 V c) 3 t (idle3 t hc4) (noflush3 t hc4), Dat.leavesExact_idle (dat0 V c) 4 t (idle4 t hc4) (noflush4 t hc4)]
        rw [stAt_eq V c t, if_neg hz, step_C _ h4 h3]
        dsimp only
        rw [PhiS_castSucc V c t, PhiS_pos V c _ hz]
        iintro ⟨⟨HM, HS1, HS2, Hg⟩, Ho, ⟨%d0, H0⟩, ⟨%d1, H1⟩, ⟨%d2, H2⟩, ⟨%d3, H3⟩, ⟨%d4, H4⟩⟩
        iapply (runC c (grid0.coords t) _ _ _ _ _ _ _ _ _ _ _ _ _ _ _ _ hc1 hc2 hc3 hc4 (iblk V c 0 t) (iblk V c 1 t) (iblk V c 2 t) _ _ _ _ _ Set.univ _)
        isplitl [H0]; · iexact H0
        isplitl [H1]; · iexact H1
        isplitl [H2]; · iexact H2
        isplitl [H3]; · iexact H3
        isplitl [H4]; · iexact H4
        isplitl [HM]; · iexact HM
        isplitl [HS1]; · iexact HS1
        isplitl [HS2]; · iexact HS2
        iintro ⟨H0, H1, H2, H3, H4, HM, HS1, HS2⟩
        isplitl [HM HS1 HS2 Hg]
        · isplitl [HM]; · iexact HM
          isplitl [HS1]; · iexact HS1
          isplitl [HS2]; · iexact HS2
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.KernelIdeal.Chamfer
end
-- ==== Proof.Split.lean ====
/-
  The windows' arrays at the region's two ends, for a kernel whose second and third windows read ONE array.

  At entry the core holds every unscoped buffer whole. The four buffers behind the five windows are dealt to the
  pipeline: the first cloud's and the two results' whole, the second cloud's in two halves, one to each of the windows
  that read it. At exit the halves are joined again (an input array is never written, so both windows end holding what
  they were given) and the two result arrays carry what the pipeline wrote back.
-/
import proofs.«102313_j17695265260053_2_alg».proof.Proof.Gen.KernelIdeal.Launch
import proofs.«102313_j17695265260053_2_alg».proof.Proof.State
import proofs.«102313_j17695265260053_2_alg».proof.Proof.Body
import proofs.«102313_j17695265260053_2_alg».proof.Proof.Data
import proofs.«102313_j17695265260053_2_alg».proof.Proof.Gen.KernelIdeal.Skeleton
import proofs.«102313_j17695265260053_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (arrBufs unscopedRest arrRef)

section Region

variable (V : (c : Dev nD) → (b : Ref sig .tc) → Buf (Elt F) ((c : Thread nD τ).loc b))

/-- The buffers behind the five windows: four. -/
theorem imgArr : Finset.univ.image (arrRef spec0) = ([main_v0, main_v1, main_v2_0, main_v2_1] : List (Ref sig .tc)).toFinset := by decide

theorem arrBufs_eq (c : Dev nD) (V' : (b : Ref sig .tc) → Buf (Elt F) ((c : Thread nD τ).loc b)) :
    (arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)
          ∗ (((c : Thread nD τ).loc main_v2_0) ↦{fullShare} V' main_v2_0) ∗ (((c : Thread nD τ).loc main_v2_1) ↦{fullShare} V' main_v2_1)) := by
  unfold arrBufs; exact bigSep_eq_bigSepL_of_eq _ imgArr (by decide) _

/-- The pipeline's arrays one by one: the second cloud's array held in halves by its two windows. -/
theorem arrays_eq5 (c : Dev nD) (Fn : (w : Fin cfg0.W) → Buf (Elt F) ((cfg0.win w).arr.view.loc (c : Thread nD τ))) :
    (dat0 V c).arrays Fn
      = iprop((((c : Thread nD τ).loc main_v0) ↦{fullShare} Fn 0) ∗ (((c : Thread nD τ).loc main_v1) ↦{fullShare.left} Fn 1)
          ∗ (((c : Thread nD τ).loc main_v1) ↦{fullShare.right} Fn 2)
          ∗ (((c : Thread nD τ).loc main_v2_0) ↦{fullShare} Fn 3) ∗ (((c : Thread nD τ).loc main_v2_1) ↦{fullShare} Fn 4)) := by
  unfold Dat.arrays; rw [bigSep_W0]
  rw [(arr_whole0 0).set_eq_univ, (arr_whole0 1).set_eq_univ, (arr_whole0 3).set_eq_univ, (arr_whole0 4).set_eq_univ]
  rfl

/-- ENTRY: the core's unscoped buffers at `V` are the pipeline's arrays at their entry contents and the rest. -/
theorem arrays_entry (c : Dev nD) :
    (unscopedBufs c (V c) : sProp 𝕄) ⊢ iprop((dat0 V c).arrays ((dat0 V c).arrAt · 0) ∗ unscopedRest spec0 c (V c)) := by
  rw [Pipeline.unscopedBufs_split₀ cfgs 0 winFacts₀0.arr_unscoped c (V c), arrBufs_eq, arrays_eq5]
  iintro ⟨⟨Ha, Hb, Hc, Hd⟩, Hr⟩
  ihave Hbb := (pointsTo_share (PosShare.mem_left_op_right fullShare)).1 $$ Hb
  icases Hbb with ⟨Hbl, Hbr⟩
  isplitr [Hr]
  · isplitl [Ha]; · iexact Ha
    isplitl [Hbl]; · iexact Hbl
    isplitl [Hbr]; · iexact Hbr
    isplitl [Hc]; · iexact Hc
    iexact Hd
  · iexact Hr

/-- EXIT: the arrays at their final contents and the rest at `V` are the core's unscoped buffers at any contents `V'`
    that has the two result arrays at what the pipeline wrote back and agrees with `V` elsewhere. -/
theorem arrays_exit (c : Dev nD) (V' : (b : Ref sig .tc) → Buf (Elt F) ((c : Thread nD τ).loc b))
    (h3 : V' main_v2_0 = (dat0 V c).arrAt 3 cfg0.N) (h4 : V' main_v2_1 = (dat0 V c).arrAt 4 cfg0.N)
    (hrest : ∀ b : Ref sig .tc, b ≠ main_v2_0 → b ≠ main_v2_1 → V' b = V c b) :
    iprop((dat0 V c).arrays ((dat0 V c).arrAt · cfg0.N) ∗ unscopedRest spec0 c (V c)) ⊢ (unscopedBufs c V' : sProp 𝕄) := by
  rw [Pipeline.unscopedBufs_split₀ cfgs 0 winFacts₀0.arr_unscoped c V', arrBufs_eq, arrays_eq5]
  rw [(dat0 V c).arrAt_in 0 rfl cfg0.N, (dat0 V c).arrAt_in 1 rfl cfg0.N, (dat0 V c).arrAt_in 2 rfl cfg0.N]
  rw [hrest main_v0 (by decide) (by decide), hrest main_v1 (by decide) (by decide), h3, h4]
  rw [show unscopedRest (Ix := Unit) (Name := ℕ) (U := UR sig nD τ) (Lvl := ℕ) spec0 c V' = unscopedRest spec0 c (V c) from by
    unfold unscopedRest
    exact bigSep_congr fun b hb => by
      have hb' := (Finset.mem_sdiff.mp hb).2
      rw [hrest b (fun e => hb' (e ▸ Finset.mem_image.mpr ⟨3, Finset.mem_univ _, rfl⟩)) (fun e => hb' (e ▸ Finset.mem_image.mpr ⟨4, Finset.mem_univ _, rfl⟩))]]
  iintro ⟨⟨Ha, Hbl, Hbr, Hc, Hd⟩, Hr⟩
  ihave Hb := (pointsTo_share (f := V c main_v1) (PosShare.mem_left_op_right fullShare)).2 $$ [Hbl Hbr]
  · isplitl [Hbl]; · iexact Hbl
    iexact Hbr
  isplitr [Hr]
  · isplitl [Ha]; · iexact Ha
    isplitl [Hb]; · iexact Hb
    isplitl [Hc]; · iexact Hc
    iexact Hd
  · iexact Hr

end Region

end Cert.KernelIdeal.Chamfer
end
-- ==== Proof.Run.lean ====
/-
  The run of @main: the two transposes, the kernel region, the blend of the two results.

  Between the three items the core holds every unscoped buffer whole at a known valuation: the launch contents, then
  those after the transposes (`W1`), then — the region having written back its two result arrays — `W1` updated at
  those two arrays with what the pipeline leaves (`W2`), then those after the last host operations (`W3`). Every weakly
  fair execution terminates, faulting nowhere, in a state whose unscoped buffers hold `W3`.
-/
import proofs.«102313_j17695265260053_2_alg».proof.Proof.Gen.KernelIdeal.Launch
import proofs.«102313_j17695265260053_2_alg».proof.Proof.State
import proofs.«102313_j17695265260053_2_alg».proof.Proof.Body
import proofs.«102313_j17695265260053_2_alg».proof.Proof.Data
import proofs.«102313_j17695265260053_2_alg».proof.Proof.Split
import proofs.«102313_j17695265260053_2_alg».proof.Proof.Gen.KernelIdeal.Skeleton
import proofs.«102313_j17695265260053_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (arrBufs unscopedRest arrRef)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the transposes (the region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: the two result arrays at what the pipeline wrote back, every other buffer as entered. -/
def W2 (c : Dev nD) : Valuation τ sig (Elt F) :=
  Function.update (Function.update (W1 m c) (Proc.devRef .tc main_v2_0) ((dat0 (V1 m) c).arrAt 3 cfg0.N))
    (Proc.devRef .tc main_v2_1) ((dat0 (V1 m) c).arrAt 4 cfg0.N)
abbrev V2 : (c : Dev nD) → (b : Ref sig .tc) → Buf (Elt F) ((c : Thread nD τ).loc b) := fun c b => W2 m c b
/-- After the last host operations (the return). -/
abbrev W3 : Dev nD → Valuation τ sig (Elt F) := fun c => StableHlo.after hostOps1 (W2 m c)

theorem W2_v2_0 (c : Dev nD) : V2 m c main_v2_0 = (dat0 (V1 m) c).arrAt 3 cfg0.N := by
  show W2 m c (Proc.devRef .tc main_v2_0) = _
  unfold W2
  rw [Function.update_of_ne (StableHlo.devRef_ne_of_ne (by decide)), Function.update_self]
theorem W2_v2_1 (c : Dev nD) : V2 m c main_v2_1 = (dat0 (V1 m) c).arrAt 4 cfg0.N := by
  show W2 m c (Proc.devRef .tc main_v2_1) = _
  unfold W2
  rw [Function.update_self]
theorem W2_of_ne (c : Dev nD) (b : Ref sig .tc) (h0 : b ≠ main_v2_0) (h1 : b ≠ main_v2_1) : V2 m c b = V1 m c b := by
  show W2 m c (Proc.devRef .tc b) = W1 m c (Proc.devRef .tc b)
  unfold W2
  rw [Function.update_of_ne (StableHlo.devRef_ne_of_ne h1), Function.update_of_ne (StableHlo.devRef_ne_of_ne h0)]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The invariant after the last point gives the class invariant back: the scratch arrays' contents are forgotten. -/
theorem Phi_last (c : Dev nD) : (dat0 (V1 m) c).Φ (Fin.last cfg0.N) ⊢ Pipeline.ΦA spec0 c := by
  rw [show (dat0 (V1 m) c).Φ (Fin.last cfg0.N) = PhiS (V1 m) c cfg0.N from rfl,
    PhiS_pos (V1 m) c _ (by rw [show cfg0.N = 64 from N_0]; decide), PhiA0_eq]
  iintro ⟨HM, H1, H2, Hg⟩
  isplitr [Hg]
  · isplitl [HM]; · iexists _; iexact HM
    isplitl [H1]; · iexists _; iexact H1
    iexists _; iexact H2
  · iexact Hg

/-! ## The region as a segment -/

set_option backward.isDefEq.respectTransparency.types false in
/-- The kernel region over the thread state: entered from every unscoped buffer at `W1`, left at `W2`. Its arrays are
    split out of the unscoped buffers (the second cloud's in halves) and put back at the exit contents; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last m c).trans ?_
    unfold Pipeline.ΦA
    iintro ⟨Hr, Hp⟩
    isplitl [Hp]; · iexact Hp
    isplitr; · iempintro
    iexact Hr
  hexit c := by
    have hjoin := arrays_exit (V1 m) c (V2 m c) (W2_v2_0 m c) (W2_v2_1 m c) (W2_of_ne m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c) ⊢ iprop(Tₙ m c ∗ ∃ W, owes (c : Thread nD τ) (0 : CellTallies nD τ sig Unit) W) from by
        iintro ⟨Hh, Hp, HO⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Chamfer
end
-- ==== Proof.KerGlueEntry.lean ====
/-
  What the kernel's region finds in memory. Before the region the program transposes each cloud from `[16, 2048, 3]` to
  `[16, 3, 2048]`; so at the region's entry the two transposed arrays hold, at `(b, d, n)`, coordinate `d` of point `n`
  of cloud `b`, and the three arguments hold what they held.
-/
import proofs.«102313_j17695265260053_2_alg».proof.Proof.Gen.KernelIdeal.Launch
import Idealize.ShloMosaic.Lib.Pipeline.Value
import Idealize.ShloMosaic.Lib.StableHlo.Run
import Idealize.ShloMosaic.Lib.ValueIdx

noncomputable section

namespace Cert.KernelIdeal.Chamfer

open Idealize.ShloMosaic Idealize.ShloMosaic.ValueIdx Idealize.ShloMosaic.TcCoe Idealize.SL.Sem Cert.KernelIdeal Cert.KernelIdeal.Gen

variable {F : FTy → Type} [FloatOps F]

/-- The transpose `[16, 2048, 3] → [16, 3, 2048]` read at `(b, d, n)` is the operand at `(b, n, d)`. -/
theorem transpose_apply_021 {α : Type} (A : S16x2048x3.Idx → α) (b : Fin 16) (d : Fin 3) (n : Fin 2048) :
    transpose S16x3x2048 [0, 2, 1] A transposes_S16x2048x3_S16x3x2048_0_2_1 (ix3 b d n) = A (ix3 b n d) := by
  refine transpose_apply _ A _ (ix3 b d n) (ix3 b n d) fun a => ?_
  match a with
  | ⟨0, _⟩ => rfl
  | ⟨1, _⟩ => rfl
  | ⟨2, _⟩ => rfl

/-- At the region's entry the first transposed array is the transpose of the first cloud. -/
theorem entry_v0 (m : (ℓ : Loc nD τ sig) → Buf (Elt F) ℓ) (c : Dev nD) :
    StableHlo.after (hostOps0 (F := F)) (fun b => m (c, b)) (Proc.devRef .tc main_v0)
      = transpose S16x3x2048 [0, 2, 1] (m ((c.tc : Thread nD τ).loc main_arg0)) transposes_S16x2048x3_S16x3x2048_0_2_1 := by
  after_results

/-- At the region's entry the second transposed array is the transpose of the second cloud. -/
theorem entry_v1 (m : (ℓ : Loc nD τ sig) → Buf (Elt F) ℓ) (c : Dev nD) :
    StableHlo.after (hostOps0 (F := F)) (fun b => m (c, b)) (Proc.devRef .tc main_v1)
      = transpose S16x3x2048 [0, 2, 1] (m ((c.tc : Thread nD τ).loc main_arg1)) transposes_S16x2048x3_S16x3x2048_0_2_1 := by
  after_results

/-- The first transposed array at `(b, d, n)` is the first cloud at `(b, n, d)`. -/
theorem entry_v0_apply (m : (ℓ : Loc nD τ sig) → Buf (Elt F) ℓ) (c : Dev nD) (b : Fin 16) (d : Fin 3) (n : Fin 2048) :
    (StableHlo.after (hostOps0 (F := F)) (fun b => m (c, b)) (Proc.devRef .tc main_v0) : Vec F S16x3x2048 .f32) (ix3 b d n)
      = (m ((c.tc : Thread nD τ).loc main_arg0) : Vec F S16x2048x3 .f32) (ix3 b n d) := by
  rw [entry_v0]
  exact transpose_apply_021 _ b d n

/-- The second transposed array at `(b, d, n)` is the second cloud at `(b, n, d)`. -/
theorem entry_v1_apply (m : (ℓ : Loc nD τ sig) → Buf (Elt F) ℓ) (c : Dev nD) (b : Fin 16) (d : Fin 3) (n : Fin 2048) :
    (StableHlo.after (hostOps0 (F := F)) (fun b => m (c, b)) (Proc.devRef .tc main_v1) : Vec F S16x3x2048 .f32) (ix3 b d n)
      = (m ((c.tc : Thread nD τ).loc main_arg1) : Vec F S16x2048x3 .f32) (ix3 b n d) := by
  rw [entry_v1]
  exact transpose_apply_021 _ b d n

/-- The transposes leave the three arguments as they were. -/
theorem entry_arg0 (m : (ℓ : Loc nD τ sig) → Buf (Elt F) ℓ) (c : Dev nD) :
    StableHlo.after (hostOps0 (F := F)) (fun b => m (c, b)) (Proc.devRef .tc main_arg0)
      = m ((c.tc : Thread nD τ).loc main_arg0) := by
  after_results
theorem entry_arg1 (m : (ℓ : Loc nD τ sig) → Buf (Elt F) ℓ) (c : Dev nD) :
    StableHlo.after (hostOps0 (F := F)) (fun b => m (c, b)) (Proc.devRef .tc main_arg1)
      = m ((c.tc : Thread nD τ).loc main_arg1) := by
  after_results
theorem entry_arg2 (m : (ℓ : Loc nD τ sig) → Buf (Elt F) ℓ) (c : Dev nD) :
    StableHlo.after (hostOps0 (F := F)) (fun b => m (c, b)) (Proc.devRef .tc main_arg2)
      = m ((c.tc : Thread nD τ).loc main_arg2) := by
  after_results

end Cert.KernelIdeal.Chamfer

end
-- ==== Proof.KerGlueArgs.lean ====
/-
  The program's last host operations (the two reshapes, the blend, the sum and the quotient) write none of the three
  arguments: after them each argument holds what it held before, whatever the memory they start from.
-/
import proofs.«102313_j17695265260053_2_alg».proof.Proof.Gen.KernelIdeal.Launch
import Idealize.ShloMosaic.Lib.StableHlo.Run

noncomputable section

namespace Cert.KernelIdeal.Chamfer

open Idealize.ShloMosaic Idealize.ShloMosaic.TcCoe Idealize.SL.Sem Idealize.ShloMosaic.StableHlo Cert.KernelIdeal Cert.KernelIdeal.Gen

variable {F : FTy → Type} [FloatOps F]

/-- The last host operations leave the first cloud as it was. -/
theorem after_arg0 (W : Valuation τ sig (Elt F)) :
    StableHlo.after (hostOps1 (F := F)) W (Proc.devRef .tc main_arg0) = W (Proc.devRef .tc main_arg0) := by
  after_results

/-- The last host operations leave the second cloud as it was. -/
theorem after_arg1 (W : Valuation τ sig (Elt F)) :
    StableHlo.after (hostOps1 (F := F)) W (Proc.devRef .tc main_arg1) = W (Proc.devRef .tc main_arg1) := by
  after_results

/-- The last host operations leave the flags as they were. -/
theorem after_arg2 (W : Valuation τ sig (Elt F)) :
    StableHlo.after (hostOps1 (F := F)) W (Proc.devRef .tc main_arg2) = W (Proc.devRef .tc main_arg2) := by
  after_results

end Cert.KernelIdeal.Chamfer

end
-- ==== Proof.KerFrame.lean ====
/-
  The program runs and leaves its three arguments as they were. The run ends with every unscoped buffer at the last
  boundary's contents; at an argument those are the contents before the last host operations (which do not write it),
  which are the contents at the region's entry (the region writes back only its two result arrays), which are the launch
  contents (the transposes write only the two transposed arrays).
-/
import proofs.«102313_j17695265260053_2_alg».proof.Proof.Run
import proofs.«102313_j17695265260053_2_alg».proof.Proof.KerGlueEntry
import proofs.«102313_j17695265260053_2_alg».proof.Proof.KerGlueArgs

noncomputable section

namespace Cert.KernelIdeal.Chamfer

open Idealize.ShloMosaic Idealize.ShloMosaic.TcCoe Idealize.SL.Sem Idealize.ShloMosaic.StableHlo Cert.KernelIdeal Cert.KernelIdeal.Gen

variable {F : FTy → Type} [FloatOps F]

variable (m : (ℓ : Loc nD τ sig) → Buf (Elt F) ℓ) (ρ : Dev nD → PrngReg)

/-- At the return the first cloud holds its launch contents. -/
theorem W3_arg0 (c : Dev nD) : W3 m c (Proc.devRef .tc main_arg0) = m ((c.tc : Thread nD τ).loc main_arg0) :=
  (after_arg0 (W2 m c)).trans ((W2_of_ne m c main_arg0 (by decide) (by decide)).trans (entry_arg0 m c))

/-- At the return the second cloud holds its launch contents. -/
theorem W3_arg1 (c : Dev nD) : W3 m c (Proc.devRef .tc main_arg1) = m ((c.tc : Thread nD τ).loc main_arg1) :=
  (after_arg1 (W2 m c)).trans ((W2_of_ne m c main_arg1 (by decide) (by decide)).trans (entry_arg1 m c))

/-- At the return the flags hold their launch contents. -/
theorem W3_arg2 (c : Dev nD) : W3 m c (Proc.devRef .tc main_arg2) = m ((c.tc : Thread nD τ).loc main_arg2) :=
  (after_arg2 (W2 m c)).trans ((W2_of_ne m c main_arg2 (by decide) (by decide)).trans (entry_arg2 m c))

/-- Every weakly fair execution of @main terminates, nothing faulting, with the three arguments unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_arg0 m c),
       (h c _ (mem_uc main_arg1 (by decide))).trans (W3_arg1 m c),
       (h c _ (mem_uc main_arg2 (by decide))).trans (W3_arg2 m c)⟩)
    (run_main m ρ)

end Cert.KernelIdeal.Chamfer

end
-- ==== Proof.Spec.lean ====
/-
  The mathematics both programs compute, stated once, over plain functions of literal index types.

  A point cloud is a function `Fin 2048 → Fin 3 → EReal` (a point's three coordinates). For two clouds `P`, `T`:
  * `sqd p t` is the squared Euclidean distance of two points, the sum over the three coordinates of the squared difference;
  * `symDis P T` is the mean over the points `n` of `P` of the distance from `P n` to the NEAREST point of `T`, the distance
    guarded below by `ε` under the root: `√(max (min over m of sqd (P n) (T m)) ε)`, the mean taken as the sum times `1/2048`;
  * `asymDis P T` is the mean over `n` of the distance from `P n` to the point of `T` of the SAME index, `√(sqd (P n) (T n))`.
  The minimum over `m` is the lattice infimum over `Fin 2048` (`Finset.inf`, the fold of `min` from `⊤`).
  `ε` and `1/2048` are the two float words the programs carry, read at the extended reals.
-/
import Idealize.ShloMosaic.PureOps.Ideal
import Idealize.ShloMosaic.Lib.ValueIdx

noncomputable section

open scoped BigOperators

namespace Cert.Chamfer

open Idealize.ShloMosaic Idealize.ShloMosaic.ValueIdx

/-- The guard under the root: the f32 word nearest `1e-12`, at the extended reals. -/
def eps : EReal := Ideal.ofBits .f32 0x2B8CBCCC#32

/-- The reciprocal of the number of points, `2⁻¹¹`, as the f32 word that is exactly it. -/
def invN : EReal := Ideal.ofBits .f32 0x3A000000#32

/-- Squared Euclidean distance of two points of three coordinates. -/
def sqd (p t : Fin 3 → EReal) : EReal := ∑ d : Fin 3, (p d - t d) * (p d - t d)

/-- The guarded distance from the point `p` to the nearest point of the cloud `T`. -/
def nearest (p : Fin 3 → EReal) (T : Fin 2048 → Fin 3 → EReal) : EReal :=
  Ideal.sqrt (max ((Finset.univ : Finset (Fin 2048)).inf fun m => sqd p (T m)) eps)

/-- Mean nearest-point distance from the cloud `P` to the cloud `T`. -/
def symDis (P T : Fin 2048 → Fin 3 → EReal) : EReal := (∑ n : Fin 2048, nearest (P n) T) * invN

/-- Mean distance between points of the same index. -/
def asymDis (P T : Fin 2048 → Fin 3 → EReal) : EReal := (∑ n : Fin 2048, Ideal.sqrt (sqd (P n) (T n))) * invN

/-- Cloud `b` of a batch of sixteen clouds laid out `[16, 2048, 3]`. -/
def cloud (A : (⟨3, ![16, 2048, 3]⟩ : Shape).Idx → EReal) (b : Fin 16) : Fin 2048 → Fin 3 → EReal :=
  fun n d => A (ix3 b n d)

/-- The two per-cloud means of a batch, as `[16]` arrays. -/
def symVec (A B : (⟨3, ![16, 2048, 3]⟩ : Shape).Idx → EReal) : (⟨1, ![16]⟩ : Shape).Idx → EReal :=
  fun j => symDis (cloud A (j 0)) (cloud B (j 0))

def asymVec (A B : (⟨3, ![16, 2048, 3]⟩ : Shape).Idx → EReal) : (⟨1, ![16]⟩ : Shape).Idx → EReal :=
  fun j => asymDis (cloud A (j 0)) (cloud B (j 0))

end Cert.Chamfer

end
-- ==== Proof.Law.lean ====
/-
  The real-number algebra behind the reference program, over the extended reals.

  * The float words the reference carries, as the extended reals they denote: `0`, `1`, `2`, `16`, `2048`, `+∞`, and `2⁻¹¹`.
  * A quotient by `2048` is the product with `2⁻¹¹`.
  * For points with REAL coordinates, `‖p‖² + ‖t‖² − 2⟨p,t⟩ = Σ_d (p_d − t_d)²`; on the extended reals this needs the
    coordinates finite (`∞ − ∞` is not `0`), which is where the certificate's precondition enters.
  * The square root of the extended reals is monotone (`⊥` below zero, `√` on `[0, ∞)`, `⊤` at `⊤`), so is `max · ε`;
    a monotone map that fixes `⊤` commutes with a finite infimum, so the minimum over a cloud of the guarded distances
    is the guarded root of the minimum of the squared distances.
-/
import proofs.«102313_j17695265260053_2_alg».proof.Proof.Spec

noncomputable section

open scoped BigOperators

namespace Cert.Chamfer.Ref

open Idealize.ShloMosaic

/-- The word `0x40000000` denotes `2`. -/
theorem ofBits_two : Ideal.ofBits .f32 0x40000000#32 = ((2 : ℝ) : EReal) := by
  simp [Ideal.ofBits, Ideal.ieee, -EReal.coe_mul]; norm_num

/-- The word `0x45000000` denotes `2048`. -/
theorem ofBits_2048 : Ideal.ofBits .f32 0x45000000#32 = ((2048 : ℝ) : EReal) := by
  simp [Ideal.ofBits, Ideal.ieee, -EReal.coe_mul]; norm_num

/-- The word `0x7F800000` denotes `+∞`. -/
theorem ofBits_inf : Ideal.ofBits .f32 0x7F800000#32 = ⊤ := by
  simp [Ideal.ofBits, Ideal.ieee]

/-- The word `0x00000000` denotes `0`. -/
theorem ofBits_zero : Ideal.ofBits .f32 0x00000000#32 = 0 := by
  simp [Ideal.ofBits, Ideal.ieee]

/-- The word `0x41800000` denotes `16`. -/
theorem ofBits_16 : Ideal.ofBits .f32 0x41800000#32 = ((16 : ℝ) : EReal) := by
  simp [Ideal.ofBits, Ideal.ieee, -EReal.coe_mul]; norm_num

/-- The word `0x3F800000` denotes `1`. -/
theorem ofBits_one : Ideal.ofBits .f32 0x3F800000#32 = 1 := by
  rw [show (1 : EReal) = ((1 : ℝ) : EReal) by norm_cast]
  simp [Ideal.ofBits, Ideal.ieee, -EReal.coe_mul]; norm_num

/-- `invN` is the real `1/2048`. -/
theorem invN_eq : invN = (((1 : ℝ) / 2048 : ℝ) : EReal) := by
  unfold invN
  simp [Ideal.ofBits, Ideal.ieee, -EReal.coe_mul]; norm_num

/-- A quotient by the word of `2048` is the product with `invN`, at the infinities too. -/
theorem div_2048 (x : EReal) : Ideal.div x (Ideal.ofBits .f32 0x45000000#32) = x * invN := by
  rw [ofBits_2048, Ideal.div_coe (by norm_num), invN_eq]

/-- For points with real coordinates: `(0 + ‖p‖²) + (0 + ‖t‖²) − 2·⟨p,t⟩ = Σ_d (p_d − t_d)²`, the three sums over the
    three coordinates, on the extended reals. -/
theorem sqd_expand (p t : Fin 3 → ℝ) :
    ((0 : EReal) + ∑ d : Fin 3, ((p d : ℝ) : EReal) * ((p d : ℝ) : EReal))
        + ((0 : EReal) + ∑ d : Fin 3, ((t d : ℝ) : EReal) * ((t d : ℝ) : EReal))
        - Ideal.ofBits .f32 0x40000000#32 * ∑ d : Fin 3, ((p d : ℝ) : EReal) * ((t d : ℝ) : EReal)
      = ∑ d : Fin 3, (((p d : ℝ) : EReal) - ((t d : ℝ) : EReal)) * (((p d : ℝ) : EReal) - ((t d : ℝ) : EReal)) := by
  rw [ofBits_two]
  simp only [Fin.sum_univ_three, zero_add]
  have h : (p 0 * p 0 + p 1 * p 1 + p 2 * p 2) + (t 0 * t 0 + t 1 * t 1 + t 2 * t 2)
      - 2 * (p 0 * t 0 + p 1 * t 1 + p 2 * t 2)
      = (p 0 - t 0) * (p 0 - t 0) + (p 1 - t 1) * (p 1 - t 1) + (p 2 - t 2) * (p 2 - t 2) := by ring
  exact_mod_cast congrArg (fun r : ℝ => (r : EReal)) h

/-- The same for two points of the extended reals whose coordinates are real numbers: the reference's squared distance
    is `sqd`. -/
theorem d2_eq_sqd (P T : Fin 3 → EReal) (hP : ∀ d, ∃ r : ℝ, P d = (r : EReal)) (hT : ∀ d, ∃ r : ℝ, T d = (r : EReal)) :
    ((0 : EReal) + ∑ d : Fin 3, P d * P d) + ((0 : EReal) + ∑ d : Fin 3, T d * T d)
        - Ideal.ofBits .f32 0x40000000#32 * ∑ d : Fin 3, P d * T d
      = sqd P T := by
  choose p hp using hP
  choose t ht using hT
  obtain rfl : P = fun d => ((p d : ℝ) : EReal) := funext hp
  obtain rfl : T = fun d => ((t d : ℝ) : EReal) := funext ht
  exact sqd_expand p t

/-- The square root of the extended reals is monotone. -/
theorem sqrt_mono : Monotone Ideal.sqrt := by
  intro x y hxy
  induction x using EReal.rec with
  | bot => exact bot_le
  | top =>
    have hy : y = ⊤ := top_le_iff.mp hxy
    subst hy; exact le_rfl
  | coe a =>
    induction y using EReal.rec with
    | bot => exact absurd hxy (not_le.mpr (EReal.bot_lt_coe a))
    | top => exact le_top
    | coe b =>
      have hab : a ≤ b := EReal.coe_le_coe_iff.mp hxy
      rw [Ideal.sqrt_coe, Ideal.sqrt_coe]
      by_cases ha : a < 0
      · rw [if_pos ha]; exact bot_le
      · have hb : ¬ b < 0 := not_lt.mpr (le_trans (not_lt.mp ha) hab)
        rw [if_neg ha, if_neg hb]
        exact EReal.coe_le_coe_iff.mpr (Real.sqrt_le_sqrt hab)

/-- The minimum over a finite family of the guarded roots, folded from `⊤`, is the guarded root of the infimum. -/
theorem fold_min_sqrt {ι : Type} (s : Finset ι) (f : ι → EReal) (e : EReal) :
    s.fold min ⊤ (fun m => Ideal.sqrt (max (f m) e)) = Ideal.sqrt (max (s.inf f) e) := by
  have hg : Monotone (fun x : EReal => Ideal.sqrt (max x e)) := fun x y h => sqrt_mono (max_le_max h le_rfl)
  have h := Finset.apply_inf_eq_inf_comp_of_linearOrder (s := s) (f := f) (fun x : EReal => Ideal.sqrt (max x e)) hg
    (by show Ideal.sqrt (max ⊤ e) = ⊤; rw [max_eq_left le_top]; rfl)
  rw [h]; rfl

end Cert.Chamfer.Ref

end
-- ==== Proof.RefValue.lean ====
/-
  The reference program's values, read as the mathematics of the specification.

  * The first mean: at cloud `b` the reference forms, for every pair `(n, m)`, `‖P n‖² + ‖T m‖² − 2⟨P n, T m⟩`, guards it
    below by `ε`, takes the root, the minimum over `m` from `+∞`, the sum over `n` from `0`, and divides by `2048`. For real
    coordinates the quadratic form is the squared distance; the root and the guard are monotone and fix `⊤`, so the minimum
    of the roots is the root of the guarded infimum; the quotient by `2048` is the product with `2⁻¹¹`. That is `symVec`.
  * The second mean: the root of the sum over the coordinates of the squared difference, summed over `n` from `0`, divided
    by `2048`. That is `asymVec`, with no finiteness needed.
  * The last operations (the blend by the flag, the sum over the sixteen clouds, the quotient by `16`) are kept as one
    function `tail` of the flags and the two means.
-/
import proofs.«102313_j17695265260053_2_alg».proof.Proof.Gen.ReferenceIdeal.Read
import proofs.«102313_j17695265260053_2_alg».proof.Proof.Law

noncomputable section

open scoped BigOperators

namespace Cert.Chamfer.Ref

open Idealize.ShloMosaic Idealize.ShloMosaic.ValueIdx Idealize.SL.Sem Cert.ReferenceIdeal Cert.ReferenceIdeal.Gen Cert.ReferenceIdeal.Read

/-- The reference's second mean is `asymVec`. -/
theorem asym_eq (A B : FVec Ideal S16x2048x3 .f32) : val_main_v24 (F := Ideal) A B = asymVec A B := by
  funext j
  obtain ⟨b, rfl⟩ : ∃ b, j = ix1 b := ⟨j 0, eq_ix1 j⟩
  rw [val_main_v24_apply, val_main_v22_apply, val_main_v23_apply, val_main_cst_7_apply, val_main_cst_6_apply]
  simp only [Ideal.hostDivf_def, Ideal.ofBits_def]
  rw [div_2048, ofBits_zero, zero_add]
  refine congrArg (· * invN) (Finset.sum_congr rfl fun n _ => ?_)
  rw [val_main_v21_apply, val_main_call0_v1_apply, val_main_call0_cst_apply]
  simp only [Ideal.hostUnary_sqrt_def, Ideal.ofBits_def]
  rw [ofBits_zero, zero_add]
  refine congrArg Ideal.sqrt (Finset.sum_congr rfl fun d _ => ?_)
  rw [val_main_call0_v0_apply, val_main_v20_apply]
  simp only [Ideal.mulf_def, Ideal.subf_def]
  have e : idx_main_call0_v1 (idx_main_v22 (ix1 b) n) d = ix3 b n d :=
    funext fun a => Fin.ext (by match a with | ⟨0, _⟩ => rfl | ⟨1, _⟩ => rfl | ⟨2, _⟩ => rfl)
  rw [e]
  rfl

/-- The reference's guarded distance of the pair `(n, m)` of cloud `b`, for real coordinates: the root of the squared
    distance guarded below by `ε`. -/
theorem dist_eq (A B : FVec Ideal S16x2048x3 .f32) (hA : ∀ i, ∃ r : ℝ, A i = (r : EReal)) (hB : ∀ i, ∃ r : ℝ, B i = (r : EReal))
    (b : Fin 16) (n m : Fin 2048) :
    val_main_v15 (F := Ideal) A B (ix3 b n m) = Ideal.sqrt (max (sqd (cloud A b n) (cloud B b m)) eps) := by
  rw [val_main_v15_apply, val_main_v14_apply, val_main_v13_apply, val_main_cst_2_apply, val_main_v12_apply,
    val_main_v9_apply, val_main_v7_apply, val_main_v2_apply, val_main_v1_apply, val_main_cst_apply,
    val_main_v8_apply, val_main_v5_apply, val_main_v4_apply, val_main_cst_0_apply,
    val_main_v11_apply, val_main_v10_apply, val_main_cst_1_apply, val_main_v6_apply]
  simp only [val_main_v0_apply, val_main_v3_apply, Ideal.hostUnary_sqrt_def, Ideal.maximumf_def, Ideal.subf_def,
    Ideal.addf_def, Ideal.mulf_def, Ideal.ofBits_def]
  have e1 : ∀ k : Fin 3, idx_main_v1 (idx_main_v2 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v4 (idx_main_v5 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v6 (ix3 b n m) k = ix3 b n k := fun k =>
    funext fun a => Fin.ext (by match a with | ⟨0, _⟩ => rfl | ⟨1, _⟩ => rfl | ⟨2, _⟩ => rfl)
  have e4 : ∀ k : Fin 3, ridx_main_v6 (ix3 b n m) k = ix3 b m k := fun k =>
    funext fun a => Fin.ext (by match a with | ⟨0, _⟩ => rfl | ⟨1, _⟩ => rfl | ⟨2, _⟩ => rfl)
  simp only [e1, e2, e3, e4]
  rw [ofBits_zero]
  exact congrArg (fun x => Ideal.sqrt (max x eps))
    (d2_eq_sqd (cloud A b n) (cloud B b m) (fun d => hA _) (fun d => hB _))

/-- The reference's minimum over `m` at `(b, n)` is the guarded distance from the point to the nearest point of the
    other cloud. -/
theorem near_eq (A B : FVec Ideal S16x2048x3 .f32) (hA : ∀ i, ∃ r : ℝ, A i = (r : EReal)) (hB : ∀ i, ∃ r : ℝ, B i = (r : EReal))
    (b : Fin 16) (n : Fin 2048) :
    val_main_v16 (F := Ideal) A B (ix2 b n) = nearest (cloud A b n) (cloud B b) := by
  have hR : S16x2048x2048.Reduces [2] S16x2048 := by decide
  unfold val_main_v16
  refine (Host.reduce_eq_fold_single FloatOps.minimumf _ _ reducesTo_S16x2048x2048_S16x2048_d2 hR h_S_ (ix2 b n)).trans ?_
  rw [val_main_cst_3_apply, Ideal.ofBits_def, ofBits_inf]
  refine (Finset.fold_congr (g := fun m : Fin 2048 => Ideal.sqrt (max (sqd (cloud A b n) (cloud B b m)) eps))
    fun m _ => ?_).trans ?_
  · have e : hR.lift (ix2 b n) m = ix3 b n m :=
      funext fun a => Fin.ext (by match a with | ⟨0, _⟩ => rfl | ⟨1, _⟩ => rfl | ⟨2, _⟩ => rfl)
    show val_main_v15 (F := Ideal) A B (hR.lift (ix2 b n) m) = _
    rw [e]
    exact dist_eq A B hA hB b n m
  · exact fold_min_sqrt Finset.univ _ eps

/-- The reference's first mean is `symVec`, for clouds of real coordinates. -/
theorem sym_eq (A B : FVec Ideal S16x2048x3 .f32) (hA : ∀ i, ∃ r : ℝ, A i = (r : EReal)) (hB : ∀ i, ∃ r : ℝ, B i = (r : EReal)) :
    val_main_v19 (F := Ideal) A B = symVec A B := by
  funext j
  obtain ⟨b, rfl⟩ : ∃ b, j = ix1 b := ⟨j 0, eq_ix1 j⟩
  rw [val_main_v19_apply, val_main_v17_apply, val_main_v18_apply, val_main_cst_5_apply, val_main_cst_4_apply]
  simp only [Ideal.hostDivf_def, Ideal.ofBits_def]
  rw [div_2048, ofBits_zero, zero_add]
  refine congrArg (· * invN) (Finset.sum_congr rfl fun n _ => ?_)
  have e : idx_main_v17 (ix1 b) n = ix2 b n :=
    funext fun a => Fin.ext (by match a with | ⟨0, _⟩ => rfl | ⟨1, _⟩ => rfl)
  rw [e]
  exact near_eq A B hA hB b n

/-- The reference's last operations as one function of the flags and the two means: the blend
    `flag · sym + (1 − flag) · asym`, its sum over the sixteen clouds from `0`, divided by `16`. -/
def tail (flag sym asym : FVec Ideal S16 .f32) : FVec Ideal S_ .f32 :=
  Host.divf (F := Ideal)
    (Host.reduceAdd (F := Ideal)
      (addf (F := Ideal) (mulf (F := Ideal) flag sym)
        (mulf (F := Ideal) (subf (F := Ideal) (broadcastInDim S16 ![] bcast_S_S16 (constant (F := Ideal) S_ .f32 0x3F800000#32)) flag) asym))
      (constant (F := Ideal) S_ .f32 0x00000000#32) reducesTo_S16_S_d0 h_S_)
    (constant (F := Ideal) S_ .f32 0x41800000#32)

/-- The reference's result is `tail` of the flags and its two means. -/
theorem val_eq_tail (A B : FVec Ideal S16x2048x3 .f32) (flag : FVec Ideal S16 .f32) :
    val_main_v31 (F := Ideal) A B flag = tail flag (val_main_v19 (F := Ideal) A B) (val_main_v24 (F := Ideal) A B) := rfl

/-- The reference's result, for clouds of real coordinates, is `tail` of the flags and the specification's two means. -/
theorem val_eq (A B : FVec Ideal S16x2048x3 .f32) (flag : FVec Ideal S16 .f32)
    (hA : ∀ i, ∃ r : ℝ, A i = (r : EReal)) (hB : ∀ i, ∃ r : ℝ, B i = (r : EReal)) :
    val_main_v31 (F := Ideal) A B flag = tail flag (symVec A B) (asymVec A B) := by
  rw [val_eq_tail, sym_eq A B hA hB, asym_eq]

/-- Every weakly fair execution of the reference, from a memory whose two clouds have real coordinates, terminates with its
    result at `tail` of the flags and the specification's two means, the three arguments unchanged. -/
theorem run (m' : (ℓ : Loc nD τ sig) → Buf (Elt Ideal) ℓ) (ρ' : Dev nD → PrngReg)
    (hA : ∀ (c : Dev nD) (i : S16x2048x3.Idx), ∃ r : ℝ,
      (m' ((c.tc : Thread nD τ).loc main_arg0) : FVec Ideal S16x2048x3 .f32) i = (r : EReal))
    (hB : ∀ (c : Dev nD) (i : S16x2048x3.Idx), ∃ r : ℝ,
      (m' ((c.tc : Thread nD τ).loc main_arg1) : FVec Ideal S16x2048x3 .f32) i = (r : EReal)) :
    θ_run (defs (F := Ideal)) (onTc (τ := τ) (main (F := Ideal))) ⟨m', fun _ => 0, ρ'⟩ fun r => ∀ c : Dev nD,
      r.2.mem ((c.tc : Thread nD τ).loc main_v31)
          = tail (m' ((c.tc : Thread nD τ).loc main_arg2))
              (symVec (m' ((c.tc : Thread nD τ).loc main_arg0)) (m' ((c.tc : Thread nD τ).loc main_arg1)))
              (asymVec (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run (defs (F := Ideal)) _ _).mono
    (fun _ h c => ⟨(h c).1.trans ((val_main_v31_eq (F := Ideal) _ _ _).trans (val_eq _ _ _ (hA c) (hB c))), (h c).2⟩)
    (Value.run (F := Ideal) m' ρ')

end Cert.Chamfer.Ref

end
-- ==== Proof.KerGlueTail.lean ====
/-
  The kernel program's last host operations, as one function of the flags and the two per-cloud means: the blend
  `flag · sym + (1 − flag) · asym`, its sum over the sixteen clouds from `0`, divided by `16` — the same function as the
  reference's; and the reshape before them, which reads a `[16, 1]` column at `(j, 0)`.
-/
import proofs.«102313_j17695265260053_2_alg».proof.Proof.Gen.KernelIdeal
import proofs.«102313_j17695265260053_2_alg».proof.Proof.RefValue
import Idealize.ShloMosaic.Lib.Pipeline.Value

noncomputable section

namespace Cert.KernelIdeal.Chamfer

open Idealize.ShloMosaic Idealize.ShloMosaic.ValueIdx Cert.KernelIdeal Cert.KernelIdeal.Gen

/-- The kernel program's blend, sum over the clouds and quotient by `16`, as one function of the flags and the two means. -/
def Ker.tail (flag sym asym : FVec Ideal S16 .f32) : FVec Ideal S_ .f32 :=
  Host.divf (F := Ideal)
    (Host.reduceAdd (F := Ideal)
      (addf (F := Ideal) (mulf (F := Ideal) flag sym)
        (mulf (F := Ideal) (subf (F := Ideal) (broadcastInDim S16 ![] bcast_S_S16 (constant (F := Ideal) S_ .f32 0x3F800000#32)) flag) asym))
      (constant (F := Ideal) S_ .f32 0x00000000#32) reducesTo_S16_S_d0 h_S_)
    (constant (F := Ideal) S_ .f32 0x41800000#32)

/-- It is the reference's. -/
theorem tail_eq : Ker.tail = Cert.Chamfer.Ref.tail := rfl

/-- A `[16, 1]` column reshaped to `[16]`, read at `j`, is the column at `(j, 0)`. -/
theorem shapeCast_col_apply {α : Type} (Z : S16x1.Idx → α) (j : Fin 16) :
    shapeCast S16 Z shapeCasts_S16x1_S16 (ix1 j) = Z (ix2 j (0 : Fin 1)) := by
  refine shapeCast_apply Z shapeCasts_S16x1_S16 (ix1 j) (ix2 j (0 : Fin 1)) ?_
  rw [Shape.rowMajor_val_two, Shape.rowMajor_val_one]
  show j.val * 1 + 0 = j.val
  omega

end Cert.KernelIdeal.Chamfer

end
-- ==== Proof.KerGlueAfter.lean ====
/-
  After the region. The kernel program's last host operations reshape the two `[16, 1]` results to `[16]` and blend them
  by the flags; so the final result is `Ker.tail` of the flags and the two reshaped columns, whatever the memory the
  operations start from. A column that holds a `[16]` array's entries at `(j, 0)`
  reshapes to that array. And the clouds the kernel reads are the transposed ones: reading them back at `(b, d, n)` as
  `(b, n, d)` gives the specification's clouds, hence its two means.
-/
import proofs.«102313_j17695265260053_2_alg».proof.Proof.KerGlueTail
import proofs.«102313_j17695265260053_2_alg».proof.Proof.Gen.KernelIdeal.Launch
import Idealize.ShloMosaic.Lib.StableHlo.Run

noncomputable section

namespace Cert.KernelIdeal.Chamfer

open Idealize.ShloMosaic Idealize.ShloMosaic.ValueIdx Idealize.ShloMosaic.TcCoe Idealize.SL.Sem Idealize.ShloMosaic.StableHlo Cert.KernelIdeal Cert.KernelIdeal.Gen

/-- The last host operations end with the result at `Ker.tail` of the flags and the two reshaped columns. -/
theorem after_v11 (W : Valuation τ sig (Elt Ideal)) :
    StableHlo.after (hostOps1 (F := Ideal)) W (Proc.devRef .tc main_v11)
      = Ker.tail (W (Proc.devRef .tc main_arg2))
          (shapeCast S16 (W (Proc.devRef .tc main_v2_0)) shapeCasts_S16x1_S16)
          (shapeCast S16 (W (Proc.devRef .tc main_v2_1)) shapeCasts_S16x1_S16) := by
  after_results
  rfl

/-- A `[16, 1]` column holding the entries of a `[16]` array reshapes to that array. -/
theorem shapeCast_col_eq {α : Type} (Z : S16x1.Idx → α) (s : S16.Idx → α)
    (h : ∀ j : Fin 16, Z (ix2 j (0 : Fin 1)) = s (ix1 j)) : shapeCast S16 Z shapeCasts_S16x1_S16 = s :=
  funext fun i => by
    obtain ⟨j, rfl⟩ : ∃ j, i = ix1 j := ⟨i 0, eq_ix1 i⟩
    rw [shapeCast_col_apply, h]

/-- `Ker.tail` of two reshaped columns that hold the two means is `Ker.tail` of the means. -/
theorem tail_of_cols (flag sym asym : FVec Ideal S16 .f32) (Z3 Z4 : FVec Ideal S16x1 .f32)
    (h3 : ∀ j : Fin 16, Z3 (ix2 j (0 : Fin 1)) = sym (ix1 j))
    (h4 : ∀ j : Fin 16, Z4 (ix2 j (0 : Fin 1)) = asym (ix1 j)) :
    Ker.tail flag (shapeCast S16 Z3 shapeCasts_S16x1_S16) (shapeCast S16 Z4 shapeCasts_S16x1_S16)
      = Ker.tail flag sym asym := by
  rw [shapeCast_col_eq Z3 sym h3, shapeCast_col_eq Z4 asym h4]

/-- Cloud `j` of a batch, read off the transposed array. -/
theorem cloud_of_transposed (A : FVec Ideal S16x2048x3 .f32) (X : FVec Ideal S16x3x2048 .f32)
    (hX : ∀ (b : Fin 16) (d : Fin 3) (n : Fin 2048), X (ix3 b d n) = A (ix3 b n d)) (j : Fin 16) :
    (fun (n : Fin 2048) (d : Fin 3) => X (ix3 j d n)) = Cert.Chamfer.cloud A j :=
  funext fun n => funext fun d => hX j d n

/-- The mean nearest-point distance of cloud `j`, read off the transposed arrays, is the specification's. -/
theorem symDis_of_transposed (A B : FVec Ideal S16x2048x3 .f32) (X Y : FVec Ideal S16x3x2048 .f32)
    (hX : ∀ (b : Fin 16) (d : Fin 3) (n : Fin 2048), X (ix3 b d n) = A (ix3 b n d))
    (hY : ∀ (b : Fin 16) (d : Fin 3) (n : Fin 2048), Y (ix3 b d n) = B (ix3 b n d)) (j : Fin 16) :
    Cert.Chamfer.symDis (fun (n : Fin 2048) (d : Fin 3) => X (ix3 j d n)) (fun (m : Fin 2048) (d : Fin 3) => Y (ix3 j d m))
      = Cert.Chamfer.symVec A B (ix1 j) := by
  rw [cloud_of_transposed A X hX j, cloud_of_transposed B Y hY j]
  rfl

/-- The mean same-index distance of cloud `j`, read off the transposed arrays, is the specification's. -/
theorem asymDis_of_transposed (A B : FVec Ideal S16x2048x3 .f32) (X Y : FVec Ideal S16x3x2048 .f32)
    (hX : ∀ (b : Fin 16) (d : Fin 3) (n : Fin 2048), X (ix3 b d n) = A (ix3 b n d))
    (hY : ∀ (b : Fin 16) (d : Fin 3) (n : Fin 2048), Y (ix3 b d n) = B (ix3 b n d)) (j : Fin 16) :
    Cert.Chamfer.asymDis (fun (n : Fin 2048) (d : Fin 3) => X (ix3 j d n)) (fun (m : Fin 2048) (d : Fin 3) => Y (ix3 j d m))
      = Cert.Chamfer.asymVec A B (ix1 j) := by
  rw [cloud_of_transposed A X hX j, cloud_of_transposed B Y hY j]
  rfl

end Cert.KernelIdeal.Chamfer

end
-- ==== Proof.Blocks.lean ====
/-
  The three input blocks of a grid point, as functions of the two transposed clouds `X Y : [16, 3, 2048]`
  (`X (b, d, n)` is coordinate `d` of point `n` of cloud `b`). At the point `n = 32·b + 4·ni + mi` the kernel is handed
  rows `8·b … 8·b + 7` of: `X` at the points `256·ni … 256·ni + 255`; `Y` at the points `512·mi … 512·mi + 511`;
  `Y` at the points `256·ni … 256·ni + 255`. Total in `n`: the three coordinates are reduced modulo their extents.
-/
import proofs.«102313_j17695265260053_2_alg».proof.Proof.State
import Idealize.ShloMosaic.Lib.ValueIdx

noncomputable section

namespace Cert.KernelIdeal.Chamfer

open Idealize.ShloMosaic Idealize.ShloMosaic.ValueIdx Cert.KernelIdeal

variable {F : FTy → Type} [FloatOps F]

theorem lt8_256 (y : S8x3x256.Idx) : (y 0).val < 8 ∧ (y 1).val < 3 ∧ (y 2).val < 256 := ⟨(y 0).isLt, (y 1).isLt, (y 2).isLt⟩
theorem lt8_512 (y : S8x3x512.Idx) : (y 0).val < 8 ∧ (y 1).val < 3 ∧ (y 2).val < 512 := ⟨(y 0).isLt, (y 1).isLt, (y 2).isLt⟩

/-- Row `8·(n/32 % 2) + r` of the batch. -/
def rowOf (n : ℕ) (r : ℕ) (hr : r < 8) : Fin 16 := ⟨8 * (n / 32 % 2) + r, by omega⟩
/-- Point `256·(n/4 % 8) + i` of a cloud: the `i`-th of the `ni` tile. -/
def ptN (n : ℕ) (i : ℕ) (hi : i < 256) : Fin 2048 := ⟨256 * (n / 4 % 8) + i, by omega⟩
/-- Point `512·(n % 4) + j` of a cloud: the `j`-th of the `mi` tile. -/
def ptM (n : ℕ) (j : ℕ) (hj : j < 512) : Fin 2048 := ⟨512 * (n % 4) + j, by omega⟩

/-- The blocks the point `n` is handed. -/
def blocksOf (X Y : Vec F S16x3x2048 .f32) (n : ℕ) : Blk F where
  x0 y := X (ix3 (rowOf n (y 0).val (lt8_256 y).1) ⟨(y 1).val, (lt8_256 y).2.1⟩ (ptN n (y 2).val (lt8_256 y).2.2))
  x1 y := Y (ix3 (rowOf n (y 0).val (lt8_512 y).1) ⟨(y 1).val, (lt8_512 y).2.1⟩ (ptM n (y 2).val (lt8_512 y).2.2))
  x2 y := Y (ix3 (rowOf n (y 0).val (lt8_256 y).1) ⟨(y 1).val, (lt8_256 y).2.1⟩ (ptN n (y 2).val (lt8_256 y).2.2))

end Cert.KernelIdeal.Chamfer

end
-- ==== Proof.KerGlueBlocks.lean ====
/-
  The three input blocks of a grid point, read off the two transposed clouds. The grid point `t = 32·b + 4·ni + mi` is
  handed block `(b, 0, ni)` of the first array cut in `[8, 3, 256]` blocks, block `(b, 0, mi)` of the second cut in
  `[8, 3, 512]` blocks, and block `(b, 0, ni)` of the second cut in `[8, 3, 256]` blocks. An element of a block sits in its
  array, on each axis, at the block index times the block's extent plus its own coordinate; so the three blocks are the
  rows `8·b … 8·b + 7` of the points `256·ni …`, `512·mi …`, `256·ni …`: the functions `blocksOf` of the point.
-/
import proofs.«102313_j17695265260053_2_alg».proof.Proof.Blocks
import proofs.«102313_j17695265260053_2_alg».proof.Proof.Gen.KernelIdeal.Launch
import Idealize.ShloMosaic.Lib.Pipeline.Value
import Idealize.ShloMosaic.Lib.ValueIdx

noncomputable section

namespace Cert.KernelIdeal.Chamfer

open Idealize.ShloMosaic Idealize.ShloMosaic.ValueIdx Idealize.ShloMosaic.TcCoe Idealize.SL.Sem Cert.KernelIdeal Cert.KernelIdeal.Gen

variable {F : FTy → Type} [FloatOps F]

/-- The block indices of the first window at the point `t`: `(t / 32, 0, t / 4 % 8)`. -/
theorem idx_win0 : ∀ t : Fin cfg0.N, win0_0.index t (0 : Fin 3) = t.val / 32 ∧ win0_0.index t (1 : Fin 3) = 0
    ∧ win0_0.index t (2 : Fin 3) = t.val / 4 % 8 :=
  (by decide +kernel : ∀ t : Fin grid0.N, _)

/-- The block indices of the second window at the point `t`: `(t / 32, 0, t % 4)`. -/
theorem idx_win1 : ∀ t : Fin cfg0.N, win0_1.index t (0 : Fin 3) = t.val / 32 ∧ win0_1.index t (1 : Fin 3) = 0
    ∧ win0_1.index t (2 : Fin 3) = t.val % 4 :=
  (by decide +kernel : ∀ t : Fin grid0.N, _)

/-- The block indices of the third window at the point `t`: `(t / 32, 0, t / 4 % 8)`. -/
theorem idx_win2 : ∀ t : Fin cfg0.N, win0_2.index t (0 : Fin 3) = t.val / 32 ∧ win0_2.index t (1 : Fin 3) = 0
    ∧ win0_2.index t (2 : Fin 3) = t.val / 4 % 8 :=
  (by decide +kernel : ∀ t : Fin grid0.N, _)

/-- The grid has 64 points. -/
theorem point_lt (t : Fin cfg0.N) : t.val < 64 := by
  have h : t.val < grid0.N := t.isLt
  rwa [N_0] at h

/-- The first window's block at the point `t`, read off the first transposed cloud. -/
theorem blk0_read (X Y : Vec F S16x3x2048 .f32) (t : Fin cfg0.N) :
    ((cfg0.win 0).blk t).view.read (Elt F) X = (blocksOf X Y t.val).x0 := by
  obtain ⟨e0, e1, e2⟩ := idx_win0 t
  have ht := point_lt t
  funext y
  rw [View.read_apply]
  show X (((cfg0.win 0).blk t).view.emb y) = X (ix3 _ _ _)
  refine congrArg X (funext fun a => Fin.ext ?_)
  match a with
  | ⟨0, _⟩ =>
    show win0_0.index t (0 : Fin 3) * 8 + 1 * (y 0).val = 8 * (t.val / 32 % 2) + (y 0).val
    omega
  | ⟨1, _⟩ =>
    show win0_0.index t (1 : Fin 3) * 3 + 1 * (y 1).val = (y 1).val
    omega
  | ⟨2, _⟩ =>
    show win0_0.index t (2 : Fin 3) * 256 + 1 * (y 2).val = 256 * (t.val / 4 % 8) + (y 2).val
    omega

/-- The second window's block at the point `t`, read off the second transposed cloud. -/
theorem blk1_read (X Y : Vec F S16x3x2048 .f32) (t : Fin cfg0.N) :
    ((cfg0.win 1).blk t).view.read (Elt F) Y = (blocksOf X Y t.val).x1 := by
  obtain ⟨e0, e1, e2⟩ := idx_win1 t
  have ht := point_lt t
  funext y
  rw [View.read_apply]
  show Y (((cfg0.win 1).blk t).view.emb y) = Y (ix3 _ _ _)
  refine congrArg Y (funext fun a => Fin.ext ?_)
  match a with
  | ⟨0, _⟩ =>
    show win0_1.index t (0 : Fin 3) * 8 + 1 * (y 0).val = 8 * (t.val / 32 % 2) + (y 0).val
    omega
  | ⟨1, _⟩ =>
    show win0_1.index t (1 : Fin 3) * 3 + 1 * (y 1).val = (y 1).val
    omega
  | ⟨2, _⟩ =>
    show win0_1.index t (2 : Fin 3) * 512 + 1 * (y 2).val = 512 * (t.val % 4) + (y 2).val
    omega

/-- The third window's block at the point `t`, read off the second transposed cloud. -/
theorem blk2_read (X Y : Vec F S16x3x2048 .f32) (t : Fin cfg0.N) :
    ((cfg0.win 2).blk t).view.read (Elt F) Y = (blocksOf X Y t.val).x2 := by
  obtain ⟨e0, e1, e2⟩ := idx_win2 t
  have ht := point_lt t
  funext y
  rw [View.read_apply]
  show Y (((cfg0.win 2).blk t).view.emb y) = Y (ix3 _ _ _)
  refine congrArg Y (funext fun a => Fin.ext ?_)
  match a with
  | ⟨0, _⟩ =>
    show win0_2.index t (0 : Fin 3) * 8 + 1 * (y 0).val = 8 * (t.val / 32 % 2) + (y 0).val
    omega
  | ⟨1, _⟩ =>
    show win0_2.index t (1 : Fin 3) * 3 + 1 * (y 1).val = (y 1).val
    omega
  | ⟨2, _⟩ =>
    show win0_2.index t (2 : Fin 3) * 256 + 1 * (y 2).val = 256 * (t.val / 4 % 8) + (y 2).val
    omega

end Cert.KernelIdeal.Chamfer

end
-- ==== Proof.KerFinalArr.lean ====
/-
  What the two output arrays hold after the run, and the run's states over the blocks cut from the two input arrays.

  The two output windows (arrays `[16, 1]`, blocks `[8, 1]`, block index `(t / 32, 0)`) are written back exactly at the
  points `t % 32 = 31`: point 31 writes rows 0 … 7 and point 63 rows 8 … 15. So after the run row `8·b + r` of each
  output array holds row `r` of what the body left at point `32·b + 31`. The input windows' arrays are never written.
  The run's state depends on the blocks only up to the point read, so if each input block is the block cut from the
  arrays, the states are those of the pure run over the cut blocks.
-/
import proofs.«102313_j17695265260053_2_alg».proof.Proof.Data
import proofs.«102313_j17695265260053_2_alg».proof.Proof.Blocks

noncomputable section

namespace Cert.KernelIdeal.Chamfer

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]

/-- The block indices of the two output windows at the point `t`: `(t / 32, 0)`. -/
theorem idx_win3 : ∀ t : Fin cfg0.N, win0_3.index t (0 : Fin 2) = t.val / 32 ∧ win0_3.index t (1 : Fin 2) = 0 :=
  (by decide +kernel : ∀ t : Fin grid0.N, _)
theorem idx_win4 : ∀ t : Fin cfg0.N, win0_4.index t (0 : Fin 2) = t.val / 32 ∧ win0_4.index t (1 : Fin 2) = 0 :=
  (by decide +kernel : ∀ t : Fin grid0.N, _)

/-- The grid has 64 points. -/
theorem N64 : cfg0.N = 64 := N_0

/-- The last point of row block `q`. -/
def lastPt (q : ℕ) (hq : q < 2) : Fin cfg0.N := ⟨32 * q + 31, by rw [N64]; omega⟩

/-- The run's state depends on the blocks only up to the point read. -/
theorem runTo_congr (blocks blocks' : ℕ → Blk F) (s : St F) (n : ℕ) (h : ∀ k, k ≤ n → blocks k = blocks' k) :
    runTo blocks s n = runTo blocks' s n := by
  induction n with
  | zero =>
    show step 0 (blocks 0) s = step 0 (blocks' 0) s
    rw [h 0 (Nat.le_refl 0)]
  | succ k ih =>
    show step (k + 1) (blocks (k + 1)) (runTo blocks s k) = step (k + 1) (blocks' (k + 1)) (runTo blocks' s k)
    rw [h (k + 1) (Nat.le_refl _), ih fun j hj => h j (Nat.le_succ_of_le hj)]

section Region

variable (V : (c : Dev nD) → (b : Ref sig .tc) → Buf (Elt F) ((c : Thread nD τ).loc b))

/-- What the first output array ends holding: row `i` is row `i % 8` of what the body left at the last point of row
    block `i / 8`. -/
def G3 (c : Dev nD) : S16x1.Idx → Elt F .f32 := fun i =>
  out3 (stAt V c (32 * ((i 0).val / 8) + 31)) (ix2 (⟨(i 0).val % 8, Nat.mod_lt _ (by decide)⟩ : Fin 8) (0 : Fin 1))

def G4 (c : Dev nD) : S16x1.Idx → Elt F .f32 := fun i =>
  out4 (stAt V c (32 * ((i 0).val / 8) + 31)) (ix2 (⟨(i 0).val % 8, Nat.mod_lt _ (by decide)⟩ : Fin 8) (0 : Fin 1))

theorem G3_at (c : Dev nD) (i : S16x1.Idx) (n : ℕ) (y : S8x1.Idx) (hn : 32 * ((i 0).val / 8) + 31 = n)
    (hy : (i 0).val % 8 = (y 0).val) : G3 V c i = out3 (stAt V c n) y := by
  subst hn
  unfold G3
  refine congrArg (out3 (stAt V c _)) (funext fun a => ?_)
  match a with
  | ⟨0, _⟩ => exact Fin.ext hy
  | ⟨1, _⟩ => exact Fin.ext (by have h1 : (y 1).val < 1 := (y 1).isLt; show 0 = (y 1).val; omega)

theorem G4_at (c : Dev nD) (i : S16x1.Idx) (n : ℕ) (y : S8x1.Idx) (hn : 32 * ((i 0).val / 8) + 31 = n)
    (hy : (i 0).val % 8 = (y 0).val) : G4 V c i = out4 (stAt V c n) y := by
  subst hn
  unfold G4
  refine congrArg (out4 (stAt V c _)) (funext fun a => ?_)
  match a with
  | ⟨0, _⟩ => exact Fin.ext hy
  | ⟨1, _⟩ => exact Fin.ext (by have h1 : (y 1).val < 1 := (y 1).isLt; show 0 = (y 1).val; omega)

/-- What a flushing point writes back is its block of `G3`. -/
theorem flushed3_eq (c : Dev nD) (t : Fin cfg0.N) (hf : (cfg0.win 3).flush t = true) :
    (dat0 V c).flushed 3 t = ((cfg0.win 3).blk t).view.read (Elt F) (G3 V c) := by
  have h31 : t.val % 32 = 31 := (flush0_3 t).mp hf
  obtain ⟨e0, e1⟩ := idx_win3 t
  show (cfg0.win 3).cut (grid0.coords t) ((dat0 V c).after 3 t) = _
  rw [after3]
  funext j
  show out3 (stAt V c t.val) j = G3 V c (((cfg0.win 3).blk t).view.emb j)
  have hj : (j 0).val < 8 := (j 0).isLt
  have hE : ((((cfg0.win 3).blk t).view.emb j) 0).val = win0_3.index t (0 : Fin 2) * 8 + 1 * (j 0).val := rfl
  exact (G3_at V c _ t.val j (by rw [hE, e0]; omega) (by rw [hE, e0]; omega)).symm

end Region

section Region2

variable (V : (c : Dev nD) → (b : Ref sig .tc) → Buf (Elt F) ((c : Thread nD τ).loc b))

theorem flushed4_eq (c : Dev nD) (t : Fin cfg0.N) (hf : (cfg0.win 4).flush t = true) :
    (dat0 V c).flushed 4 t = ((cfg0.win 4).blk t).view.read (Elt F) (G4 V c) := by
  have h31 : t.val % 32 = 31 := (flush0_4 t).mp hf
  obtain ⟨e0, e1⟩ := idx_win4 t
  show (cfg0.win 4).cut (grid0.coords t) ((dat0 V c).after 4 t) = _
  rw [after4]
  funext j
  show out4 (stAt V c t.val) j = G4 V c (((cfg0.win 4).blk t).view.emb j)
  have hj : (j 0).val < 8 := (j 0).isLt
  have hE : ((((cfg0.win 4).blk t).view.emb j) 0).val = win0_4.index t (0 : Fin 2) * 8 + 1 * (j 0).val := rfl
  exact (G4_at V c _ t.val j (by rw [hE, e0]; omega) (by rw [hE, e0]; omega)).symm

/-- An index of the first output array is in point `t`'s block iff each coordinate is in the block's range on its axis. -/
theorem mem_blk3 (t : Fin cfg0.N) (i : S16x1.Idx) :
    i ∈ ((cfg0.win 3).blk t).view.set ↔ ∀ a : Fin 2, win0_3.index t a * S8x1.size a ≤ (i a).val
      ∧ (i a).val < win0_3.index t a * S8x1.size a + S8x1.size a := by
  show i ∈ ((View.whole main_v2_0).slice (win0_3.rect t)).set ↔ _
  rw [View.set_slice_whole, Rect.mem_set_unit]
  exact Iff.rfl

theorem mem_blk4 (t : Fin cfg0.N) (i : S16x1.Idx) :
    i ∈ ((cfg0.win 4).blk t).view.set ↔ ∀ a : Fin 2, win0_4.index t a * S8x1.size a ≤ (i a).val
      ∧ (i a).val < win0_4.index t a * S8x1.size a + S8x1.size a := by
  show i ∈ ((View.whole main_v2_1).slice (win0_4.rect t)).set ↔ _
  rw [View.set_slice_whole, Rect.mem_set_unit]
  exact Iff.rfl

/-- Every row of the first output array is in the block of the last point of its row block. -/
theorem cover3 (i : S16x1.Idx) : ∃ t : Fin cfg0.N, (cfg0.win 3).flush t = true ∧ i ∈ ((cfg0.win 3).blk t).view.set := by
  have h0 : (i 0).val < 16 := (i 0).isLt
  have h1 : (i 1).val < 1 := (i 1).isLt
  refine ⟨lastPt ((i 0).val / 8) (by omega), (flush0_3 _).mpr (by show (32 * ((i 0).val / 8) + 31) % 32 = 31; omega), ?_⟩
  obtain ⟨e0, e1⟩ := idx_win3 (lastPt ((i 0).val / 8) (by omega))
  have ev : (lastPt ((i 0).val / 8) (by omega)).val = 32 * ((i 0).val / 8) + 31 := rfl
  rw [mem_blk3]
  intro a
  match a with
  | ⟨0, _⟩ =>
    show win0_3.index _ (0 : Fin 2) * 8 ≤ (i 0).val ∧ (i 0).val < win0_3.index _ (0 : Fin 2) * 8 + 8
    rw [e0, ev]; omega
  | ⟨1, _⟩ =>
    show win0_3.index _ (1 : Fin 2) * 1 ≤ (i 1).val ∧ (i 1).val < win0_3.index _ (1 : Fin 2) * 1 + 1
    rw [e1]; omega

theorem cover4 (i : S16x1.Idx) : ∃ t : Fin cfg0.N, (cfg0.win 4).flush t = true ∧ i ∈ ((cfg0.win 4).blk t).view.set := by
  have h0 : (i 0).val < 16 := (i 0).isLt
  have h1 : (i 1).val < 1 := (i 1).isLt
  refine ⟨lastPt ((i 0).val / 8) (by omega), (flush0_4 _).mpr (by show (32 * ((i 0).val / 8) + 31) % 32 = 31; omega), ?_⟩
  obtain ⟨e0, e1⟩ := idx_win4 (lastPt ((i 0).val / 8) (by omega))
  have ev : (lastPt ((i 0).val / 8) (by omega)).val = 32 * ((i 0).val / 8) + 31 := rfl
  rw [mem_blk4]
  intro a
  match a with
  | ⟨0, _⟩ =>
    show win0_4.index _ (0 : Fin 2) * 8 ≤ (i 0).val ∧ (i 0).val < win0_4.index _ (0 : Fin 2) * 8 + 8
    rw [e0, ev]; omega
  | ⟨1, _⟩ =>
    show win0_4.index _ (1 : Fin 2) * 1 ≤ (i 1).val ∧ (i 1).val < win0_4.index _ (1 : Fin 2) * 1 + 1
    rw [e1]; omega

/-- The output arrays after the run. -/
theorem final3 (c : Dev nD) : (dat0 V c).arrAt 3 cfg0.N = G3 V c :=
  (dat0 V c).arrAt_eq_of_cover 3 (G3 V c) (flushed3_eq V c) cover3

theorem final4 (c : Dev nD) : (dat0 V c).arrAt 4 cfg0.N = G4 V c :=
  (dat0 V c).arrAt_eq_of_cover 4 (G4 V c) (flushed4_eq V c) cover4

/-- Row `8·b + r` of the first output array after the run: row `r` of what the body left at point `32·b + 31`. -/
theorem final3_apply (c : Dev nD) (b : Fin 2) (r : Fin 8) :
    (dat0 V c).arrAt 3 cfg0.N (ix2 (⟨8 * b.val + r.val, by have := b.isLt; have := r.isLt; omega⟩ : Fin 16) (0 : Fin 1))
      = out3 (stAt V c (32 * b.val + 31)) (ix2 r (0 : Fin 1)) := by
  have hb := b.isLt
  have hr := r.isLt
  rw [final3]
  exact G3_at V c _ _ _ (by show 32 * ((8 * b.val + r.val) / 8) + 31 = 32 * b.val + 31; omega)
    (by show (8 * b.val + r.val) % 8 = r.val; omega)

theorem final4_apply (c : Dev nD) (b : Fin 2) (r : Fin 8) :
    (dat0 V c).arrAt 4 cfg0.N (ix2 (⟨8 * b.val + r.val, by have := b.isLt; have := r.isLt; omega⟩ : Fin 16) (0 : Fin 1))
      = out4 (stAt V c (32 * b.val + 31)) (ix2 r (0 : Fin 1)) := by
  have hb := b.isLt
  have hr := r.isLt
  rw [final4]
  exact G4_at V c _ _ _ (by show 32 * ((8 * b.val + r.val) / 8) + 31 = 32 * b.val + 31; omega)
    (by show (8 * b.val + r.val) % 8 = r.val; omega)

/-- The input windows' arrays are never written. -/
theorem final0 (c : Dev nD) : (dat0 V c).arrAt 0 cfg0.N = (dat0 V c).A 0 := (dat0 V c).arrAt_in 0 rfl cfg0.N
theorem final1 (c : Dev nD) : (dat0 V c).arrAt 1 cfg0.N = (dat0 V c).A 1 := (dat0 V c).arrAt_in 1 rfl cfg0.N
theorem final2 (c : Dev nD) : (dat0 V c).arrAt 2 cfg0.N = (dat0 V c).A 2 := (dat0 V c).arrAt_in 2 rfl cfg0.N

/-- If each input block is the block cut from the two arrays, the run's states are those of the pure run over the cut
    blocks. -/
theorem stAt_eq_runTo (c : Dev nD)
    (hb0 : ∀ t : Fin cfg0.N, ((cfg0.win 0).blk t).view.read (Elt F) (V c main_v0) = (blocksOf (V c main_v0) (V c main_v1) t.val).x0)
    (hb1 : ∀ t : Fin cfg0.N, ((cfg0.win 1).blk t).view.read (Elt F) (V c main_v1) = (blocksOf (V c main_v0) (V c main_v1) t.val).x1)
    (hb2 : ∀ t : Fin cfg0.N, ((cfg0.win 2).blk t).view.read (Elt F) (V c main_v1) = (blocksOf (V c main_v0) (V c main_v1) t.val).x2)
    (n : ℕ) (hn : n < 64) :
    stAt V c n = runTo (blocksOf (V c main_v0) (V c main_v1)) s0 n := by
  unfold stAt
  refine runTo_congr _ _ _ n fun k hk => ?_
  have hk' : k < cfg0.N := by rw [N64]; omega
  unfold blocksAt
  rw [dif_pos hk']
  have e0 : iblk V c 0 ⟨k, hk'⟩ = (blocksOf (V c main_v0) (V c main_v1) k).x0 := hb0 ⟨k, hk'⟩
  have e1 : iblk V c 1 ⟨k, hk'⟩ = (blocksOf (V c main_v0) (V c main_v1) k).x1 := hb1 ⟨k, hk'⟩
  have e2 : iblk V c 2 ⟨k, hk'⟩ = (blocksOf (V c main_v0) (V c main_v1) k).x2 := hb2 ⟨k, hk'⟩
  rw [e0, e1, e2]

end Region2

end Cert.KernelIdeal.Chamfer

end
-- ==== Proof.KerValuePay.lean ====
/-
  The kernel body's payloads read at an index, at the ideal values.

  Each payload of the body is one pure term over the blocks and the carried arrays. Read at an index with explicit
  coordinates (row `r`, point `i` of the first cloud's tile, point `j` of the second cloud's tile) they are:
  the tile of squared distances `sqd`; the carried minimum against the infimum over the tile's 512 lanes; the carried
  sums plus the row's sum over the tile's 256 points of the guarded root of the minimum, or of the root of the squared
  distance between points of the same index; the sums times `1/2048`; and the restart values `0` and `+∞`.
-/
import proofs.«102313_j17695265260053_2_alg».proof.Proof.State
import proofs.«102313_j17695265260053_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Chamfer

open Idealize.ShloMosaic Idealize.ShloMosaic.ValueIdx Cert.KernelIdeal Cert.KernelIdeal.Gen Cert.Chamfer

variable {α : Type}

/-- The keepdims cast `[8] → [8,1]` read at `(r, 0)` is the operand at `r`. -/
theorem shapeCast_S8_S8x1_apply (v : S8.Idx → α) (h : S8.ShapeCasts S8x1) (r : Fin 8) :
    shapeCast S8x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- Row `r` with the lane `k` put back. -/
theorem lift_S8x256_S8 (h : S8x256.Reduces [1] S8) (r : Fin 8) (k : Fin 256) :
    h.lift (ix1 r) k = ix2 r k := by
  funext c
  match c with
  | ⟨0, _⟩ => rfl
  | ⟨1, _⟩ => rfl

/-- Row `r`, point `i` with the coordinate `d` put back. -/
theorem lift_S8x3x256_S8x256 (h : S8x3x256.Reduces [1] S8x256) (r : Fin 8) (i : Fin 256) (d : Fin 3) :
    h.lift (ix2 r i) d = ix3 r d i := by
  funext c
  match c with
  | ⟨0, _⟩ => rfl
  | ⟨1, _⟩ => rfl
  | ⟨2, _⟩ => rfl

/-- The second sums' step: the row's sum over the tile of the distances between points of the same index. -/
theorem pay3_apply (v9 x2 : Vec Ideal S8x3x256 .f32) (S : Vec Ideal S8x1 .f32) (r : Fin 8) :
    k0_pay3 (F := Ideal) v9 x2 S (ix2 r (0 : Fin 1))
      = S (ix2 r (0 : Fin 1)) + ∑ i : Fin 256, Ideal.sqrt (sqd (fun d => v9 (ix3 r d i)) (fun d => x2 (ix3 r d i))) := by
  unfold k0_pay3
  simp only [shapeCast_self]
  refine congrArg (S (ix2 r (0 : Fin 1)) + ·) ?_
  refine (shapeCast_S8_S8x1_apply _ _ r).trans ?_
  refine (Ideal.multiReduction_add_single _ _ _ _ _ _).trans ?_
  refine Finset.sum_congr rfl fun (i : Fin 256) _ => ?_
  rw [lift_S8x256_S8 _ r i]
  refine congrArg Ideal.sqrt ?_
  refine (Ideal.multiReduction_add_single _ _ _ _ _ _).trans ?_
  refine Finset.sum_congr rfl fun (d : Fin 3) _ => ?_
  rw [lift_S8x3x256_S8x256 _ r i d]
  rfl

/-- The first sums' step: the row's sum over the tile of the guarded roots of the minima. -/
theorem pay2_apply (M : Vec Ideal S8x256 .f32) (S : Vec Ideal S8x1 .f32) (r : Fin 8) :
    k0_pay2 (F := Ideal) M S (ix2 r (0 : Fin 1))
      = S (ix2 r (0 : Fin 1)) + ∑ i : Fin 256, Ideal.sqrt (max (M (ix2 r i)) eps) := by
  unfold k0_pay2
  simp only [shapeCast_self]
  refine congrArg (S (ix2 r (0 : Fin 1)) + ·) ?_
  refine (shapeCast_S8_S8x1_apply _ _ r).trans ?_
  refine (Ideal.multiReduction_add_single _ _ _ _ _ _).trans ?_
  refine Finset.sum_congr rfl fun (i : Fin 256) _ => ?_
  rw [lift_S8x256_S8 _ r i]
  rfl

/-- The two output blocks: the sums times the reciprocal of the number of points. -/
theorem pay4_apply (S : Vec Ideal S8x1 .f32) (j : S8x1.Idx) :
    k0_pay4 (F := Ideal) S j = S j * invN := rfl

theorem pay5_apply (S : Vec Ideal S8x1 .f32) (j : S8x1.Idx) :
    k0_pay5 (F := Ideal) S j = S j * invN := rfl

/-- The word of `+∞`. -/
theorem ofBits_inf_f32 : Ideal.ofBits .f32 0x7F800000#32 = ⊤ := by simp [Ideal.ofBits, Ideal.ieee]

/-- The restart values: zero for the sums, `+∞` for the minima. -/
theorem pay6_apply (j : S8x1.Idx) : k0_pay6 (F := Ideal) j = 0 := by
  unfold k0_pay6
  simp only [shapeCast_self]
  exact Ideal.ofBits_zero_f32

theorem pay7_apply (j : S8x1.Idx) : k0_pay7 (F := Ideal) j = 0 := by
  unfold k0_pay7
  simp only [shapeCast_self]
  exact Ideal.ofBits_zero_f32

theorem pay8_apply (j : S8x256.Idx) : k0_pay8 (F := Ideal) j = ⊤ := by
  unfold k0_pay8
  simp only [shapeCast_self]
  exact ofBits_inf_f32

theorem pay9_eq (v : Vec Ideal S8x3x256 .f32) : k0_pay9 (F := Ideal) v = v := by
  unfold k0_pay9
  simp only [shapeCast_self]

/-- Row `r`, point `i` with the lane `j` put back. -/
theorem lift_S8x256x512_S8x256 (h : S8x256x512.Reduces [2] S8x256) (r : Fin 8) (i : Fin 256) (j : Fin 512) :
    h.lift (ix2 r i) j = ix3 r i j := by
  funext c
  match c with
  | ⟨0, _⟩ => rfl
  | ⟨1, _⟩ => rfl
  | ⟨2, _⟩ => rfl

/-- The lane minimum from `+∞` is the infimum over the 512 lanes. -/
theorem minimumf_lane (v : FVec Ideal S8x256x512 .f32) (h : S8x256x512.Reduces [2] S8x256) (hφ : FKind.Formats .f32)
    (hacc : (0x7F800000#32 : BitVec 32) = FKind.minimumf.neutral .f32 hφ) (r : Fin 8) (i : Fin 256) :
    multiReduction .minimumf [2] S8x256 v 0x7F800000#32 h hφ hacc (ix2 r i)
      = (Finset.univ : Finset (Fin 512)).inf fun j => v (ix3 r i j) := by
  refine (multiReduction_minimumf_eq_fold v _ h hφ hacc _).trans ?_
  refine (h.fold_filter_drop_single _ _ v _).trans ?_
  have e : (v ∘ h.lift (ix2 r i)) = fun j : Fin 512 => v (ix3 r i j) :=
    funext fun j => congrArg v (lift_S8x256x512_S8x256 h r i j)
  rw [e, show FloatOps.ofBits (F := Ideal) .f32 0x7F800000#32 = (⊤ : EReal) from ofBits_inf_f32]
  rfl

/-- The minima's step: the least of the carried minimum and the tile's 512 values. -/
theorem pay1_apply (v : FVec Ideal S8x256x512 .f32) (M : Vec Ideal S8x256 .f32) (r : Fin 8) (i : Fin 256) :
    k0_pay1 (F := Ideal) v M (ix2 r i)
      = min (M (ix2 r i)) ((Finset.univ : Finset (Fin 512)).inf fun j => v (ix3 r i j)) := by
  unfold k0_pay1
  simp only [shapeCast_self]
  exact congrArg (min (M (ix2 r i))) (minimumf_lane v _ _ _ r i)

/-- Coordinate `d` of the first cloud's tile, spread along the lanes: at `(r, i, j)` it is the tile at `(r, d, i)`. -/
theorem bcX_apply (d : ℕ) (hd : d < 3) (v : S8x3x256.Idx → α) (h0 : S8x3x256.Slices ![0, d, 0] S8x1x256)
    (h1 : S8x1x256.ShapeCasts S8x256) (h2 : S8x256.ShapeCasts S8x256x1) (h3 : S8x256x1.Broadcasts S8x256x512)
    (r : Fin 8) (i : Fin 256) (j : Fin 512) :
    broadcastTo S8x256x512 (shapeCast S8x256x1 (shapeCast S8x256 (extractStridedSlice S8x1x256 ![0, d, 0] v h0) h1) h2) h3
      (ix3 r i j) = v (ix3 r ⟨d, hd⟩ i) := by
  refine (broadcastTo_apply _ h3 (ix3 r i j) (ix3 r i (0 : Fin 1)) ?_).trans ?_
  · intro a
    match a with
    | ⟨0, _⟩ => rfl
    | ⟨1, _⟩ => rfl
    | ⟨2, _⟩ => rfl
  refine (shapeCast_apply _ h2 (ix3 r i (0 : Fin 1)) (ix2 r i) ?_).trans ?_
  · rw [Shape.rowMajor_val_two, Shape.rowMajor_val_three]
    show r.val * 256 + i.val = (r.val * 256 + i.val) * 1 + 0
    omega
  refine (shapeCast_apply _ h1 (ix2 r i) (ix3 r (0 : Fin 1) i) ?_).trans ?_
  · rw [Shape.rowMajor_val_three, Shape.rowMajor_val_two]
    show (r.val * 1 + 0) * 256 + i.val = r.val * 256 + i.val
    omega
  refine extractStridedSlice_apply _ v h0 (ix3 r (0 : Fin 1) i) (ix3 r ⟨d, hd⟩ i) ?_
  intro a
  match a with
  | ⟨0, _⟩ => show r.val = 0 + r.val; omega
  | ⟨1, _⟩ => show d = d + 0; omega
  | ⟨2, _⟩ => show i.val = 0 + i.val; omega

/-- Coordinate `d` of the second cloud's tile, spread along the points: at `(r, i, j)` it is the tile at `(r, d, j)`. -/
theorem bcY_apply (d : ℕ) (hd : d < 3) (v : S8x3x512.Idx → α) (h0 : S8x3x512.Slices ![0, d, 0] S8x1x512)
    (h1 : S8x1x512.ShapeCasts S8x512) (h2 : S8x512.ShapeCasts S8x1x512) (h3 : S8x1x512.Broadcasts S8x256x512)
    (r : Fin 8) (i : Fin 256) (j : Fin 512) :
    broadcastTo S8x256x512 (shapeCast S8x1x512 (shapeCast S8x512 (extractStridedSlice S8x1x512 ![0, d, 0] v h0) h1) h2) h3
      (ix3 r i j) = v (ix3 r ⟨d, hd⟩ j) := by
  refine (broadcastTo_apply _ h3 (ix3 r i j) (ix3 r (0 : Fin 1) j) ?_).trans ?_
  · intro a
    match a with
    | ⟨0, _⟩ => rfl
    | ⟨1, _⟩ => rfl
    | ⟨2, _⟩ => rfl
  refine (shapeCast_apply _ h2 (ix3 r (0 : Fin 1) j) (ix2 r j) ?_).trans ?_
  · rw [Shape.rowMajor_val_two, Shape.rowMajor_val_three]
    show r.val * 512 + j.val = (r.val * 1 + 0) * 512 + j.val
    omega
  refine (shapeCast_apply _ h1 (ix2 r j) (ix3 r (0 : Fin 1) j) ?_).trans ?_
  · rw [Shape.rowMajor_val_three, Shape.rowMajor_val_two]
    show (r.val * 1 + 0) * 512 + j.val = r.val * 512 + j.val
    omega
  refine extractStridedSlice_apply _ v h0 (ix3 r (0 : Fin 1) j) (ix3 r ⟨d, hd⟩ j) ?_
  intro a
  match a with
  | ⟨0, _⟩ => show r.val = 0 + r.val; omega
  | ⟨1, _⟩ => show d = d + 0; omega
  | ⟨2, _⟩ => show j.val = 0 + j.val; omega

/-- The tile of squared distances. -/
theorem pay10_apply (x0 : Vec Ideal S8x3x256 .f32) (x1 : Vec Ideal S8x3x512 .f32) (r : Fin 8) (i : Fin 256) (j : Fin 512) :
    k0_pay10 (F := Ideal) x0 x1 (ix3 r i j) = sqd (fun d => x0 (ix3 r d i)) (fun d => x1 (ix3 r d j)) := by
  unfold k0_pay10
  simp only [pay9_eq, shapeCast_self]
  unfold sqd
  rw [Fin.sum_univ_three]
  simp only [addf_apply, mulf_apply, subf_apply]
  rw [bcX_apply 0 (by omega) x0, bcX_apply 1 (by omega) x0, bcX_apply 2 (by omega) x0,
    bcY_apply 0 (by omega) x1, bcY_apply 1 (by omega) x1, bcY_apply 2 (by omega) x1]
  rfl

end Cert.KernelIdeal.Chamfer

end
-- ==== Proof.KerValueSet.lean ====
/-
  Initial segments of `Fin N` cut into blocks of `w`.

  The indices below `w·(k+1)` are those below `w·k` together with the block `w·k + j`, `j < w`; so an infimum or a sum over
  the longer segment is the one over the shorter segment combined with the one over the block. The segment below `0` is
  empty and the segment below `N` is everything.
-/
import Idealize.ShloMosaic.PureOps.Ideal

open scoped BigOperators

namespace Cert.KernelIdeal.Chamfer

/-- The segment below `w·(k+1)` is the segment below `w·k` and block `k`. -/
theorem filter_lt_block {N : ℕ} (w k : ℕ) (h : w * (k + 1) ≤ N) :
    (Finset.univ.filter fun m : Fin N => m.val < w * (k + 1))
      = (Finset.univ.filter fun m : Fin N => m.val < w * k)
        ∪ Finset.univ.image fun j : Fin w =>
            (⟨w * k + j.val, by have := j.isLt; rw [Nat.mul_succ] at h; omega⟩ : Fin N) := by
  ext m
  simp only [Finset.mem_filter, Finset.mem_univ, true_and, Finset.mem_union, Finset.mem_image]
  have hs : w * (k + 1) = w * k + w := Nat.mul_succ w k
  constructor
  · intro hm
    by_cases hk : m.val < w * k
    · exact Or.inl hk
    · exact Or.inr ⟨⟨m.val - w * k, by omega⟩, Fin.ext (by show w * k + (m.val - w * k) = m.val; omega)⟩
  · rintro (hm | ⟨j, rfl⟩)
    · omega
    · have := j.isLt
      show w * k + j.val < w * (k + 1)
      omega

/-- The infimum over the segment below `w·(k+1)`. -/
theorem inf_filter_lt_block {α : Type*} [LinearOrder α] [OrderTop α] {N : ℕ} (f : Fin N → α) (w k : ℕ)
    (h : w * (k + 1) ≤ N) :
    (Finset.univ.filter fun m : Fin N => m.val < w * (k + 1)).inf f
      = min ((Finset.univ.filter fun m : Fin N => m.val < w * k).inf f)
          ((Finset.univ : Finset (Fin w)).inf fun j =>
            f ⟨w * k + j.val, by have := j.isLt; rw [Nat.mul_succ] at h; omega⟩) := by
  rw [filter_lt_block w k h, Finset.inf_union, Finset.inf_image]
  rfl

/-- The sum over the segment below `w·(k+1)`. -/
theorem sum_filter_lt_block {α : Type*} [AddCommMonoid α] {N : ℕ} (f : Fin N → α) (w k : ℕ) (h : w * (k + 1) ≤ N) :
    ∑ m ∈ Finset.univ.filter (fun m : Fin N => m.val < w * (k + 1)), f m
      = ∑ m ∈ Finset.univ.filter (fun m : Fin N => m.val < w * k), f m
        + ∑ j : Fin w, f ⟨w * k + j.val, by have := j.isLt; rw [Nat.mul_succ] at h; omega⟩ := by
  rw [filter_lt_block w k h, Finset.sum_union, Finset.sum_image]
  · intro a _ b _ hab
    have e : w * k + a.val = w * k + b.val := congrArg Fin.val hab
    exact Fin.ext (by omega)
  · rw [Finset.disjoint_left]
    intro m hm hm'
    obtain ⟨j, _, rfl⟩ := Finset.mem_image.1 hm'
    have hlt : w * k + j.val < w * k := (Finset.mem_filter.1 hm).2
    omega

/-- The segment below `w·0` is empty. -/
theorem filter_lt_zero {N : ℕ} (w : ℕ) : (Finset.univ.filter fun m : Fin N => m.val < w * 0) = ∅ := by
  rw [Nat.mul_zero]
  exact Finset.filter_false_of_mem fun m _ => Nat.not_lt_zero _

/-- The segment below `N` is everything. -/
theorem filter_lt_all {N M : ℕ} (h : N ≤ M) : (Finset.univ.filter fun m : Fin N => m.val < M) = Finset.univ :=
  Finset.filter_true_of_mem fun m _ => Nat.lt_of_lt_of_le m.isLt h

end Cert.KernelIdeal.Chamfer
-- ==== Proof.KerValueRun.lean ====
/-
  The kernel's carried state after each grid point, at the ideal values, as functions of the two input arrays.

  The grid point `n` works on row block `n / 32 % 2`, on tile `n / 4 % 8` (256 points) of the first cloud and tile `n % 4`
  (512 points) of the second. After point `n`, for row `r` of the block:
  * the minimum kept for point `i` of the tile is the infimum of the squared distances from that point to the first
    `512·(n % 4 + 1)` points of the second cloud;
  * each of the two sums is the sum, over the first `256·((n % 32 + 1) / 4)` points of the first cloud, of that point's term
    (the guarded nearest-point distance, or the distance to the point of the same index).
  At `n = 32·b + 31` the segments are everything, and the two output blocks are the two means of the specification.
-/
import proofs.«102313_j17695265260053_2_alg».proof.Proof.KerValuePay
import proofs.«102313_j17695265260053_2_alg».proof.Proof.KerValueSet
import proofs.«102313_j17695265260053_2_alg».proof.Proof.Blocks

noncomputable section

open scoped BigOperators

namespace Cert.KernelIdeal.Chamfer

open Idealize.ShloMosaic Idealize.ShloMosaic.ValueIdx Cert.KernelIdeal Cert.KernelIdeal.Gen Cert.Chamfer

/-- Row `r` of the row block `q % 2`. -/
def rowQ (q : ℕ) (r : Fin 8) : Fin 16 := ⟨8 * (q % 2) + r.val, by have := r.isLt; omega⟩

/-- Point `i` of the tile `t % 8` of 256 points. -/
def ptA (t : ℕ) (i : Fin 256) : Fin 2048 := ⟨256 * (t % 8) + i.val, by have := i.isLt; omega⟩

/-- Point `j` of the tile `t % 4` of 512 points. -/
def ptB (t : ℕ) (j : Fin 512) : Fin 2048 := ⟨512 * (t % 4) + j.val, by have := j.isLt; omega⟩

/-- Cloud `R` of an array laid out `[16, 3, 2048]`, as points. -/
def cloudT (A : Vec Ideal S16x3x2048 .f32) (R : Fin 16) : Fin 2048 → Fin 3 → EReal := fun n d => A (ix3 R d n)

theorem blocksOf_x0 (X Y : Vec Ideal S16x3x2048 .f32) (n : ℕ) (r : Fin 8) (d : Fin 3) (i : Fin 256) :
    (blocksOf X Y n).x0 (ix3 r d i) = cloudT X (rowQ (n / 32) r) (ptA (n / 4) i) d := rfl

theorem blocksOf_x1 (X Y : Vec Ideal S16x3x2048 .f32) (n : ℕ) (r : Fin 8) (d : Fin 3) (j : Fin 512) :
    (blocksOf X Y n).x1 (ix3 r d j) = cloudT Y (rowQ (n / 32) r) (ptB n j) d := rfl

theorem blocksOf_x2 (X Y : Vec Ideal S16x3x2048 .f32) (n : ℕ) (r : Fin 8) (d : Fin 3) (i : Fin 256) :
    (blocksOf X Y n).x2 (ix3 r d i) = cloudT Y (rowQ (n / 32) r) (ptA (n / 4) i) d := rfl

/-- The minima after a point: the carried minimum (restarted from `+∞` on the first tile) against the tile's infimum. -/
theorem stepM_apply (X Y : Vec Ideal S16x3x2048 .f32) (n : ℕ) (s : St Ideal) (r : Fin 8) (i : Fin 256) :
    stepM n (blocksOf X Y n) s (ix2 r i)
      = min (if n % 4 = 0 then ⊤ else s.M (ix2 r i))
          ((Finset.univ : Finset (Fin 512)).inf fun j =>
            sqd (cloudT X (rowQ (n / 32) r) (ptA (n / 4) i)) (cloudT Y (rowQ (n / 32) r) (ptB n j))) := by
  unfold stepM
  rw [pay1_apply]
  refine congrArg₂ min ?_ ?_
  · by_cases h : n % 4 = 0
    · rw [if_pos h, if_pos h]; exact pay8_apply _
    · rw [if_neg h, if_neg h]
  · refine Finset.inf_congr rfl fun j _ => ?_
    rw [pay10_apply]
    rfl

/-- One point takes the minimum from the segment below `512·(n % 4)` to the segment below `512·(n % 4 + 1)`. -/
theorem stepM_segment (X Y : Vec Ideal S16x3x2048 .f32) (n : ℕ) (s : St Ideal) (r : Fin 8) (i : Fin 256)
    (hprev : n % 4 ≠ 0 → s.M (ix2 r i)
      = (Finset.univ.filter fun m : Fin 2048 => m.val < 512 * (n % 4)).inf
          fun m => sqd (cloudT X (rowQ (n / 32) r) (ptA (n / 4) i)) (cloudT Y (rowQ (n / 32) r) m)) :
    stepM n (blocksOf X Y n) s (ix2 r i)
      = (Finset.univ.filter fun m : Fin 2048 => m.val < 512 * (n % 4 + 1)).inf
          fun m => sqd (cloudT X (rowQ (n / 32) r) (ptA (n / 4) i)) (cloudT Y (rowQ (n / 32) r) m) := by
  rw [stepM_apply, inf_filter_lt_block _ 512 (n % 4) (by omega)]
  refine congrArg₂ min ?_ rfl
  by_cases h : n % 4 = 0
  · rw [if_pos h, h, filter_lt_zero, Finset.inf_empty]
  · rw [if_neg h]; exact hprev h

/-- The minima after point `n`. -/
theorem M_inv (X Y : Vec Ideal S16x3x2048 .f32) (s₀ : St Ideal) (n : ℕ) (r : Fin 8) (i : Fin 256) :
    (runTo (blocksOf X Y) s₀ n).M (ix2 r i)
      = (Finset.univ.filter fun m : Fin 2048 => m.val < 512 * (n % 4 + 1)).inf
          fun m => sqd (cloudT X (rowQ (n / 32) r) (ptA (n / 4) i)) (cloudT Y (rowQ (n / 32) r) m) := by
  induction n with
  | zero => exact stepM_segment X Y 0 s₀ r i (fun h => absurd rfl h)
  | succ k ih =>
    show stepM (k + 1) (blocksOf X Y (k + 1)) (runTo (blocksOf X Y) s₀ k) (ix2 r i) = _
    refine stepM_segment X Y (k + 1) (runTo (blocksOf X Y) s₀ k) r i (fun h => ?_)
    rw [ih]
    have e1 : (k + 1) % 4 = k % 4 + 1 := by omega
    have e2 : (k + 1) / 32 = k / 32 := by omega
    have e3 : (k + 1) / 4 = k / 4 := by omega
    rw [e1, e2, e3]

/-- A sum carried over the grid points: restarted at the first point of a row block, unchanged at a point that is not
    the last of its group of four, and taking in one tile's 256 terms at the last. After point `n` it is the sum over the
    segment below `256·((n % 32 + 1) / 4)`. -/
theorem acc_segments (a : ℕ → EReal) (g : ℕ → Fin 2048 → EReal)
    (h1 : ∀ n, n % 32 = 0 → a n = 0)
    (h2 : ∀ k, (k + 1) % 32 ≠ 0 → (k + 1) % 4 ≠ 3 → a (k + 1) = a k)
    (h3 : ∀ k, (k + 1) % 4 = 3 → a (k + 1) = a k + ∑ i : Fin 256, g ((k + 1) / 32) (ptA ((k + 1) / 4) i)) (n : ℕ) :
    a n = ∑ p ∈ Finset.univ.filter (fun p : Fin 2048 => p.val < 256 * ((n % 32 + 1) / 4)), g (n / 32) p := by
  induction n with
  | zero =>
    rw [h1 0 rfl]
    have e : (0 % 32 + 1) / 4 = 0 := rfl
    rw [e, filter_lt_zero, Finset.sum_empty]
  | succ k ih =>
    by_cases c1 : (k + 1) % 32 = 0
    · rw [h1 _ c1]
      have e : ((k + 1) % 32 + 1) / 4 = 0 := by omega
      rw [e, filter_lt_zero, Finset.sum_empty]
    · by_cases c3 : (k + 1) % 4 = 3
      · rw [h3 k c3, ih]
        have e : ((k + 1) % 32 + 1) / 4 = (k + 1) / 4 % 8 + 1 := by omega
        have e' : (k % 32 + 1) / 4 = (k + 1) / 4 % 8 := by omega
        have e2 : (k + 1) / 32 = k / 32 := by omega
        rw [e, e', e2, sum_filter_lt_block _ 256 ((k + 1) / 4 % 8) (by omega)]
        rfl
      · rw [h2 k c1 c3, ih]
        have e : ((k + 1) % 32 + 1) / 4 = (k % 32 + 1) / 4 := by omega
        have e2 : (k + 1) / 32 = k / 32 := by omega
        rw [e, e2]

/-- Every state of the run is one step from some state. -/
theorem runTo_eq_step (blocks : ℕ → Blk Ideal) (s₀ : St Ideal) (n : ℕ) :
    ∃ s, runTo blocks s₀ n = step n (blocks n) s := by
  cases n
  · exact ⟨s₀, rfl⟩
  · exact ⟨_, rfl⟩

/-- The first sums after point `n`. -/
theorem S1_inv (X Y : Vec Ideal S16x3x2048 .f32) (s₀ : St Ideal) (n : ℕ) (r : Fin 8) :
    (runTo (blocksOf X Y) s₀ n).S1 (ix2 r (0 : Fin 1))
      = ∑ p ∈ Finset.univ.filter (fun p : Fin 2048 => p.val < 256 * ((n % 32 + 1) / 4)),
          nearest (cloudT X (rowQ (n / 32) r) p) (cloudT Y (rowQ (n / 32) r)) := by
  refine acc_segments (fun n => (runTo (blocksOf X Y) s₀ n).S1 (ix2 r (0 : Fin 1)))
    (fun q p => nearest (cloudT X (rowQ q r) p) (cloudT Y (rowQ q r))) ?_ ?_ ?_ n
  · intro n hn
    obtain ⟨s, hs⟩ := runTo_eq_step (blocksOf X Y) s₀ n
    show (runTo (blocksOf X Y) s₀ n).S1 (ix2 r (0 : Fin 1)) = 0
    rw [hs]
    show stepS1 n (blocksOf X Y n) s (ix2 r (0 : Fin 1)) = 0
    unfold stepS1
    rw [if_neg (by omega), if_pos hn]
    exact pay6_apply _
  · intro k c1 c3
    show stepS1 (k + 1) (blocksOf X Y (k + 1)) (runTo (blocksOf X Y) s₀ k) (ix2 r (0 : Fin 1))
      = (runTo (blocksOf X Y) s₀ k).S1 (ix2 r (0 : Fin 1))
    unfold stepS1
    rw [if_neg c3, if_neg c1]
  · intro k c3
    show stepS1 (k + 1) (blocksOf X Y (k + 1)) (runTo (blocksOf X Y) s₀ k) (ix2 r (0 : Fin 1))
      = (runTo (blocksOf X Y) s₀ k).S1 (ix2 r (0 : Fin 1))
        + ∑ i : Fin 256, nearest (cloudT X (rowQ ((k + 1) / 32) r) (ptA ((k + 1) / 4) i)) (cloudT Y (rowQ ((k + 1) / 32) r))
    unfold stepS1
    rw [if_pos c3, if_neg (by omega), pay2_apply]
    refine congrArg ((runTo (blocksOf X Y) s₀ k).S1 (ix2 r (0 : Fin 1)) + ·) ?_
    refine Finset.sum_congr rfl fun i _ => ?_
    have hM := M_inv X Y s₀ (k + 1) r i
    have e : (k + 1) % 4 + 1 = 4 := by omega
    rw [e, filter_lt_all (by norm_num)] at hM
    exact congrArg (fun v => Ideal.sqrt (max v eps)) hM

/-- The second sums after point `n`. -/
theorem S2_inv (X Y : Vec Ideal S16x3x2048 .f32) (s₀ : St Ideal) (n : ℕ) (r : Fin 8) :
    (runTo (blocksOf X Y) s₀ n).S2 (ix2 r (0 : Fin 1))
      = ∑ p ∈ Finset.univ.filter (fun p : Fin 2048 => p.val < 256 * ((n % 32 + 1) / 4)),
          Ideal.sqrt (sqd (cloudT X (rowQ (n / 32) r) p) (cloudT Y (rowQ (n / 32) r) p)) := by
  refine acc_segments (fun n => (runTo (blocksOf X Y) s₀ n).S2 (ix2 r (0 : Fin 1)))
    (fun q p => Ideal.sqrt (sqd (cloudT X (rowQ q r) p) (cloudT Y (rowQ q r) p))) ?_ ?_ ?_ n
  · intro n hn
    obtain ⟨s, hs⟩ := runTo_eq_step (blocksOf X Y) s₀ n
    show (runTo (blocksOf X Y) s₀ n).S2 (ix2 r (0 : Fin 1)) = 0
    rw [hs]
    show stepS2 n (blocksOf X Y n) s (ix2 r (0 : Fin 1)) = 0
    unfold stepS2
    rw [if_neg (by omega), if_pos hn]
    exact pay7_apply _
  · intro k c1 c3
    show stepS2 (k + 1) (blocksOf X Y (k + 1)) (runTo (blocksOf X Y) s₀ k) (ix2 r (0 : Fin 1))
      = (runTo (blocksOf X Y) s₀ k).S2 (ix2 r (0 : Fin 1))
    unfold stepS2
    rw [if_neg c3, if_neg c1]
  · intro k c3
    show stepS2 (k + 1) (blocksOf X Y (k + 1)) (runTo (blocksOf X Y) s₀ k) (ix2 r (0 : Fin 1))
      = (runTo (blocksOf X Y) s₀ k).S2 (ix2 r (0 : Fin 1))
        + ∑ i : Fin 256, Ideal.sqrt (sqd (cloudT X (rowQ ((k + 1) / 32) r) (ptA ((k + 1) / 4) i))
            (cloudT Y (rowQ ((k + 1) / 32) r) (ptA ((k + 1) / 4) i)))
    unfold stepS2
    rw [if_pos c3, if_neg (by omega), pay9_eq, pay3_apply]
    rfl

/-- The first output block at the last point of row block `b`: the mean nearest-point distance of the row's two clouds. -/
theorem out3_half (X Y : Vec Ideal S16x3x2048 .f32) (s₀ : St Ideal) (b : Fin 2) (r : Fin 8) :
    out3 (runTo (blocksOf X Y) s₀ (32 * b.val + 31)) (ix2 r (0 : Fin 1))
      = symDis (fun n d => X (ix3 (⟨8 * b.val + r.val, by have := b.isLt; have := r.isLt; omega⟩ : Fin 16) d n))
          (fun m d => Y (ix3 (⟨8 * b.val + r.val, by have := b.isLt; have := r.isLt; omega⟩ : Fin 16) d m)) := by
  have hb := b.isLt
  unfold out3
  rw [pay4_apply, S1_inv]
  have e : ((32 * b.val + 31) % 32 + 1) / 4 = 8 := by omega
  have e2 : (32 * b.val + 31) / 32 = b.val := by omega
  have eR : rowQ b.val r = (⟨8 * b.val + r.val, by have := r.isLt; omega⟩ : Fin 16) :=
    Fin.ext (by show 8 * (b.val % 2) + r.val = 8 * b.val + r.val; omega)
  rw [e, e2, eR, filter_lt_all (by norm_num)]
  rfl

/-- The second output block at the last point of row block `b`: the mean distance between points of the same index. -/
theorem out4_half (X Y : Vec Ideal S16x3x2048 .f32) (s₀ : St Ideal) (b : Fin 2) (r : Fin 8) :
    out4 (runTo (blocksOf X Y) s₀ (32 * b.val + 31)) (ix2 r (0 : Fin 1))
      = asymDis (fun n d => X (ix3 (⟨8 * b.val + r.val, by have := b.isLt; have := r.isLt; omega⟩ : Fin 16) d n))
          (fun m d => Y (ix3 (⟨8 * b.val + r.val, by have := b.isLt; have := r.isLt; omega⟩ : Fin 16) d m)) := by
  have hb := b.isLt
  unfold out4
  rw [pay5_apply, S2_inv]
  have e : ((32 * b.val + 31) % 32 + 1) / 4 = 8 := by omega
  have e2 : (32 * b.val + 31) / 32 = b.val := by omega
  have eR : rowQ b.val r = (⟨8 * b.val + r.val, by have := r.isLt; omega⟩ : Fin 16) :=
    Fin.ext (by show 8 * (b.val % 2) + r.val = 8 * b.val + r.val; omega)
  rw [e, e2, eR, filter_lt_all (by norm_num)]
  rfl

end Cert.KernelIdeal.Chamfer

end
-- ==== Proof.KerFinal.lean ====
/-
  The two output arrays after the run, at the ideal values: row `j` of the first is the mean nearest-point distance of
  clouds `j` of the two input arrays, row `j` of the second the mean distance between their points of the same index.

  Row `j = 8·b + r` of an output array is row `r` of what the body left at point `32·b + 31`; the state there is that of
  the pure run over the blocks cut from the two arrays; and the pure run's two outputs at that point are the two means.
-/
import proofs.«102313_j17695265260053_2_alg».proof.Proof.KerFinalArr
import proofs.«102313_j17695265260053_2_alg».proof.Proof.KerValueRun

noncomputable section

namespace Cert.KernelIdeal.Chamfer

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Chamfer

section Region

variable (V : (c : Dev nD) → (b : Ref sig .tc) → Buf (Elt Ideal) ((c : Thread nD τ).loc b))

/-- Row `j` of the first output array after the run. -/
theorem final3_value (c : Dev nD)
    (hb0 : ∀ t : Fin cfg0.N, ((cfg0.win 0).blk t).view.read (Elt Ideal) (V c main_v0) = (blocksOf (V c main_v0) (V c main_v1) t.val).x0)
    (hb1 : ∀ t : Fin cfg0.N, ((cfg0.win 1).blk t).view.read (Elt Ideal) (V c main_v1) = (blocksOf (V c main_v0) (V c main_v1) t.val).x1)
    (hb2 : ∀ t : Fin cfg0.N, ((cfg0.win 2).blk t).view.read (Elt Ideal) (V c main_v1) = (blocksOf (V c main_v0) (V c main_v1) t.val).x2)
    (j : Fin 16) :
    (dat0 V c).arrAt 3 cfg0.N (ix2 j (0 : Fin 1))
      = symDis (fun n d => (V c main_v0 : Vec Ideal S16x3x2048 .f32) (ix3 j d n))
          (fun m d => (V c main_v1 : Vec Ideal S16x3x2048 .f32) (ix3 j d m)) := by
  have hj := j.isLt
  have ej : j = (⟨8 * (⟨j.val / 8, by omega⟩ : Fin 2).val + (⟨j.val % 8, by omega⟩ : Fin 8).val, by show 8 * (j.val / 8) + j.val % 8 < 16; omega⟩ : Fin 16) :=
    Fin.ext (by show j.val = 8 * (j.val / 8) + j.val % 8; omega)
  rw [ej, final3_apply V c ⟨j.val / 8, by omega⟩ ⟨j.val % 8, by omega⟩,
    stAt_eq_runTo V c hb0 hb1 hb2 _ (by show 32 * (j.val / 8) + 31 < 64; omega)]
  exact out3_half (V c main_v0) (V c main_v1) s0 ⟨j.val / 8, by omega⟩ ⟨j.val % 8, by omega⟩

/-- Row `j` of the second output array after the run. -/
theorem final4_value (c : Dev nD)
    (hb0 : ∀ t : Fin cfg0.N, ((cfg0.win 0).blk t).view.read (Elt Ideal) (V c main_v0) = (blocksOf (V c main_v0) (V c main_v1) t.val).x0)
    (hb1 : ∀ t : Fin cfg0.N, ((cfg0.win 1).blk t).view.read (Elt Ideal) (V c main_v1) = (blocksOf (V c main_v0) (V c main_v1) t.val).x1)
    (hb2 : ∀ t : Fin cfg0.N, ((cfg0.win 2).blk t).view.read (Elt Ideal) (V c main_v1) = (blocksOf (V c main_v0) (V c main_v1) t.val).x2)
    (j : Fin 16) :
    (dat0 V c).arrAt 4 cfg0.N (ix2 j (0 : Fin 1))
      = asymDis (fun n d => (V c main_v0 : Vec Ideal S16x3x2048 .f32) (ix3 j d n))
          (fun m d => (V c main_v1 : Vec Ideal S16x3x2048 .f32) (ix3 j d m)) := by
  have hj := j.isLt
  have ej : j = (⟨8 * (⟨j.val / 8, by omega⟩ : Fin 2).val + (⟨j.val % 8, by omega⟩ : Fin 8).val, by show 8 * (j.val / 8) + j.val % 8 < 16; omega⟩ : Fin 16) :=
    Fin.ext (by show j.val = 8 * (j.val / 8) + j.val % 8; omega)
  rw [ej, final4_apply V c ⟨j.val / 8, by omega⟩ ⟨j.val % 8, by omega⟩,
    stAt_eq_runTo V c hb0 hb1 hb2 _ (by show 32 * (j.val / 8) + 31 < 64; omega)]
  exact out4_half (V c main_v0) (V c main_v1) s0 ⟨j.val / 8, by omega⟩ ⟨j.val % 8, by omega⟩

end Region

end Cert.KernelIdeal.Chamfer

end
-- ==== Proof.KerValue.lean ====
/-
  The kernel program's result at the ideal values. At the return the result is the blend `Ker.tail` of the flags and the
  two reshaped result columns; the region leaves in row `j` of the two columns the two means of clouds `j` read off the
  transposed arrays; the transposed arrays at `(b, d, n)` are the arguments at `(b, n, d)`; so the result is `Ker.tail` of
  the flags and the specification's two means of the arguments.
-/
import proofs.«102313_j17695265260053_2_alg».proof.Proof.Run
import proofs.«102313_j17695265260053_2_alg».proof.Proof.KerFrame
import proofs.«102313_j17695265260053_2_alg».proof.Proof.KerGlueAfter
import proofs.«102313_j17695265260053_2_alg».proof.Proof.KerGlueBlocks
import proofs.«102313_j17695265260053_2_alg».proof.Proof.KerFinal

noncomputable section

namespace Cert.KernelIdeal.Chamfer

open Idealize.ShloMosaic Idealize.ShloMosaic.ValueIdx Idealize.ShloMosaic.TcCoe Idealize.SL.Sem Idealize.ShloMosaic.StableHlo Cert.KernelIdeal Cert.KernelIdeal.Gen

variable (m : (ℓ : Loc nD τ sig) → Buf (Elt Ideal) ℓ) (ρ : Dev nD → PrngReg)

/-- At the region's exit the first result column holds, in row `j`, the first mean of clouds `j` of the arguments. -/
theorem W2_sym (c : Dev nD) :
    shapeCast S16 (W2 m c (Proc.devRef .tc main_v2_0)) shapeCasts_S16x1_S16
      = Cert.Chamfer.symVec (m ((c.tc : Thread nD τ).loc main_arg0)) (m ((c.tc : Thread nD τ).loc main_arg1)) :=
  shapeCast_col_eq _ _ fun j =>
    (congrFun (W2_v2_0 m c) (ix2 j (0 : Fin 1))).trans
      ((final3_value (V1 m) c (fun t => blk0_read _ _ t) (fun t => blk1_read _ _ t) (fun t => blk2_read _ _ t) j).trans
        (symDis_of_transposed _ _ _ _ (entry_v0_apply m c) (entry_v1_apply m c) j))

/-- At the region's exit the second result column holds, in row `j`, the second mean of clouds `j` of the arguments. -/
theorem W2_asym (c : Dev nD) :
    shapeCast S16 (W2 m c (Proc.devRef .tc main_v2_1)) shapeCasts_S16x1_S16
      = Cert.Chamfer.asymVec (m ((c.tc : Thread nD τ).loc main_arg0)) (m ((c.tc : Thread nD τ).loc main_arg1)) :=
  shapeCast_col_eq _ _ fun j =>
    (congrFun (W2_v2_1 m c) (ix2 j (0 : Fin 1))).trans
      ((final4_value (V1 m) c (fun t => blk0_read _ _ t) (fun t => blk1_read _ _ t) (fun t => blk2_read _ _ t) j).trans
        (asymDis_of_transposed _ _ _ _ (entry_v0_apply m c) (entry_v1_apply m c) j))

/-- At the region's exit the flags hold their launch contents. -/
theorem W2_arg2 (c : Dev nD) : W2 m c (Proc.devRef .tc main_arg2) = m ((c.tc : Thread nD τ).loc main_arg2) :=
  (W2_of_ne m c main_arg2 (by decide) (by decide)).trans (entry_arg2 m c)

/-- At the return the result is the blend of the flags and the specification's two means of the arguments. -/
theorem W3_v11 (c : Dev nD) :
    W3 m c (Proc.devRef .tc main_v11)
      = Ker.tail (m ((c.tc : Thread nD τ).loc main_arg2))
          (Cert.Chamfer.symVec (m ((c.tc : Thread nD τ).loc main_arg0)) (m ((c.tc : Thread nD τ).loc main_arg1)))
          (Cert.Chamfer.asymVec (m ((c.tc : Thread nD τ).loc main_arg0)) (m ((c.tc : Thread nD τ).loc main_arg1))) := by
  refine (after_v11 (W2 m c)).trans ?_
  rw [W2_sym m c, W2_asym m c, W2_arg2 m c]

/-- Every weakly fair execution of @main at the ideal values terminates, nothing faulting, with the result at the blend of
    the flags and the specification's two means of the arguments, the three arguments unchanged. -/
theorem value_run : θ_run (defs (F := Ideal)) (onTc (τ := τ) (main (F := Ideal))) ⟨m, fun _ => 0, ρ⟩ (fun r => ∀ c : Dev nD,
      r.2.mem ((c.tc : Thread nD τ).loc main_v11)
          = Ker.tail (m ((c.tc : Thread nD τ).loc main_arg2))
              (Cert.Chamfer.symVec (m ((c.tc : Thread nD τ).loc main_arg0)) (m ((c.tc : Thread nD τ).loc main_arg1)))
              (Cert.Chamfer.asymVec (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c =>
      ⟨(h c _ (mem_uc main_v11 (by decide))).trans (W3_v11 m c),
       (h c _ (mem_uc main_arg0 (by decide))).trans (W3_arg0 m c),
       (h c _ (mem_uc main_arg1 (by decide))).trans (W3_arg1 m c),
       (h c _ (mem_uc main_arg2 (by decide))).trans (W3_arg2 m c)⟩)
    (run_main m ρ)

end Cert.KernelIdeal.Chamfer

end
-- ==== Proof.Finite.lean ====
/-
  Finiteness out of the precondition. The precondition says `|x| < +∞` of every entry of the three inputs, as one
  conjunction of three `all`-reductions. On the extended reals `|x| = max x (-x)`, which is `⊤` at both infinities, so
  an entry with `|x| < ⊤` is neither: it is a real number.
-/
import proofs.«102313_j17695265260053_2_alg».proof.Proof.Gen.Pre_finite_inputs
import proofs.«102313_j17695265260053_2_alg».proof.Proof.Law
import Idealize.ShloMosaic.Lib.ReduceAll
import Idealize.ShloMosaic.Lib.ValueIdx
import Idealize.ShloMosaic.PureOps.Ideal

noncomputable section

namespace Cert.Chamfer.Ref

open Idealize.ShloMosaic

/-- The scalar shape has one index. -/
instance subsingleton_scalarIdx : Subsingleton Cert.Pre_finite_inputs.S_.Idx := ⟨fun a b => funext fun d => d.elim0⟩

/-- An extended real whose absolute value is below `+∞` (the word `0x7F800000`) is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  change Ideal.cmp .olt (max x (-x)) (Ideal.ofBits .f32 0x7F800000#32) = 1#1 at h
  rw [ofBits_inf] at h
  induction x using EReal.rec with
  | bot => exact absurd h (by simp [Ideal.cmp])
  | top => exact absurd h (by simp [Ideal.cmp])
  | coe r => exact ⟨r, rfl⟩

/-- Under the precondition every entry of the two clouds and of the flags is a real number. -/
theorem finite_of_pre (A B : FVec Ideal Cert.Pre_finite_inputs.S16x2048x3 .f32) (flag : FVec Ideal Cert.Pre_finite_inputs.S16 .f32)
    (h : Cert.Pre_finite_inputs.fn (F := Ideal) A B flag = fun _ => 1#1) :
    (∀ i, ∃ r : ℝ, A i = (r : EReal)) ∧ (∀ i, ∃ r : ℝ, B i = (r : EReal)) ∧ (∀ i, ∃ r : ℝ, flag i = (r : EReal)) := by
  have h0 := congrFun h ValueIdx.ix0
  dsimp only [Cert.Pre_finite_inputs.fn] at h0
  obtain ⟨h12, h3⟩ := IntOp.andi_eq_one.1 (show IntOp.andi _ _ = 1#1 from h0)
  obtain ⟨h1, h2⟩ := IntOp.andi_eq_one.1 (show IntOp.andi _ _ = 1#1 from h12)
  refine ⟨fun i => ?_, fun i => ?_, fun i => ?_⟩
  · exact real_of_abs_lt_inf (A i) (Host.reduce_andi_all _ _ _ _ _ h1 i)
  · exact real_of_abs_lt_inf (B i) (Host.reduce_andi_all _ _ _ _ _ h2 i)
  · exact real_of_abs_lt_inf (flag i) (Host.reduce_andi_all _ _ _ _ _ h3 i)

end Cert.Chamfer.Ref

end
-- ==== Proof.RefRun.lean ====
/-
  The reference's run under the precondition: the precondition makes every coordinate of the two clouds a real number, and
  for such clouds the reference ends at `tail` of the flags and the specification's two means.
-/
import proofs.«102313_j17695265260053_2_alg».proof.Proof.Finite
import proofs.«102313_j17695265260053_2_alg».proof.Proof.RefValue

noncomputable section

namespace Cert.Chamfer.Ref

open Idealize.ShloMosaic Idealize.SL.Sem Cert.ReferenceIdeal

/-- Every weakly fair execution of the reference, from a memory of which the precondition holds on every device, terminates
    with its result at `tail` of the flags and the specification's two means, the three arguments unchanged. -/
theorem run_of_pre (m' : (ℓ : Loc nD τ sig) → Buf (Elt Ideal) ℓ) (ρ' : Dev nD → PrngReg)
    (hpre : ∀ c : Dev nD, Cert.Pre_finite_inputs.fn (F := Ideal) (m' ((c.tc : Thread nD τ).loc main_arg0))
      (m' ((c.tc : Thread nD τ).loc main_arg1)) (m' ((c.tc : Thread nD τ).loc main_arg2)) = fun _ => 1#1) :
    θ_run (defs (F := Ideal)) (onTc (τ := τ) (main (F := Ideal))) ⟨m', fun _ => 0, ρ'⟩ fun r => ∀ c : Dev nD,
      r.2.mem ((c.tc : Thread nD τ).loc main_v31)
          = tail (m' ((c.tc : Thread nD τ).loc main_arg2))
              (symVec (m' ((c.tc : Thread nD τ).loc main_arg0)) (m' ((c.tc : Thread nD τ).loc main_arg1)))
              (asymVec (m' ((c.tc : Thread nD τ).loc main_arg0)) (m' ((c.tc : Thread nD τ).loc main_arg1)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  run m' ρ' (fun c => (finite_of_pre _ _ _ (hpre c)).1) (fun c => (finite_of_pre _ _ _ (hpre c)).2.1)

end Cert.Chamfer.Ref

end
-- ==== Proof.Claims.lean ====
/-
  Three of the five claims, read off the runs.

  * The idealized kernel program runs and keeps its three arguments: its run at any values (Proof/KerFrame.lean), taken at
    the extended reals.
  * The idealized reference runs and keeps its three arguments: its generated run, the result's value dropped.
  * From memories that agree on the three arguments the two programs end at the same value. The kernel program ends at the
    blend `Ker.tail` of its flags and the specification's two per-cloud means of its two clouds (Proof/KerValue.lean). The
    precondition speaks of the kernel program's memory; the reference's memory holds the same three arrays, so it holds of
    that memory too, and under it the reference ends at the blend `Ref.tail` of its flags and the same two means of its
    clouds (Proof/RefRun.lean). The two blends are one function (Proof/KerGlueTail.lean) and the arrays are equal.
-/
import proofs.«102313_j17695265260053_2_alg».proof.Defs
import proofs.«102313_j17695265260053_2_alg».proof.Proof.Gen.KernelIdeal
import proofs.«102313_j17695265260053_2_alg».proof.Proof.Gen.ReferenceIdeal
import proofs.«102313_j17695265260053_2_alg».proof.Proof.Gen.Pre_finite_inputs
import proofs.«102313_j17695265260053_2_alg».proof.Proof.Gen.ReferenceIdeal.Run
import proofs.«102313_j17695265260053_2_alg».proof.Proof.KerFrame
import proofs.«102313_j17695265260053_2_alg».proof.Proof.KerValue
import proofs.«102313_j17695265260053_2_alg».proof.Proof.KerGlueTail
import proofs.«102313_j17695265260053_2_alg».proof.Proof.RefRun

noncomputable section

namespace Cert.Proof.Claims

open Idealize.ShloMosaic Idealize.SL.Sem

/-- The idealized kernel program runs to the end, faults nowhere, and leaves its three arguments as launched. -/
theorem frame_pi : Cert.frame_KernelIdeal := fun m ρ _ => Cert.KernelIdeal.Chamfer.frame_run (F := Ideal) m ρ

/-- So does the idealized reference: its run, with the value of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's blend of flags and of the two means of a pair of clouds is the kernel program's blend of equal flags and
    of the two means of equal clouds. -/
theorem blend_congr {A A' B B' : FVec Ideal Cert.KernelIdeal.S16x2048x3 .f32} {f f' : FVec Ideal Cert.KernelIdeal.S16 .f32}
    (hA : A' = A) (hB : B' = B) (hf : f' = f) :
    Cert.Chamfer.Ref.tail f' (Cert.Chamfer.symVec A' B') (Cert.Chamfer.asymVec A' B')
      = Cert.KernelIdeal.Chamfer.Ker.tail f (Cert.Chamfer.symVec A B) (Cert.Chamfer.asymVec A B) := by
  subst hA hB hf
  exact (congrFun (congrFun (congrFun Cert.KernelIdeal.Chamfer.tail_eq _) _) _).symm

/-- At the extended reals, from memories agreeing on the three arguments, both programs run, keep their arguments, and end
    at one value: the blend of the flags and the specification's two per-cloud means of the two clouds. -/
theorem algebraic : Cert.algebraic_KernelIdeal_ReferenceIdeal := by
  intro m ρ m' ρ' hpre hagree
  refine ⟨_, Cert.KernelIdeal.Chamfer.value_run m ρ, ?_⟩
  refine (θ_run Cert.ReferenceIdeal.defs _ _).mono (fun _ h c => ⟨(h c).1.trans ?_, (h c).2⟩)
    (Cert.Chamfer.Ref.run_of_pre m' ρ' fun c => ?_)
  · rw [(hagree c).1, (hagree c).2.1, (hagree c).2.2]
    exact hpre c
  · exact blend_congr (hagree c).1 (hagree c).2.1 (hagree c).2.2

end Cert.Proof.Claims

end
-- ==== Proof.StateK.lean ====
/-
  The kernel's carried state and what one grid point does to it, as a pure function, at any float instance.

  The grid has 64 points `n = 32·b + 4·ni + mi` (`b < 2` the half of the batch, `ni < 8` the tile of 256 points of the
  first cloud, `mi < 4` the tile of 512 points of the second). Between points the kernel keeps three scratch
  arrays: `M` (per row and point of the current `ni` tile, the least squared distance met so far over the `mi`
  tiles), `S1` and `S2` (per row, the sums so far of the nearest-point distances and of the same-index distances).
  At a point, with the three input blocks `x0` (first cloud, tile `ni`), `x1` (second cloud, tile `mi`), `x2`
  (second cloud, tile `ni`):
  * at `ni = mi = 0` (`n % 32 = 0`) the sums restart from zero;
  * at `mi = 0` (`n % 4 = 0`) the minima restart from `+∞`;
  * the minima take in the tile's squared distances;
  * at `mi = 3` (`n % 4 = 3`) the sums take in the tile's distances;
  and at `ni = 7, mi = 3` (`n % 32 = 31`) the two output blocks are the sums times `1/2048`.
  Each step is the body's own payload (the generated skeleton's `k0_payN`), so nothing is transcribed.
-/
import proofs.«102313_j17695265260053_2_alg».proof.Proof.Gen.Kernel.Skeleton

noncomputable section

namespace Cert.Kernel.Chamfer

open Idealize.ShloMosaic Cert.Kernel Cert.Kernel.Gen

variable {F : FTy → Type} [FloatOps F]

/-- The three scratch arrays between grid points. -/
structure St (F : FTy → Type) [FloatOps F] where
  M : Vec F S8x256 .f32
  S1 : Vec F S8x1 .f32
  S2 : Vec F S8x1 .f32

/-- The three input blocks a grid point is handed. -/
structure Blk (F : FTy → Type) [FloatOps F] where
  x0 : Vec F S8x3x256 .f32
  x1 : Vec F S8x3x512 .f32
  x2 : Vec F S8x3x256 .f32

/-- The minima after the point: restarted at `mi = 0`, then the tile's squared distances taken in. -/
def stepM (n : ℕ) (x : Blk F) (s : St F) : Vec F S8x256 .f32 :=
  k0_pay1 (k0_pay10 x.x0 x.x1) (if n % 4 = 0 then k0_pay8 else s.M)

/-- The first sums after the point: restarted at `ni = mi = 0`, the tile's nearest-point distances added at `mi = 3`. -/
def stepS1 (n : ℕ) (x : Blk F) (s : St F) : Vec F S8x1 .f32 :=
  if n % 4 = 3 then k0_pay2 (stepM n x s) (if n % 32 = 0 then k0_pay6 else s.S1)
  else (if n % 32 = 0 then k0_pay6 else s.S1)

/-- The second sums after the point: restarted at `ni = mi = 0`, the tile's same-index distances added at `mi = 3`. -/
def stepS2 (n : ℕ) (x : Blk F) (s : St F) : Vec F S8x1 .f32 :=
  if n % 4 = 3 then k0_pay3 (k0_pay9 x.x0) x.x2 (if n % 32 = 0 then k0_pay7 else s.S2)
  else (if n % 32 = 0 then k0_pay7 else s.S2)

/-- One grid point on the carried state. -/
def step (n : ℕ) (x : Blk F) (s : St F) : St F := ⟨stepM n x s, stepS1 n x s, stepS2 n x s⟩

/-- The state after point `n`, the points' blocks given as a function of the point; before the first point the
    scratch arrays hold `s₀` (anything: the first point restarts all three before reading them). -/
def runTo (blocks : ℕ → Blk F) (s₀ : St F) : ℕ → St F
  | 0 => step 0 (blocks 0) s₀
  | n + 1 => step (n + 1) (blocks (n + 1)) (runTo blocks s₀ n)

/-- What the two output blocks hold once stored (at the last point of a batch half). -/
def out3 (s : St F) : Vec F S8x1 .f32 := k0_pay4 s.S1
def out4 (s : St F) : Vec F S8x1 .f32 := k0_pay5 s.S2

end Cert.Kernel.Chamfer

end
-- ==== Proof.BodyK.lean ====
/-
  The kernel body run at one grid point, case by case of its four branch conditions.

  On whole staging and scratch buffers held at given contents — the three input blocks `x0 x1 x2`, the two output
  buffers `o3 o4`, the three scratch arrays `sM s1 s2` — the body runs to the end, faulting nowhere, and leaves the
  inputs as they were and each other buffer at the value its last store wrote (or untouched). The five cases the
  grid meets:
  * A, `ni = 0, mi = 0`: both sums restart at zero, the minima restart at `+∞` and take in the tile;
  * B, `ni > 0, mi = 0`: the minima restart and take in the tile, the sums stay;
  * C, `mi = 1, 2`: the minima take in the tile;
  * D, `mi = 3, ni < 7`: the minima take in the tile, then both sums take in their distances;
  * E, `ni = 7, mi = 3`: as D, then both output blocks are stored.
  The values are the body's own payload terms, so nothing the body computes is transcribed; the statements hold at
  any float instance.
-/
import proofs.«102313_j17695265260053_2_alg».proof.Proof.Gen.Kernel.Launch
import proofs.«102313_j17695265260053_2_alg».proof.Proof.Gen.Kernel.Skeleton
import proofs.«102313_j17695265260053_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Whole-buffer stores and loads read back

Every store of the body writes a whole buffer through the rectangle at zero offsets of the buffer's own sizes, and
every load reads one whole. So the contents after any list of stores whose LAST is such a store are that store's
value, and a load after it reads that value. -/

theorem hz2 : (![0, 0] : Fin 2 → ℕ) = fun _ => 0 := by funext a; fin_cases a <;> rfl
theorem hz3 : (![0, 0, 0] : Fin 3 → ℕ) = fun _ => 0 := by funext a; fin_cases a <;> rfl

section Whole

variable {Val : EltTy → Type} [∀ e, Nonempty (Val e)] {S : Shape} {e : EltTy} {sig' : RefSig} {κ : Kind} {sp : Space}

theorem read_writes_cons_unit (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

theorem readCov_cons_unit (v : View sig' κ sp S e) {off : Fin S.rank → ℕ} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

end Whole

/-- The body's four branch conditions, from the grid coordinates (the skeleton's scalar chains substituted):
    `ni = 0 ∧ mi = 0`, `mi = 0`, `mi = 3`, `ni = 7 ∧ mi = 3`. -/
abbrev cond1 (i : grid0.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
abbrev cond2 (i : grid0.Coords) : Prop := (Scalar.cmpi .ne (Scalar.extui (Scalar.cmpi .eq (BitVec.ofNat 32 (i 2).val) 0#32)) 0#32) = 1#1
abbrev cond3 (i : grid0.Coords) : Prop := (Scalar.cmpi .ne (Scalar.extui (Scalar.cmpi .eq (BitVec.ofNat 32 (i 2).val) 3#32)) 0#32) = 1#1
abbrev cond4 (i : grid0.Coords) : Prop := k0_cond4 i = 1#1

set_option hygiene false in
/-- What a buffer reads after the run: a buffer never stored into reads what it held; one stored into reads its last
    store's value, every load inside that value read the same way. -/
local macro "pure_close" : tactic => `(tactic| (
  first
  | exact Memref.IsWhole.read_unread _ _
  | (sl_unfold_run_names
     simp only [read_writes_cons_unit (S := S8x256) _ _ hz2, readCov_cons_unit (S := S8x256) _ hz2, View.ld_unit_zero (S := S8x256) hz2,
       read_writes_cons_unit (S := S8x1) _ _ hz2, readCov_cons_unit (S := S8x1) _ hz2, View.ld_unit_zero (S := S8x1) hz2,
       read_writes_cons_unit (S := S8x3x256) _ _ hz3, readCov_cons_unit (S := S8x3x256) _ hz3, View.ld_unit_zero (S := S8x3x256) hz3,
       read_writes_cons_unit (S := S8x3x512) _ _ hz3, readCov_cons_unit (S := S8x3x512) _ hz3, View.ld_unit_zero (S := S8x3x512) hz3,
       View.readAt_eq_ld, Memref.IsWhole.read_unread])))

set_option maxHeartbeats 4000000 in
/-- The first point of a batch half (`ni = 0, mi = 0`): both sums restart at zero, the minima restart at `+∞` and take in the tile. -/
theorem runA (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : cond1 i) (hc2 : cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) k0_pay8) ∗ owns (c : Thread nD τ) arg9 fullShare (k0_pay6) ∗ owns (c : Thread nD τ) arg10 fullShare (k0_pay7)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The first `mi` of a later `ni` tile: the minima restart and take in the tile; the sums stay. -/
theorem runB (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) k0_pay8) ∗ owns (c : Thread nD τ) arg9 fullShare (s1) ∗ owns (c : Thread nD τ) arg10 fullShare (s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- A middle `mi`: the minima take in the tile; the sums stay. -/
theorem runC (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : ¬cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) sM) ∗ owns (c : Thread nD τ) arg9 fullShare (s1) ∗ owns (c : Thread nD τ) arg10 fullShare (s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The last `mi` of an `ni` tile but the last: the minima take in the tile, then both sums take in their distances. -/
theorem runD (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : cond3 i) (hc4 : ¬cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (o3) ∗ owns (c : Thread nD τ) arg7 fullShare (o4)
             ∗ owns (c : Thread nD τ) arg8 fullShare (k0_pay1 (k0_pay10 x0 x1) sM) ∗ owns (c : Thread nD τ) arg9 fullShare (k0_pay2 (k0_pay1 (k0_pay10 x0 x1) sM) s1) ∗ owns (c : Thread nD τ) arg10 fullShare (k0_pay3 (k0_pay9 x0) x2 s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

set_option maxHeartbeats 4000000 in
/-- The last point of a batch half (`ni = 7, mi = 3`): as the case before, then both output blocks are stored: the sums times `1/2048`. -/
theorem runE (c : Dev nD) (i : grid0.Coords) (arg3 : Memref sig .tc .vmem S8x3x256 .f32) (harg3 : arg3.IsWhole) (arg4 : Memref sig .tc .vmem S8x3x512 .f32) (harg4 : arg4.IsWhole) (arg5 : Memref sig .tc .vmem S8x3x256 .f32) (harg5 : arg5.IsWhole) (arg6 : Memref sig .tc .vmem S8x1 .f32) (harg6 : arg6.IsWhole) (arg7 : Memref sig .tc .vmem S8x1 .f32) (harg7 : arg7.IsWhole) (arg8 : Memref sig .tc .vmem S8x256 .f32) (harg8 : arg8.IsWhole) (arg9 : Memref sig .tc .vmem S8x1 .f32) (harg9 : arg9.IsWhole) (arg10 : Memref sig .tc .vmem S8x1 .f32) (harg10 : arg10.IsWhole)
    (hc1 : ¬cond1 i) (hc2 : ¬cond2 i) (hc3 : cond3 i) (hc4 : cond4 i)
    (x0 : Vec F S8x3x256 .f32) (x1 : Vec F S8x3x512 .f32) (x2 : Vec F S8x3x256 .f32) (o3 o4 : Vec F S8x1 .f32)
    (sM : Vec F S8x256 .f32) (s1 s2 : Vec F S8x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare o3 ∗ owns (c : Thread nD τ) arg7 fullShare o4
        ∗ owns (c : Thread nD τ) arg8 fullShare sM ∗ owns (c : Thread nD τ) arg9 fullShare s1 ∗ owns (c : Thread nD τ) arg10 fullShare s2
        ∗ (iprop(owns (c : Thread nD τ) arg3 fullShare x0 ∗ owns (c : Thread nD τ) arg4 fullShare x1 ∗ owns (c : Thread nD τ) arg5 fullShare x2
             ∗ owns (c : Thread nD τ) arg6 fullShare (k0_pay4 (k0_pay2 (k0_pay1 (k0_pay10 x0 x1) sM) s1)) ∗ owns (c : Thread nD τ) arg7 fullShare (k0_pay5 (k0_pay3 (k0_pay9 x0) x2 s2))
             ∗ owns (c : Thread nD τ) arg8 fullShare (k0_pay1 (k0_pay10 x0 x1) sM) ∗ owns (c : Thread nD τ) arg9 fullShare (k0_pay2 (k0_pay1 (k0_pay10 x0 x1) sM) s1) ∗ owns (c : Thread nD τ) arg10 fullShare (k0_pay3 (k0_pay9 x0) x2 s2)) -∗ K ⟨⟩))
      ⊢ wp frame (wpE (defs₀ (F := F)) Variants.none c none) E (cc0__chamfer_kernel i arg3 harg3 arg4 harg4 arg5 harg5 arg6 harg6 arg7 harg7 arg8 harg8 arg9 harg9 arg10 harg10) K := by
  simp only [cc0__chamfer_kernel_eq_skeleton]; unfold cc0__chamfer_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg3.eq_unread hf3; obtain rfl := harg4.eq_unread hf4; obtain rfl := harg5.eq_unread hf5
  obtain rfl := harg6.eq_unread hf6; obtain rfl := harg7.eq_unread hf7
  obtain rfl := harg8.eq_unread hf8; obtain rfl := harg9.eq_unread hf9; obtain rfl := harg10.eq_unread hf10
  sl_exec (disch := first | exact hc1 | exact hc2 | exact hc3 | exact hc4)
  sl_step
  iapply Hk
  isplitl [H3]
  · iexists _; isplitr
    swap; · iexact H3
    ipureintro; pure_close
  isplitl [H4]
  · iexists _; isplitr
    swap; · iexact H4
    ipureintro; pure_close
  isplitl [H5]
  · iexists _; isplitr
    swap; · iexact H5
    ipureintro; pure_close
  isplitl [H6]
  · iexists _; isplitr
    swap; · iexact H6
    ipureintro; pure_close
  isplitl [H7]
  · iexists _; isplitr
    swap; · iexact H7
    ipureintro; pure_close
  isplitl [H8]
  · iexists _; isplitr
    swap; · iexact H8
    ipureintro; pure_close
  isplitl [H9]
  · iexists _; isplitr
    swap; · iexact H9
    ipureintro; pure_close
  · iexists _; isplitr
    swap; · iexact H10
    ipureintro; pure_close

end Cert.Kernel.Chamfer
end
-- ==== Proof.DataK.lean ====
/-
  The pipeline's proof data and the body obligation.

  The state after grid point `n` is the pure transition of State.lean folded over the points' blocks, the blocks read
  off the arrays as the region finds them. The proof data say: after the body at a point each input's staging buffer
  holds its block and each output's holds the sums so far times `1/2048` (only consulted at the last point of a batch
  half, where the body stores them and the pipeline writes them back); the invariant before a point that is not the
  first holds the three scratch arrays at the state the point before left. The second cloud's array is read through
  two windows, so each holds half of it. The body obligation is the five cases of Body.lean, chosen by the point's
  residues modulo 4 and 32.
-/
import proofs.«102313_j17695265260053_2_alg».proof.Proof.Gen.Kernel.Launch
import proofs.«102313_j17695265260053_2_alg».proof.Proof.StateK
import proofs.«102313_j17695265260053_2_alg».proof.Proof.BodyK
import proofs.«102313_j17695265260053_2_alg».proof.Proof.Gen.Kernel.Skeleton
import proofs.«102313_j17695265260053_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The conditions over the grid, in closed form -/

theorem hcond1 : ∀ t : Fin cfg0.N, cond1 (grid0.coords t) ↔ t.val % 32 = 0 :=
  (by decide +kernel : ∀ t : Fin grid0.N, cond1 (grid0.coords t) ↔ t.val % 32 = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ t.val % 4 = 3 :=
  (by decide +kernel : ∀ t : Fin grid0.N, cond3 (grid0.coords t) ↔ t.val % 4 = 3)
theorem hcond4 : ∀ t : Fin cfg0.N, cond4 (grid0.coords t) ↔ t.val % 32 = 31 :=
  (by decide +kernel : ∀ t : Fin grid0.N, cond4 (grid0.coords t) ↔ t.val % 32 = 31)

/-- The output windows are idle, and not written back, wherever the last condition fails; live where it holds. -/
theorem idle3 : ∀ t : Fin cfg0.N, ¬cond4 (grid0.coords t) → cfg0.idle 3 (grid0.coords t) = true := by decide +kernel
theorem idle4 : ∀ t : Fin cfg0.N, ¬cond4 (grid0.coords t) → cfg0.idle 4 (grid0.coords t) = true := by decide +kernel
theorem noflush3 : ∀ t : Fin cfg0.N, ¬cond4 (grid0.coords t) → (cfg0.win 3).flush t = false := by decide +kernel
theorem noflush4 : ∀ t : Fin cfg0.N, ¬cond4 (grid0.coords t) → (cfg0.win 4).flush t = false := by decide +kernel
theorem live3 : ∀ t : Fin cfg0.N, cond4 (grid0.coords t) → cfg0.idle 3 (grid0.coords t) = false := by decide +kernel
theorem live4 : ∀ t : Fin cfg0.N, cond4 (grid0.coords t) → cfg0.idle 4 (grid0.coords t) = false := by decide +kernel

/-! ## One point of the transition, case by case -/

theorem step_A (n : ℕ) (h : n % 32 = 0) (x : Blk F) (s : St F) :
    step n x s = ⟨k0_pay1 (k0_pay10 x.x0 x.x1) k0_pay8, k0_pay6, k0_pay7⟩ := by
  have h4 : n % 4 = 0 := by omega
  have h3 : ¬ n % 4 = 3 := by omega
  simp only [step, stepM, stepS1, stepS2, if_pos h, if_pos h4, if_neg h3]
theorem step_B (n : ℕ) (h : ¬ n % 32 = 0) (h4 : n % 4 = 0) (x : Blk F) (s : St F) :
    step n x s = ⟨k0_pay1 (k0_pay10 x.x0 x.x1) k0_pay8, s.S1, s.S2⟩ := by
  have h3 : ¬ n % 4 = 3 := by omega
  simp only [step, stepM, stepS1, stepS2, if_neg h, if_pos h4, if_neg h3]
theorem step_C (n : ℕ) (h4 : ¬ n % 4 = 0) (h3 : ¬ n % 4 = 3) (x : Blk F) (s : St F) :
    step n x s = ⟨k0_pay1 (k0_pay10 x.x0 x.x1) s.M, s.S1, s.S2⟩ := by
  have h : ¬ n % 32 = 0 := by omega
  simp only [step, stepM, stepS1, stepS2, if_neg h, if_neg h4, if_neg h3]
theorem step_D (n : ℕ) (h3 : n % 4 = 3) (x : Blk F) (s : St F) :
    step n x s = ⟨k0_pay1 (k0_pay10 x.x0 x.x1) s.M, k0_pay2 (k0_pay1 (k0_pay10 x.x0 x.x1) s.M) s.S1,
      k0_pay3 (k0_pay9 x.x0) x.x2 s.S2⟩ := by
  have h : ¬ n % 32 = 0 := by omega
  have h4 : ¬ n % 4 = 0 := by omega
  simp only [step, stepM, stepS1, stepS2, if_neg h, if_neg h4, if_pos h3]

section Region

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Blocks past the grid (never consulted): zeros. -/
def blkZero : Blk F :=
  ⟨fun _ => Scalar.ofBits .f32 0x00000000#32, fun _ => Scalar.ofBits .f32 0x00000000#32, fun _ => Scalar.ofBits .f32 0x00000000#32⟩

/-- The three input blocks of point `n` (anything past the grid). -/
def blocksAt (c : Dev nD) (n : ℕ) : Blk F :=
  if h : n < cfg0.N then ⟨iblk V c 0 ⟨n, h⟩, iblk V c 1 ⟨n, h⟩, iblk V c 2 ⟨n, h⟩⟩ else blkZero

/-- Before the first point the scratch arrays hold anything; the first point restarts all three. -/
def s0 : St F := ⟨k0_pay8, k0_pay6, k0_pay7⟩

/-- The scratch arrays after point `n`. -/
def stAt (c : Dev nD) (n : ℕ) : St F := runTo (blocksAt V c) s0 n

theorem stAt_eq (c : Dev nD) (t : Fin cfg0.N) :
    stAt V c t.val = step t.val ⟨iblk V c 0 t, iblk V c 1 t, iblk V c 2 t⟩ (if t.val = 0 then s0 else stAt V c (t.val - 1)) := by
  obtain ⟨n, hn⟩ := t
  cases n with
  | zero => simp only [stAt, runTo, blocksAt, dif_pos hn, if_pos]
  | succ n => simp only [stAt, runTo, blocksAt, dif_pos hn, Nat.add_sub_cancel, Nat.succ_ne_zero, if_false, Nat.add_eq_zero, one_ne_zero, and_false]

/-! ## The proof data -/

/-- The scratch operands: whole scoped buffers of the kernel's own. -/
abbrev scM : Memref sig .tc .vmem S8x256 .f32 := Memref.whole cc0_scratch0
abbrev sc1 : Memref sig .tc .vmem S8x1 .f32 := Memref.whole cc0_scratch1
abbrev sc2 : Memref sig .tc .vmem S8x1 .f32 := Memref.whole cc0_scratch2

/-- The region invariant before position `n`: before the first point the scoped rest at anything and the generator
    register; afterwards the three scratch arrays at the state the point before left. -/
def PhiS (c : Dev nD) : ℕ → sProp 𝕄
  | 0 => Pipeline.ΦA spec0 c
  | n + 1 => iprop(owns (c : Thread nD τ) scM fullShare (stAt V c n).M ∗ owns (c : Thread nD τ) sc1 fullShare (stAt V c n).S1
      ∗ owns (c : Thread nD τ) sc2 fullShare (stAt V c n).S2 ∗ (∃ r, prngReg c r))

theorem PhiS_succ (c : Dev nD) (n : ℕ) :
    PhiS V c (n + 1) = iprop(owns (c : Thread nD τ) scM fullShare (stAt V c n).M ∗ owns (c : Thread nD τ) sc1 fullShare (stAt V c n).S1
      ∗ owns (c : Thread nD τ) sc2 fullShare (stAt V c n).S2 ∗ (∃ r, prngReg c r)) := rfl

theorem PhiS_pos (c : Dev nD) (n : ℕ) (hz : n ≠ 0) :
    PhiS V c n = iprop(owns (c : Thread nD τ) scM fullShare (stAt V c (n - 1)).M ∗ owns (c : Thread nD τ) sc1 fullShare (stAt V c (n - 1)).S1
      ∗ owns (c : Thread nD τ) sc2 fullShare (stAt V c (n - 1)).S2 ∗ (∃ r, prngReg c r)) := by
  cases n with
  | zero => exact absurd rfl hz
  | succ n => rfl

/-- The class invariant with the scratch operands as memrefs owned at some contents. -/
theorem PhiA0_eq (c : Dev nD) :
    (Pipeline.ΦA spec0 c : sProp 𝕄)
      = iprop(iprop((∃ d, owns (c : Thread nD τ) scM fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [scM, sc1, sc2, owns_whole]; try rfl

/-- At any position the invariant holds the three scratch arrays at SOME contents. -/
theorem PhiS_any (c : Dev nD) (n : ℕ) :
    PhiS V c n ⊢ iprop((∃ d, owns (c : Thread nD τ) scM fullShare d) ∗ (∃ d, owns (c : Thread nD τ) sc1 fullShare d) ∗ (∃ d, owns (c : Thread nD τ) sc2 fullShare d) ∗ (∃ r, prngReg c r)) := by
  cases n with
  | zero =>
    rw [show PhiS V c 0 = Pipeline.ΦA spec0 c from rfl, PhiA0_eq]
    iintro ⟨⟨HM, H1, H2⟩, Hg⟩
    isplitl [HM]; · iexact HM
    isplitl [H1]; · iexact H1
    isplitl [H2]; · iexact H2
    iexact Hg
  | succ n =>
    rw [PhiS_succ]
    iintro ⟨HM, H1, H2, Hg⟩
    isplitl [HM]; · iexists _; iexact HM
    isplitl [H1]; · iexists _; iexact H1
    isplitl [H2]; · iexists _; iexact H2
    iexact Hg

/-- The proof data of the one pipeline on core `c`. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (stAt V c t.val)
    | ⟨4, _⟩ => out4 (stAt V c t.val)
  Φ t := PhiS V c t.val
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by dsimp only [dat0]
theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = out3 (stAt V c t.val) := by dsimp only [dat0]
theorem after4 (c : Dev nD) (t : Fin cfg0.N) : (dat0 V c).after 4 t = out4 (stAt V c t.val) := by dsimp only [dat0]

theorem PhiS_castSucc (c : Dev nD) (t : Fin cfg0.N) : (dat0 V c).Φ t.castSucc = PhiS V c t.val := by
  dsimp only [dat0]; simp only [Fin.coe_castSucc]

/-- Each input's current staging buffer holds its block at every point, fetched there or not. -/
theorem before0 (c : Dev nD) (t : Fin cfg0.N) (d) : (dat0 V c).before 0 t d = iblk V c 0 t :=
  ((dat0 V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dat0 V c).before 1 t d = iblk V c 1 t :=
  ((dat0 V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dat0 V c).before 2 t d = iblk V c 2 t :=
  ((dat0 V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4000000 in
/-- The body at any point: the residues of the point say which case it is in; the invariant hands the body the scratch
    arrays at what the point before left (at anything where the case restarts them) and takes them back at this
    point's state; an output buffer is handed back untouched except at the last point of a batch half. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat0 V c).owesAt () t.succ = (dat0 V c).owesAt () t.castSucc from rfl]
  rw [show (dat0 V c).Φ t.succ = PhiS V c (t.val + 1) from rfl, PhiS_succ]
  rw [show (dat0 V c).leavesExact 0 t = owns (c : Thread nD τ) (st0_0 t) fullShare ((dat0 V c).after 0 t) from rfl, after0,
    show (dat0 V c).leavesExact 1 t = owns (c : Thread nD τ) (st0_1 t) fullShare ((dat0 V c).after 1 t) from rfl, after1,
    show (dat0 V c).leavesExact 2 t = owns (c : Thread nD τ) (st0_2 t) fullShare ((dat0 V c).after 2 t) from rfl, after2]
  have hN : t.val < 64 := lt_of_lt_of_eq t.isLt (show cfg0.N = 64 from N_0)
  by_cases h32 : t.val % 32 = 0
  · have hc1 : cond1 (grid0.coords t) := (hcond1 t).mpr h32
    have hc2 : cond2 (grid0.coords t) := (hcond2 t).mpr (by omega)
    have hc3 : ¬cond3 (grid0.coords t) := fun h => absurd ((hcond3 t).mp h) (by omega)
    have hc4 : ¬cond4 (grid0.coords t) := fun h => absurd ((hcond4 t).mp h) (by omega)
    -- case A
    rw [Dat.leavesExact_idle (dat0 V c) 3 t (idle3 t hc4) (noflush3 t hc4), Dat.leavesExact_idle (dat0 V c) 4 t (idle4 t hc4) (noflush4 t hc4)]
    rw [stAt_eq V c t, step_A _ h32]
    dsimp only
    rw [PhiS_castSucc V c t]
    iintro ⟨HΦ, Ho, ⟨%d0, H0⟩, ⟨%d1, H1⟩, ⟨%d2, H2⟩, ⟨%d3, H3⟩, ⟨%d4, H4⟩⟩
    ihave HΦ' := (PhiS_any V c t.val) $$ HΦ
    icases HΦ' with ⟨⟨%XM, HM⟩, ⟨%X1, HS1⟩, ⟨%X2, HS2⟩, Hg⟩
    iapply (runA c (grid0.coords t) _ _ _ _ _ _ _ _ _ _ _ _ _ _ _ _ hc1 hc2 hc3 hc4 (iblk V c 0 t) (iblk V c 1 t) (iblk V c 2 t) _ _ _ _ _ Set.univ _)
    isplitl [H0]; · iexact H0
    isplitl [H1]; · iexact H1
    isplitl [H2]; · iexact H2
    isplitl [H3]; · iexact H3
    isplitl [H4]; · iexact H4
    isplitl [HM]; · iexact HM
    isplitl [HS1]; · iexact HS1
    isplitl [HS2]; · iexact HS2
    iintro ⟨H0, H1, H2, H3, H4, HM, HS1, HS2⟩
    isplitl [HM HS1 HS2 Hg]
    · isplitl [HM]; · iexact HM
      isplitl [HS1]; · iexact HS1
      isplitl [HS2]; · iexact HS2
      iexact Hg
    isplitl [Ho]; · iexact Ho
    isplitl [H0]; · iexact H0
    isplitl [H1]; · iexact H1
    isplitl [H2]; · iexact H2
    isplitl [H3]; · iexists _; iexact H3
    iexists _; iexact H4
  · have hc1 : ¬cond1 (grid0.coords t) := fun h => h32 ((hcond1 t).mp h)
    have hz : t.val ≠ 0 := fun h => h32 (by rw [h])
    by_cases h4 : t.val % 4 = 0
    · have hc2 : cond2 (grid0.coords t) := (hcond2 t).mpr h4
      have hc3 : ¬cond3 (grid0.coords t) := fun h => absurd ((hcond3 t).mp h) (by omega)
      have hc4 : ¬cond4 (grid0.coords t) := fun h => absurd ((hcond4 t).mp h) (by omega)
      -- case B
      rw [Dat.leavesExact_idle (dat0 V c) 3 t (idle3 t hc4) (noflush3 t hc4), Dat.leavesExact_idle (dat0 V c) 4 t (idle4 t hc4) (noflush4 t hc4)]
      rw [stAt_eq V c t, if_neg hz, step_B _ h32 h4]
      dsimp only
      rw [PhiS_castSucc V c t, PhiS_pos V c _ hz]
      iintro ⟨⟨HM, HS1, HS2, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ hc1 hc2 hc3 hc4 (iblk V c 0 t) (iblk V c 1 t) (iblk V c 2 t) _ _ _ _ _ Set.univ _)
      isplitl [H0]; · iexact H0
      isplitl [H1]; · iexact H1
      isplitl [H2]; · iexact H2
      isplitl [H3]; · iexact H3
      isplitl [H4]; · iexact H4
      isplitl [HM]; · iexact HM
      isplitl [HS1]; · iexact HS1
      isplitl [HS2]; · iexact HS2
      iintro ⟨H0, H1, H2, H3, H4, HM, HS1, HS2⟩
      isplitl [HM HS1 HS2 Hg]
      · isplitl [HM]; · iexact HM
        isplitl [HS1]; · iexact HS1
        isplitl [HS2]; · iexact HS2
        iexact Hg
      isplitl [Ho]; · iexact Ho
      isplitl [H0]; · iexact H0
      isplitl [H1]; · iexact H1
      isplitl [H2]; · iexact H2
      isplitl [H3]; · iexists _; iexact H3
      iexists _; iexact H4
    · have hc2 : ¬cond2 (grid0.coords t) := fun h => h4 ((hcond2 t).mp h)
      by_cases h3 : t.val % 4 = 3
      · have hc3 : cond3 (grid0.coords t) := (hcond3 t).mpr h3
        by_cases h31 : t.val % 32 = 31
        · have hc4 : cond4 (grid0.coords t) := (hcond4 t).mpr h31
          -- case E
          rw [show (dat0 V c).leavesExact 3 t = owns (c : Thread nD τ) (st0_3 t) fullShare ((dat0 V c).after 3 t) from by
            unfold Dat.leavesExact; rw [live3 t hc4], after3,
            show (dat0 V c).leavesExact 4 t = owns (c : Thread nD τ) (st0_4 t) fullShare ((dat0 V c).after 4 t) from by
            unfold Dat.leavesExact; rw [live4 t hc4], after4]
          rw [stAt_eq V c t, if_neg hz, step_D _ h3]
          dsimp only
          rw [PhiS_castSucc V c t, PhiS_pos V c _ hz]
          iintro ⟨⟨HM, HS1, HS2, Hg⟩, Ho, ⟨%d0, H0⟩, ⟨%d1, H1⟩, ⟨%d2, H2⟩, ⟨%d3, H3⟩, ⟨%d4, H4⟩⟩
          iapply (runE c (grid0.coords t) _ _ _ _ _ _ _ _ _ _ _ _ _ _ _ _ hc1 hc2 hc3 hc4 (iblk V c 0 t) (iblk V c 1 t) (iblk V c 2 t) _ _ _ _ _ Set.univ _)
          isplitl [H0]; · iexact H0
          isplitl [H1]; · iexact H1
          isplitl [H2]; · iexact H2
          isplitl [H3]; · iexact H3
          isplitl [H4]; · iexact H4
          isplitl [HM]; · iexact HM
          isplitl [HS1]; · iexact HS1
          isplitl [HS2]; · iexact HS2
          iintro ⟨H0, H1, H2, H3, H4, HM, HS1, HS2⟩
          isplitl [HM HS1 HS2 Hg]
          · isplitl [HM]; · iexact HM
            isplitl [HS1]; · iexact HS1
            isplitl [HS2]; · iexact HS2
            iexact Hg
          isplitl [Ho]; · iexact Ho
          isplitl [H0]; · iexact H0
          isplitl [H1]; · iexact H1
          isplitl [H2]; · iexact H2
          isplitl [H3]; · iexact H3
          iexact H4
        · have hc4 : ¬cond4 (grid0.coords t) := fun h => h31 ((hcond4 t).mp h)
          -- case D
          rw [Dat.leavesExact_idle (dat0 V c) 3 t (idle3 t hc4) (noflush3 t hc4), Dat.leavesExact_idle (dat0 V c) 4 t (idle4 t hc4) (noflush4 t hc4)]
          rw [stAt_eq V c t, if_neg hz, step_D _ h3]
          dsimp only
          rw [PhiS_castSucc V c t, PhiS_pos V c _ hz]
          iintro ⟨⟨HM, HS1, HS2, Hg⟩, Ho, ⟨%d0, H0⟩, ⟨%d1, H1⟩, ⟨%d2, H2⟩, ⟨%d3, H3⟩, ⟨%d4, H4⟩⟩
          iapply (runD c (grid0.coords t) _ _ _ _ _ _ _ _ _ _ _ _ _ _ _ _ hc1 hc2 hc3 hc4 (iblk V c 0 t) (iblk V c 1 t) (iblk V c 2 t) _ _ _ _ _ Set.univ _)
          isplitl [H0]; · iexact H0
          isplitl [H1]; · iexact H1
          isplitl [H2]; · iexact H2
          isplitl [H3]; · iexact H3
          isplitl [H4]; · iexact H4
          isplitl [HM]; · iexact HM
          isplitl [HS1]; · iexact HS1
          isplitl [HS2]; · iexact HS2
          iintro ⟨H0, H1, H2, H3, H4, HM, HS1, HS2⟩
          isplitl [HM HS1 HS2 Hg]
          · isplitl [HM]; · iexact HM
            isplitl [HS1]; · iexact HS1
            isplitl [HS2]; · iexact HS2
            iexact Hg
          isplitl [Ho]; · iexact Ho
          isplitl [H0]; · iexact H0
          isplitl [H1]; · iexact H1
          isplitl [H2]; · iexact H2
          isplitl [H3]; · iexists _; iexact H3
          iexists _; iexact H4
      · have hc3 : ¬cond3 (grid0.coords t) := fun h => h3 ((hcond3 t).mp h)
        have hc4 : ¬cond4 (grid0.coords t) := fun h => absurd ((hcond4 t).mp h) (by omega)
        -- case C
        rw [Dat.leavesExact_idle (dat0 V c) 3 t (idle3 t hc4) (noflush3 t hc4), Dat.leavesExact_idle (dat0 V c) 4 t (idle4 t hc4) (noflush4 t hc4)]
        rw [stAt_eq V c t, if_neg hz, step_C _ h4 h3]
        dsimp only
        rw [PhiS_castSucc V c t, PhiS_pos V c _ hz]
        iintro ⟨⟨HM, HS1, HS2, Hg⟩, Ho, ⟨%d0, H0⟩, ⟨%d1, H1⟩, ⟨%d2, H2⟩, ⟨%d3, H3⟩, ⟨%d4, H4⟩⟩
        iapply (runC c (grid0.coords t) _ _ _ _ _ _ _ _ _ _ _ _ _ _ _ _ hc1 hc2 hc3 hc4 (iblk V c 0 t) (iblk V c 1 t) (iblk V c 2 t) _ _ _ _ _ Set.univ _)
        isplitl [H0]; · iexact H0
        isplitl [H1]; · iexact H1
        isplitl [H2]; · iexact H2
        isplitl [H3]; · iexact H3
        isplitl [H4]; · iexact H4
        isplitl [HM]; · iexact HM
        isplitl [HS1]; · iexact HS1
        isplitl [HS2]; · iexact HS2
        iintro ⟨H0, H1, H2, H3, H4, HM, HS1, HS2⟩
        isplitl [HM HS1 HS2 Hg]
        · isplitl [HM]; · iexact HM
          isplitl [HS1]; · iexact HS1
          isplitl [HS2]; · iexact HS2
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

end Region

end Cert.Kernel.Chamfer
end
-- ==== Proof.SplitK.lean ====
/-
  The windows' arrays at the region's two ends, for a kernel whose second and third windows read ONE array.

  At entry the core holds every unscoped buffer whole. The four buffers behind the five windows are dealt to the
  pipeline: the first cloud's and the two results' whole, the second cloud's in two halves, one to each of the windows
  that read it. At exit the halves are joined again (an input array is never written, so both windows end holding what
  they were given) and the two result arrays carry what the pipeline wrote back.
-/
import proofs.«102313_j17695265260053_2_alg».proof.Proof.Gen.Kernel.Launch
import proofs.«102313_j17695265260053_2_alg».proof.Proof.StateK
import proofs.«102313_j17695265260053_2_alg».proof.Proof.BodyK
import proofs.«102313_j17695265260053_2_alg».proof.Proof.DataK
import proofs.«102313_j17695265260053_2_alg».proof.Proof.Gen.Kernel.Skeleton
import proofs.«102313_j17695265260053_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (arrBufs unscopedRest arrRef)

section Region

variable (V : (c : Dev nD) → (b : Ref sig .tc) → Buf (Elt F) ((c : Thread nD τ).loc b))

/-- The buffers behind the five windows: four. -/
theorem imgArr : Finset.univ.image (arrRef spec0) = ([main_v0, main_v1, main_v2_0, main_v2_1] : List (Ref sig .tc)).toFinset := by decide

theorem arrBufs_eq (c : Dev nD) (V' : (b : Ref sig .tc) → Buf (Elt F) ((c : Thread nD τ).loc b)) :
    (arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1)
          ∗ (((c : Thread nD τ).loc main_v2_0) ↦{fullShare} V' main_v2_0) ∗ (((c : Thread nD τ).loc main_v2_1) ↦{fullShare} V' main_v2_1)) := by
  unfold arrBufs; exact bigSep_eq_bigSepL_of_eq _ imgArr (by decide) _

/-- The pipeline's arrays one by one: the second cloud's array held in halves by its two windows. -/
theorem arrays_eq5 (c : Dev nD) (Fn : (w : Fin cfg0.W) → Buf (Elt F) ((cfg0.win w).arr.view.loc (c : Thread nD τ))) :
    (dat0 V c).arrays Fn
      = iprop((((c : Thread nD τ).loc main_v0) ↦{fullShare} Fn 0) ∗ (((c : Thread nD τ).loc main_v1) ↦{fullShare.left} Fn 1)
          ∗ (((c : Thread nD τ).loc main_v1) ↦{fullShare.right} Fn 2)
          ∗ (((c : Thread nD τ).loc main_v2_0) ↦{fullShare} Fn 3) ∗ (((c : Thread nD τ).loc main_v2_1) ↦{fullShare} Fn 4)) := by
  unfold Dat.arrays; rw [bigSep_W0]
  rw [(arr_whole0 0).set_eq_univ, (arr_whole0 1).set_eq_univ, (arr_whole0 3).set_eq_univ, (arr_whole0 4).set_eq_univ]
  rfl

/-- ENTRY: the core's unscoped buffers at `V` are the pipeline's arrays at their entry contents and the rest. -/
theorem arrays_entry (c : Dev nD) :
    (unscopedBufs c (V c) : sProp 𝕄) ⊢ iprop((dat0 V c).arrays ((dat0 V c).arrAt · 0) ∗ unscopedRest spec0 c (V c)) := by
  rw [Pipeline.unscopedBufs_split₀ cfgs 0 winFacts₀0.arr_unscoped c (V c), arrBufs_eq, arrays_eq5]
  iintro ⟨⟨Ha, Hb, Hc, Hd⟩, Hr⟩
  ihave Hbb := (pointsTo_share (PosShare.mem_left_op_right fullShare)).1 $$ Hb
  icases Hbb with ⟨Hbl, Hbr⟩
  isplitr [Hr]
  · isplitl [Ha]; · iexact Ha
    isplitl [Hbl]; · iexact Hbl
    isplitl [Hbr]; · iexact Hbr
    isplitl [Hc]; · iexact Hc
    iexact Hd
  · iexact Hr

/-- EXIT: the arrays at their final contents and the rest at `V` are the core's unscoped buffers at any contents `V'`
    that has the two result arrays at what the pipeline wrote back and agrees with `V` elsewhere. -/
theorem arrays_exit (c : Dev nD) (V' : (b : Ref sig .tc) → Buf (Elt F) ((c : Thread nD τ).loc b))
    (h3 : V' main_v2_0 = (dat0 V c).arrAt 3 cfg0.N) (h4 : V' main_v2_1 = (dat0 V c).arrAt 4 cfg0.N)
    (hrest : ∀ b : Ref sig .tc, b ≠ main_v2_0 → b ≠ main_v2_1 → V' b = V c b) :
    iprop((dat0 V c).arrays ((dat0 V c).arrAt · cfg0.N) ∗ unscopedRest spec0 c (V c)) ⊢ (unscopedBufs c V' : sProp 𝕄) := by
  rw [Pipeline.unscopedBufs_split₀ cfgs 0 winFacts₀0.arr_unscoped c V', arrBufs_eq, arrays_eq5]
  rw [(dat0 V c).arrAt_in 0 rfl cfg0.N, (dat0 V c).arrAt_in 1 rfl cfg0.N, (dat0 V c).arrAt_in 2 rfl cfg0.N]
  rw [hrest main_v0 (by decide) (by decide), hrest main_v1 (by decide) (by decide), h3, h4]
  rw [show unscopedRest (Ix := Unit) (Name := ℕ) (U := UR sig nD τ) (Lvl := ℕ) spec0 c V' = unscopedRest spec0 c (V c) from by
    unfold unscopedRest
    exact bigSep_congr fun b hb => by
      have hb' := (Finset.mem_sdiff.mp hb).2
      rw [hrest b (fun e => hb' (e ▸ Finset.mem_image.mpr ⟨3, Finset.mem_univ _, rfl⟩)) (fun e => hb' (e ▸ Finset.mem_image.mpr ⟨4, Finset.mem_univ _, rfl⟩))]]
  iintro ⟨⟨Ha, Hbl, Hbr, Hc, Hd⟩, Hr⟩
  ihave Hb := (pointsTo_share (f := V c main_v1) (PosShare.mem_left_op_right fullShare)).2 $$ [Hbl Hbr]
  · isplitl [Hbl]; · iexact Hbl
    iexact Hbr
  isplitr [Hr]
  · isplitl [Ha]; · iexact Ha
    isplitl [Hb]; · iexact Hb
    isplitl [Hc]; · iexact Hc
    iexact Hd
  · iexact Hr

end Region

end Cert.Kernel.Chamfer
end
-- ==== Proof.RunK.lean ====
/-
  The run of @main: the two transposes, the kernel region, the blend of the two results.

  Between the three items the core holds every unscoped buffer whole at a known valuation: the launch contents, then
  those after the transposes (`W1`), then — the region having written back its two result arrays — `W1` updated at
  those two arrays with what the pipeline leaves (`W2`), then those after the last host operations (`W3`). Every weakly
  fair execution terminates, faulting nowhere, in a state whose unscoped buffers hold `W3`.
-/
import proofs.«102313_j17695265260053_2_alg».proof.Proof.Gen.Kernel.Launch
import proofs.«102313_j17695265260053_2_alg».proof.Proof.StateK
import proofs.«102313_j17695265260053_2_alg».proof.Proof.BodyK
import proofs.«102313_j17695265260053_2_alg».proof.Proof.DataK
import proofs.«102313_j17695265260053_2_alg».proof.Proof.SplitK
import proofs.«102313_j17695265260053_2_alg».proof.Proof.Gen.Kernel.Skeleton
import proofs.«102313_j17695265260053_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Chamfer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (arrBufs unscopedRest arrRef)

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the transposes (the region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the region's exit: the two result arrays at what the pipeline wrote back, every other buffer as entered. -/
def W2 (c : Dev nD) : Valuation τ sig (Elt F) :=
  Function.update (Function.update (W1 m c) (Proc.devRef .tc main_v2_0) ((dat0 (V1 m) c).arrAt 3 cfg0.N))
    (Proc.devRef .tc main_v2_1) ((dat0 (V1 m) c).arrAt 4 cfg0.N)
abbrev V2 : (c : Dev nD) → (b : Ref sig .tc) → Buf (Elt F) ((c : Thread nD τ).loc b) := fun c b => W2 m c b
/-- After the last host operations (the return). -/
abbrev W3 : Dev nD → Valuation τ sig (Elt F) := fun c => StableHlo.after hostOps1 (W2 m c)

theorem W2_v2_0 (c : Dev nD) : V2 m c main_v2_0 = (dat0 (V1 m) c).arrAt 3 cfg0.N := by
  show W2 m c (Proc.devRef .tc main_v2_0) = _
  unfold W2
  rw [Function.update_of_ne (StableHlo.devRef_ne_of_ne (by decide)), Function.update_self]
theorem W2_v2_1 (c : Dev nD) : V2 m c main_v2_1 = (dat0 (V1 m) c).arrAt 4 cfg0.N := by
  show W2 m c (Proc.devRef .tc main_v2_1) = _
  unfold W2
  rw [Function.update_self]
theorem W2_of_ne (c : Dev nD) (b : Ref sig .tc) (h0 : b ≠ main_v2_0) (h1 : b ≠ main_v2_1) : V2 m c b = V1 m c b := by
  show W2 m c (Proc.devRef .tc b) = W1 m c (Proc.devRef .tc b)
  unfold W2
  rw [Function.update_of_ne (StableHlo.devRef_ne_of_ne h1), Function.update_of_ne (StableHlo.devRef_ne_of_ne h0)]

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- The invariant after the last point gives the class invariant back: the scratch arrays' contents are forgotten. -/
theorem Phi_last (c : Dev nD) : (dat0 (V1 m) c).Φ (Fin.last cfg0.N) ⊢ Pipeline.ΦA spec0 c := by
  rw [show (dat0 (V1 m) c).Φ (Fin.last cfg0.N) = PhiS (V1 m) c cfg0.N from rfl,
    PhiS_pos (V1 m) c _ (by rw [show cfg0.N = 64 from N_0]; decide), PhiA0_eq]
  iintro ⟨HM, H1, H2, Hg⟩
  isplitr [Hg]
  · isplitl [HM]; · iexists _; iexact HM
    isplitl [H1]; · iexists _; iexact H1
    iexists _; iexact H2
  · iexact Hg

/-! ## The region as a segment -/

set_option backward.isDefEq.respectTransparency.types false in
/-- The kernel region over the thread state: entered from every unscoped buffer at `W1`, left at `W2`. Its arrays are
    split out of the unscoped buffers (the second cloud's in halves) and put back at the exit contents; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := arrays_entry (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_last m c).trans ?_
    unfold Pipeline.ΦA
    iintro ⟨Hr, Hp⟩
    isplitl [Hp]; · iexact Hp
    isplitr; · iempintro
    iexact Hr
  hexit c := by
    have hjoin := arrays_exit (V1 m) c (V2 m c) (W2_v2_0 m c) (W2_v2_1 m c) (W2_of_ne m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has each unscoped buffer at the last boundary's contents `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      (show iprop(StableHlo.held (c : Thread nD τ) (Pipeline.ucRefs τ sig) (W3 m c) ∗ R c) ⊢ iprop(Tₙ m c ∗ ∃ W, owes (c : Thread nD τ) (0 : CellTallies nD τ sig Unit) W) from by
        iintro ⟨Hh, Hp, HO⟩
        isplitr [HO]
        · isplitl [Hh]; · iexact Hh
          iexact Hp
        · iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Chamfer
end
-- ==== Proof.KerGlueEntryK.lean ====
/-
  What the kernel's region finds in memory. Before the region the program transposes each cloud from `[16, 2048, 3]` to
  `[16, 3, 2048]`; so at the region's entry the two transposed arrays hold, at `(b, d, n)`, coordinate `d` of point `n`
  of cloud `b`, and the three arguments hold what they held.
-/
import proofs.«102313_j17695265260053_2_alg».proof.Proof.Gen.Kernel.Launch
import Idealize.ShloMosaic.Lib.Pipeline.Value
import Idealize.ShloMosaic.Lib.StableHlo.Run
import Idealize.ShloMosaic.Lib.ValueIdx

noncomputable section

namespace Cert.Kernel.Chamfer

open Idealize.ShloMosaic Idealize.ShloMosaic.ValueIdx Idealize.ShloMosaic.TcCoe Idealize.SL.Sem Cert.Kernel Cert.Kernel.Gen

variable {F : FTy → Type} [FloatOps F]

/-- The transpose `[16, 2048, 3] → [16, 3, 2048]` read at `(b, d, n)` is the operand at `(b, n, d)`. -/
theorem transpose_apply_021 {α : Type} (A : S16x2048x3.Idx → α) (b : Fin 16) (d : Fin 3) (n : Fin 2048) :
    transpose S16x3x2048 [0, 2, 1] A transposes_S16x2048x3_S16x3x2048_0_2_1 (ix3 b d n) = A (ix3 b n d) := by
  refine transpose_apply _ A _ (ix3 b d n) (ix3 b n d) fun a => ?_
  match a with
  | ⟨0, _⟩ => rfl
  | ⟨1, _⟩ => rfl
  | ⟨2, _⟩ => rfl

/-- At the region's entry the first transposed array is the transpose of the first cloud. -/
theorem entry_v0 (m : (ℓ : Loc nD τ sig) → Buf (Elt F) ℓ) (c : Dev nD) :
    StableHlo.after (hostOps0 (F := F)) (fun b => m (c, b)) (Proc.devRef .tc main_v0)
      = transpose S16x3x2048 [0, 2, 1] (m ((c.tc : Thread nD τ).loc main_arg0)) transposes_S16x2048x3_S16x3x2048_0_2_1 := by
  after_results

/-- At the region's entry the second transposed array is the transpose of the second cloud. -/
theorem entry_v1 (m : (ℓ : Loc nD τ sig) → Buf (Elt F) ℓ) (c : Dev nD) :
    StableHlo.after (hostOps0 (F := F)) (fun b => m (c, b)) (Proc.devRef .tc main_v1)
      = transpose S16x3x2048 [0, 2, 1] (m ((c.tc : Thread nD τ).loc main_arg1)) transposes_S16x2048x3_S16x3x2048_0_2_1 := by
  after_results

/-- The first transposed array at `(b, d, n)` is the first cloud at `(b, n, d)`. -/
theorem entry_v0_apply (m : (ℓ : Loc nD τ sig) → Buf (Elt F) ℓ) (c : Dev nD) (b : Fin 16) (d : Fin 3) (n : Fin 2048) :
    (StableHlo.after (hostOps0 (F := F)) (fun b => m (c, b)) (Proc.devRef .tc main_v0) : Vec F S16x3x2048 .f32) (ix3 b d n)
      = (m ((c.tc : Thread nD τ).loc main_arg0) : Vec F S16x2048x3 .f32) (ix3 b n d) := by
  rw [entry_v0]
  exact transpose_apply_021 _ b d n

/-- The second transposed array at `(b, d, n)` is the second cloud at `(b, n, d)`. -/
theorem entry_v1_apply (m : (ℓ : Loc nD τ sig) → Buf (Elt F) ℓ) (c : Dev nD) (b : Fin 16) (d : Fin 3) (n : Fin 2048) :
    (StableHlo.after (hostOps0 (F := F)) (fun b => m (c, b)) (Proc.devRef .tc main_v1) : Vec F S16x3x2048 .f32) (ix3 b d n)
      = (m ((c.tc : Thread nD τ).loc main_arg1) : Vec F S16x2048x3 .f32) (ix3 b n d) := by
  rw [entry_v1]
  exact transpose_apply_021 _ b d n

/-- The transposes leave the three arguments as they were. -/
theorem entry_arg0 (m : (ℓ : Loc nD τ sig) → Buf (Elt F) ℓ) (c : Dev nD) :
    StableHlo.after (hostOps0 (F := F)) (fun b => m (c, b)) (Proc.devRef .tc main_arg0)
      = m ((c.tc : Thread nD τ).loc main_arg0) := by
  after_results
theorem entry_arg1 (m : (ℓ : Loc nD τ sig) → Buf (Elt F) ℓ) (c : Dev nD) :
    StableHlo.after (hostOps0 (F := F)) (fun b => m (c, b)) (Proc.devRef .tc main_arg1)
      = m ((c.tc : Thread nD τ).loc main_arg1) := by
  after_results
theorem entry_arg2 (m : (ℓ : Loc nD τ sig) → Buf (Elt F) ℓ) (c : Dev nD) :
    StableHlo.after (hostOps0 (F := F)) (fun b => m (c, b)) (Proc.devRef .tc main_arg2)
      = m ((c.tc : Thread nD τ).loc main_arg2) := by
  after_results

end Cert.Kernel.Chamfer

end
-- ==== Proof.KerGlueArgsK.lean ====
/-
  The program's last host operations (the two reshapes, the blend, the sum and the quotient) write none of the three
  arguments: after them each argument holds what it held before, whatever the memory they start from.
-/
import proofs.«102313_j17695265260053_2_alg».proof.Proof.Gen.Kernel.Launch
import Idealize.ShloMosaic.Lib.StableHlo.Run

noncomputable section

namespace Cert.Kernel.Chamfer

open Idealize.ShloMosaic Idealize.ShloMosaic.TcCoe Idealize.SL.Sem Idealize.ShloMosaic.StableHlo Cert.Kernel Cert.Kernel.Gen

variable {F : FTy → Type} [FloatOps F]

/-- The last host operations leave the first cloud as it was. -/
theorem after_arg0 (W : Valuation τ sig (Elt F)) :
    StableHlo.after (hostOps1 (F := F)) W (Proc.devRef .tc main_arg0) = W (Proc.devRef .tc main_arg0) := by
  after_results

/-- The last host operations leave the second cloud as it was. -/
theorem after_arg1 (W : Valuation τ sig (Elt F)) :
    StableHlo.after (hostOps1 (F := F)) W (Proc.devRef .tc main_arg1) = W (Proc.devRef .tc main_arg1) := by
  after_results

/-- The last host operations leave the flags as they were. -/
theorem after_arg2 (W : Valuation τ sig (Elt F)) :
    StableHlo.after (hostOps1 (F := F)) W (Proc.devRef .tc main_arg2) = W (Proc.devRef .tc main_arg2) := by
  after_results

end Cert.Kernel.Chamfer

end
-- ==== Proof.KerFrameK.lean ====
/-
  The program runs and leaves its three arguments as they were. The run ends with every unscoped buffer at the last
  boundary's contents; at an argument those are the contents before the last host operations (which do not write it),
  which are the contents at the region's entry (the region writes back only its two result arrays), which are the launch
  contents (the transposes write only the two transposed arrays).
-/
import proofs.«102313_j17695265260053_2_alg».proof.Proof.RunK
import proofs.«102313_j17695265260053_2_alg».proof.Proof.KerGlueEntryK
import proofs.«102313_j17695265260053_2_alg».proof.Proof.KerGlueArgsK

noncomputable section

namespace Cert.Kernel.Chamfer

open Idealize.ShloMosaic Idealize.ShloMosaic.TcCoe Idealize.SL.Sem Idealize.ShloMosaic.StableHlo Cert.Kernel Cert.Kernel.Gen

variable {F : FTy → Type} [FloatOps F]

variable (m : (ℓ : Loc nD τ sig) → Buf (Elt F) ℓ) (ρ : Dev nD → PrngReg)

/-- At the return the first cloud holds its launch contents. -/
theorem W3_arg0 (c : Dev nD) : W3 m c (Proc.devRef .tc main_arg0) = m ((c.tc : Thread nD τ).loc main_arg0) :=
  (after_arg0 (W2 m c)).trans ((W2_of_ne m c main_arg0 (by decide) (by decide)).trans (entry_arg0 m c))

/-- At the return the second cloud holds its launch contents. -/
theorem W3_arg1 (c : Dev nD) : W3 m c (Proc.devRef .tc main_arg1) = m ((c.tc : Thread nD τ).loc main_arg1) :=
  (after_arg1 (W2 m c)).trans ((W2_of_ne m c main_arg1 (by decide) (by decide)).trans (entry_arg1 m c))

/-- At the return the flags hold their launch contents. -/
theorem W3_arg2 (c : Dev nD) : W3 m c (Proc.devRef .tc main_arg2) = m ((c.tc : Thread nD τ).loc main_arg2) :=
  (after_arg2 (W2 m c)).trans ((W2_of_ne m c main_arg2 (by decide) (by decide)).trans (entry_arg2 m c))

/-- Every weakly fair execution of @main terminates, nothing faulting, with the three arguments unchanged. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_arg0 (by decide))).trans (W3_arg0 m c),
       (h c _ (mem_uc main_arg1 (by decide))).trans (W3_arg1 m c),
       (h c _ (mem_uc main_arg2 (by decide))).trans (W3_arg2 m c)⟩)
    (run_main m ρ)

end Cert.Kernel.Chamfer

end
-- ==== Proof.lean ====
/-
  The five claims of this certificate, assembled.

  Both programs compute, for sixteen pairs of clouds of 2048 points in three-space, the blend
  `mean over the pairs of flag · sym + (1 − flag) · asym`, where `sym` is the mean over the first cloud's points of the
  ε-guarded distance to the NEAREST point of the second cloud and `asym` the mean distance between points of the same
  index (Proof/Spec.lean).

  * The kernel sweeps a grid of 64 points (two halves of the batch × eight tiles of the first cloud × four tiles of
    the second), keeping per row a running minimum of squared distances over the second cloud's tiles and two running
    sums over the first cloud's tiles; the square root is taken after the minimum. Its run — every weakly fair
    execution terminates, faults nowhere, and ends with every buffer at a named contents — is Proof/Run.lean, over
    the body's five control cases (Proof/Body.lean) and the state the scratch arrays carry (Proof/State.lean,
    Proof/Data.lean); the second cloud is read through two windows of one array, each holding half of it
    (Proof/Split.lean). The same run holds of the word-level program (the …K modules), whence its frame.
  * At the extended reals the minimum over four tiles of 512 is the minimum over 2048, the sums over eight tiles of
    256 the sum over 2048, and `√` and `max · ε` are monotone, so the root of the guarded minimum is the minimum of the
    guarded roots (Proof/KerValue*.lean, Proof/KerFinal*.lean, Proof/Law.lean).
  * The reference expands the squared distance as `|p|² + |t|² − 2 p·t`, equal to `Σ (p − t)²` on FINITE coordinates
    — the one place the precondition is used (Proof/Finite.lean, Proof/RefValue.lean) — and divides by 2048 where the
    kernel multiplies by the exact word `2⁻¹¹`.
  * Both end with the same blend of the two means (Proof/KerGlueTail.lean).
  The idealization rewrote nothing, so `preserves` is `True`.
-/
import proofs.«102313_j17695265260053_2_alg».proof.Defs
import proofs.«102313_j17695265260053_2_alg».proof.Proof.Gen.Kernel
import proofs.«102313_j17695265260053_2_alg».proof.Proof.Gen.KernelIdeal
import proofs.«102313_j17695265260053_2_alg».proof.Proof.Gen.ReferenceIdeal
import proofs.«102313_j17695265260053_2_alg».proof.Proof.Gen.Pre_finite_inputs
import proofs.«102313_j17695265260053_2_alg».proof.Proof.Gen.ReferenceIdeal.Run
import proofs.«102313_j17695265260053_2_alg».proof.Proof.Gen.ReferenceIdeal.Read
import proofs.«102313_j17695265260053_2_alg».proof.Proof.Claims
import proofs.«102313_j17695265260053_2_alg».proof.Proof.KerFrameK

noncomputable section

namespace Cert.Proof

open Idealize.ShloMosaic Idealize.SL.Sem

/-- The word-level kernel runs to the end, faults nowhere, and leaves its three arguments as launched. -/
theorem frame_p : Cert.frame_Kernel := fun m ρ _ => Cert.Kernel.Chamfer.frame_run (F := Bits) m ρ

theorem claim : Cert.Claim := ⟨Cert.Kernel.Gen.facts, Cert.KernelIdeal.Gen.facts, Cert.ReferenceIdeal.Gen.facts, Cert.Pre_finite_inputs.Gen.facts,
  frame_p, Cert.Proof.Claims.frame_pi, Cert.Proof.Claims.frame_ri, trivial, Cert.Proof.Claims.algebraic⟩

end Cert.Proof

end
